-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v173)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v173) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x128 .f32) (main_arg3 : FVec F S128 .f32) (main_arg4 : FVec F S128x64 .f32) (main_arg5 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S100000x64 : Shape := ⟨2, ![100000, 64]⟩
abbrev S2000x512 : Shape := ⟨2, ![2000, 512]⟩
abbrev S2000x64 : Shape := ⟨2, ![2000, 64]⟩
abbrev S2000x128 : Shape := ⟨2, ![2000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S10000x64 : Shape := ⟨2, ![10000, 64]⟩
abbrev S10000 : Shape := ⟨1, ![10000]⟩
abbrev S10000x1 : Shape := ⟨2, ![10000, 1]⟩

abbrev nBuf : Space → Nat
  | .hbm => 220
  | .vmem => 72
  | .smem => 0
  | _ => 0

abbrev hbmTy0_0 (i : Nat) : BufTy := match i % 128 with
  | 0 => ⟨S100000x512, .f32⟩
  | 1 => ⟨S2x1600000, .i32⟩
  | 2 => ⟨S512x128, .f32⟩
  | 3 => ⟨S128, .f32⟩
  | 4 => ⟨S128x64, .f32⟩
  | 5 => ⟨S64, .f32⟩
  | 6 => ⟨S1x128, .f32⟩
  | 7 => ⟨S1x64, .f32⟩
  | 8 => ⟨S100000x64, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x64, .f32⟩
  | 58 => ⟨S1700000x1, .f32⟩
  | 59 => ⟨S1700000x64, .f32⟩
  | 60 => ⟨S1700000x64, .f32⟩
  | 61 => ⟨S_, .f32⟩
  | 62 => ⟨S100000x64, .f32⟩
  | 63 => ⟨S1700000x1, .i32⟩
  | 64 => ⟨S100000x64, .f32⟩
  | 65 => ⟨S100000x64, .f32⟩
  | 66 => ⟨S_, .i32⟩
  | 67 => ⟨S1700000, .i32⟩
  | 68 => ⟨S1700000, .i1⟩
  | 69 => ⟨S_, .i32⟩
  | 70 => ⟨S1700000, .i32⟩
  | 71 => ⟨S1700000, .i32⟩
  | 72 => ⟨S1700000, .i32⟩
  | 73 => ⟨S1700000x1, .i32⟩
  | 74 => ⟨S1700000x64, .f32⟩
  | 75 => ⟨S1700000x1, .f32⟩
  | 76 => ⟨S1700000x64, .f32⟩
  | 77 => ⟨S1700000x64, .f32⟩
  | 78 => ⟨S_, .f32⟩
  | 79 => ⟨S100000x64, .f32⟩
  | 80 => ⟨S1700000x1, .i32⟩
  | 81 => ⟨S100000x64, .f32⟩
  | 82 => ⟨S100000x64, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000x64, .f32⟩
  | 92 => ⟨S1700000x1, .f32⟩
  | 93 => ⟨S1700000x64, .f32⟩
  | 94 => ⟨S1700000x64, .f32⟩
  | 95 => ⟨S_, .f32⟩
  | 96 => ⟨S100000x64, .f32⟩
  | 97 => ⟨S1700000x1, .i32⟩
  | 98 => ⟨S100000x64, .f32⟩
  | 99 => ⟨S100000x64, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000x64, .f32⟩
  | 109 => ⟨S1700000x1, .f32⟩
  | 110 => ⟨S1700000x64, .f32⟩
  | 111 => ⟨S1700000x64, .f32⟩
  | 112 => ⟨S_, .f32⟩
  | 113 => ⟨S100000x64, .f32⟩
  | 114 => ⟨S1700000x1, .i32⟩
  | 115 => ⟨S100000x64, .f32⟩
  | 116 => ⟨S100000x64, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000x64, .f32⟩
  | 126 => ⟨S1700000x1, .f32⟩
  | 127 => ⟨S1700000x64, .f32⟩
  | _ => ⟨S100000x512, .f32⟩

abbrev hbmTy0_1 (i : Nat) : BufTy := match i % 128 with
  | 0 => ⟨S1700000x64, .f32⟩
  | 1 => ⟨S_, .f32⟩
  | 2 => ⟨S100000x64, .f32⟩
  | 3 => ⟨S1700000x1, .i32⟩
  | 4 => ⟨S100000x64, .f32⟩
  | 5 => ⟨S100000x64, .f32⟩
  | 6 => ⟨S_, .i32⟩
  | 7 => ⟨S1700000, .i32⟩
  | 8 => ⟨S1700000, .i1⟩
  | 9 => ⟨S_, .i32⟩
  | 10 => ⟨S1700000, .i32⟩
  | 11 => ⟨S1700000, .i32⟩
  | 12 => ⟨S1700000, .i32⟩
  | 13 => ⟨S1700000x1, .i32⟩
  | 14 => ⟨S1700000x64, .f32⟩
  | 15 => ⟨S1700000x1, .f32⟩
  | 16 => ⟨S1700000x64, .f32⟩
  | 17 => ⟨S1700000x64, .f32⟩
  | 18 => ⟨S_, .f32⟩
  | 19 => ⟨S100000x64, .f32⟩
  | 20 => ⟨S1700000x1, .i32⟩
  | 21 => ⟨S100000x64, .f32⟩
  | 22 => ⟨S100000x64, .f32⟩
  | 23 => ⟨S_, .i32⟩
  | 24 => ⟨S1700000, .i32⟩
  | 25 => ⟨S1700000, .i1⟩
  | 26 => ⟨S_, .i32⟩
  | 27 => ⟨S1700000, .i32⟩
  | 28 => ⟨S1700000, .i32⟩
  | 29 => ⟨S1700000, .i32⟩
  | 30 => ⟨S1700000x1, .i32⟩
  | 31 => ⟨S1700000x64, .f32⟩
  | 32 => ⟨S1700000x1, .f32⟩
  | 33 => ⟨S1700000x64, .f32⟩
  | 34 => ⟨S1700000x64, .f32⟩
  | 35 => ⟨S_, .f32⟩
  | 36 => ⟨S100000x64, .f32⟩
  | 37 => ⟨S1700000x1, .i32⟩
  | 38 => ⟨S100000x64, .f32⟩
  | 39 => ⟨S100000x64, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000x64, .f32⟩
  | 49 => ⟨S1700000x1, .f32⟩
  | 50 => ⟨S1700000x64, .f32⟩
  | 51 => ⟨S1700000x64, .f32⟩
  | 52 => ⟨S_, .f32⟩
  | 53 => ⟨S100000x64, .f32⟩
  | 54 => ⟨S1700000x1, .i32⟩
  | 55 => ⟨S100000x64, .f32⟩
  | 56 => ⟨S100000x64, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x64, .f32⟩
  | 66 => ⟨S1700000x1, .f32⟩
  | 67 => ⟨S1700000x64, .f32⟩
  | 68 => ⟨S1700000x64, .f32⟩
  | 69 => ⟨S_, .f32⟩
  | 70 => ⟨S100000x64, .f32⟩
  | 71 => ⟨S1700000x1, .i32⟩
  | 72 => ⟨S100000x64, .f32⟩
  | 73 => ⟨S100000x64, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000x64, .f32⟩
  | 83 => ⟨S1700000x1, .f32⟩
  | 84 => ⟨S1700000x64, .f32⟩
  | 85 => ⟨S1700000x64, .f32⟩
  | 86 => ⟨S_, .f32⟩
  | 87 => ⟨S100000x64, .f32⟩
  | 88 => ⟨S1700000x1, .i32⟩
  | 89 => ⟨S100000x64, .f32⟩
  | 90 => ⟨S100000x64, .f32⟩
  | 91 => ⟨S100000x64, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S1x128, .f32⟩
  | .local _ .vmem, ⟨4, _⟩ => ⟨S128x64, .f32⟩
  | .local _ .vmem, ⟨5, _⟩ => ⟨S1x64, .f32⟩
  | .local _ .vmem, ⟨6, _⟩ => ⟨S2000x64, .f32⟩
  | .local _ .vmem, ⟨7, _⟩ => ⟨S2000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S10000x64, .f32⟩
  | .local _ .vmem, ⟨50, _⟩ => ⟨S10000x64, .f32⟩
  | .local _ .vmem, ⟨51, _⟩ => ⟨S10000x64, .f32⟩
  | .local _ .vmem, ⟨52, _⟩ => ⟨S10000x64, .f32⟩
  | .local _ .vmem, ⟨53, _⟩ => ⟨S10000x64, .f32⟩
  | .local _ .vmem, ⟨54, _⟩ => ⟨S10000x64, .f32⟩
  | .local _ .vmem, ⟨55, _⟩ => ⟨S10000x64, .f32⟩
  | .local _ .vmem, ⟨56, _⟩ => ⟨S10000x64, .f32⟩
  | .local _ .vmem, ⟨57, _⟩ => ⟨S10000x64, .f32⟩
  | .local _ .vmem, ⟨58, _⟩ => ⟨S10000x64, .f32⟩
  | .local _ .vmem, ⟨59, _⟩ => ⟨S10000x64, .f32⟩
  | .local _ .vmem, ⟨60, _⟩ => ⟨S10000x64, .f32⟩
  | .local _ .vmem, ⟨61, _⟩ => ⟨S10000x64, .f32⟩
  | .local _ .vmem, ⟨62, _⟩ => ⟨S10000x64, .f32⟩
  | .local _ .vmem, ⟨63, _⟩ => ⟨S10000x64, .f32⟩
  | .local _ .vmem, ⟨64, _⟩ => ⟨S10000x64, .f32⟩
  | .local _ .vmem, ⟨65, _⟩ => ⟨S10000x64, .f32⟩
  | .local _ .vmem, ⟨66, _⟩ => ⟨S10000x64, .f32⟩
  | .local _ .vmem, ⟨67, _⟩ => ⟨S10000x64, .f32⟩
  | .local _ .vmem, ⟨68, _⟩ => ⟨S10000x64, .f32⟩
  | .local _ .vmem, ⟨69, _⟩ => ⟨S10000x64, .f32⟩
  | .local _ .vmem, ⟨70, _⟩ => ⟨S10000x64, .f32⟩
  | .local _ .vmem, ⟨71, _⟩ => ⟨S10000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_12 : Ref sig .tc := ⟨.hbm, 83, rfl⟩
abbrev main_v61 : Ref sig .tc := ⟨.hbm, 84, rfl⟩
abbrev main_v62 : Ref sig .tc := ⟨.hbm, 85, rfl⟩
abbrev main_c_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c_15 : Ref sig .tc := ⟨.hbm, 100, rfl⟩
abbrev main_v75 : Ref sig .tc := ⟨.hbm, 101, rfl⟩
abbrev main_v76 : Ref sig .tc := ⟨.hbm, 102, rfl⟩
abbrev main_c_16 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_17 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_c_18 : Ref sig .tc := ⟨.hbm, 117, rfl⟩
abbrev main_v89 : Ref sig .tc := ⟨.hbm, 118, rfl⟩
abbrev main_v90 : Ref sig .tc := ⟨.hbm, 119, rfl⟩
abbrev main_c_19 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_20 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_c_21 : Ref sig .tc := ⟨.hbm, 134, rfl⟩
abbrev main_v103 : Ref sig .tc := ⟨.hbm, 135, rfl⟩
abbrev main_v104 : Ref sig .tc := ⟨.hbm, 136, rfl⟩
abbrev main_c_22 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_23 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_c_24 : Ref sig .tc := ⟨.hbm, 151, rfl⟩
abbrev main_v117 : Ref sig .tc := ⟨.hbm, 152, rfl⟩
abbrev main_v118 : Ref sig .tc := ⟨.hbm, 153, rfl⟩
abbrev main_c_25 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_cst_26 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_c_27 : Ref sig .tc := ⟨.hbm, 168, rfl⟩
abbrev main_v131 : Ref sig .tc := ⟨.hbm, 169, rfl⟩
abbrev main_v132 : Ref sig .tc := ⟨.hbm, 170, rfl⟩
abbrev main_c_28 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_cst_29 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_c_30 : Ref sig .tc := ⟨.hbm, 185, rfl⟩
abbrev main_v145 : Ref sig .tc := ⟨.hbm, 186, rfl⟩
abbrev main_v146 : Ref sig .tc := ⟨.hbm, 187, rfl⟩
abbrev main_c_31 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_cst_32 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_c_33 : Ref sig .tc := ⟨.hbm, 202, rfl⟩
abbrev main_v159 : Ref sig .tc := ⟨.hbm, 203, rfl⟩
abbrev main_v160 : Ref sig .tc := ⟨.hbm, 204, rfl⟩
abbrev main_c_34 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_cst_35 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg2_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg1_1 : Ref sig .tc := ⟨.vmem, 47, rfl⟩
abbrev cc7_stg2_0 : Ref sig .tc := ⟨.vmem, 48, rfl⟩
abbrev cc7_stg2_1 : Ref sig .tc := ⟨.vmem, 49, rfl⟩
abbrev cc8_stg0_0 : Ref sig .tc := ⟨.vmem, 50, rfl⟩
abbrev cc8_stg0_1 : Ref sig .tc := ⟨.vmem, 51, rfl⟩
abbrev cc8_stg1_0 : Ref sig .tc := ⟨.vmem, 52, rfl⟩
abbrev cc8_stg1_1 : Ref sig .tc := ⟨.vmem, 53, rfl⟩
abbrev cc8_stg2_0 : Ref sig .tc := ⟨.vmem, 54, rfl⟩
abbrev cc8_stg2_1 : Ref sig .tc := ⟨.vmem, 55, rfl⟩
abbrev cc9_stg0_0 : Ref sig .tc := ⟨.vmem, 56, rfl⟩
abbrev cc9_stg0_1 : Ref sig .tc := ⟨.vmem, 57, rfl⟩
abbrev cc9_stg1_0 : Ref sig .tc := ⟨.vmem, 58, rfl⟩
abbrev cc9_stg1_1 : Ref sig .tc := ⟨.vmem, 59, rfl⟩
abbrev cc9_stg2_0 : Ref sig .tc := ⟨.vmem, 60, rfl⟩
abbrev cc9_stg2_1 : Ref sig .tc := ⟨.vmem, 61, rfl⟩
abbrev cc10_stg0_0 : Ref sig .tc := ⟨.vmem, 62, rfl⟩
abbrev cc10_stg0_1 : Ref sig .tc := ⟨.vmem, 63, rfl⟩
abbrev cc10_stg1_0 : Ref sig .tc := ⟨.vmem, 64, rfl⟩
abbrev cc10_stg1_1 : Ref sig .tc := ⟨.vmem, 65, rfl⟩
abbrev cc10_stg2_0 : Ref sig .tc := ⟨.vmem, 66, rfl⟩
abbrev cc10_stg2_1 : Ref sig .tc := ⟨.vmem, 67, rfl⟩
abbrev cc11_stg0_0 : Ref sig .tc := ⟨.vmem, 68, rfl⟩
abbrev cc11_stg0_1 : Ref sig .tc := ⟨.vmem, 69, rfl⟩
abbrev cc11_stg1_0 : Ref sig .tc := ⟨.vmem, 70, rfl⟩
abbrev cc11_stg1_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem2_1 : DmaSem sig := 43
abbrev cc7_sem0_0 : DmaSem sig := 44
abbrev cc7_sem0_1 : DmaSem sig := 45
abbrev cc7_sem1_0 : DmaSem sig := 46
abbrev cc7_sem1_1 : DmaSem sig := 47
abbrev cc7_sem2_0 : DmaSem sig := 48
abbrev cc7_sem2_1 : DmaSem sig := 49
abbrev cc8_sem0_0 : DmaSem sig := 50
abbrev cc8_sem0_1 : DmaSem sig := 51
abbrev cc8_sem1_0 : DmaSem sig := 52
abbrev cc8_sem1_1 : DmaSem sig := 53
abbrev cc8_sem2_0 : DmaSem sig := 54
abbrev cc8_sem2_1 : DmaSem sig := 55
abbrev cc9_sem0_0 : DmaSem sig := 56
abbrev cc9_sem0_1 : DmaSem sig := 57
abbrev cc9_sem1_0 : DmaSem sig := 58
abbrev cc9_sem1_1 : DmaSem sig := 59
abbrev cc9_sem2_0 : DmaSem sig := 60
abbrev cc9_sem2_1 : DmaSem sig := 61
abbrev cc10_sem0_0 : DmaSem sig := 62
abbrev cc10_sem0_1 : DmaSem sig := 63
abbrev cc10_sem1_0 : DmaSem sig := 64
abbrev cc10_sem1_1 : DmaSem sig := 65
abbrev cc10_sem2_0 : DmaSem sig := 66
abbrev cc10_sem2_1 : DmaSem sig := 67
abbrev cc11_sem0_0 : DmaSem sig := 68
abbrev cc11_sem0_1 : DmaSem sig := 69
abbrev cc11_sem1_0 : DmaSem sig := 70
abbrev cc11_sem1_1 : DmaSem sig := 71

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S10000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S10000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S10000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S10000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S10000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S10000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S10000x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

class Facts₀ : Prop where
  shapeCasts_S128_S1x128 : S128.ShapeCasts S1x128
  shapeCasts_S64_S1x64 : S64.ShapeCasts S1x64
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  reduces_S10000x64_S10000 : S10000x64.Reduces [1] S10000
  shapeCasts_S10000_S10000x1 : S10000.ShapeCasts S10000x1
  broadcasts_S10000x1_S10000x64 : S10000x1.Broadcasts S10000x64
  dot_S2000x512_S512x128_S2000x128_1_0_0_1_n_n_wf : DotDims.WF S2000x512 S512x128 S2000x128 [1] [0] [0] [1] [] []
  dot_S2000x128_S128x64_S2000x64_1_0_0_1_n_n_wf : DotDims.WF S2000x128 S128x64 S2000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S100000x64.size a
  hwx6_1 : ∀ i : grid6.Coords, EltTy.bits .f32 = 32 ∨ (Rect.block (s := S100000x64) S10000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x64.size a ≤ S100000x64.size a
  hwx7_1 : ∀ i : grid7.Coords, EltTy.bits .f32 = 32 ∨ (Rect.block (s := S100000x64) S10000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x64.size a ≤ S100000x64.size a
  hwx7_2 : ∀ i : grid7.Coords, EltTy.bits .f32 = 32 ∨ (Rect.block (s := S100000x64) S10000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x64.size a ≤ S100000x64.size a
  hwx8_1 : ∀ i : grid8.Coords, EltTy.bits .f32 = 32 ∨ (Rect.block (s := S100000x64) S10000x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x64.size a ≤ S100000x64.size a
  hwx8_2 : ∀ i : grid8.Coords, EltTy.bits .f32 = 32 ∨ (Rect.block (s := S100000x64) S10000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S10000x64.size a ≤ S100000x64.size a
  hwx9_1 : ∀ i : grid9.Coords, EltTy.bits .f32 = 32 ∨ (Rect.block (s := S100000x64) S10000x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S10000x64.size a ≤ S100000x64.size a
  hwx9_2 : ∀ i : grid9.Coords, EltTy.bits .f32 = 32 ∨ (Rect.block (s := S100000x64) S10000x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x64.size a ≤ S100000x64.size a
  hwx10_0 : ∀ i : grid10.Coords, EltTy.bits .f32 = 32 ∨ (Rect.block (s := S100000x64) S10000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S10000x64.size a ≤ S100000x64.size a
  hwx10_1 : ∀ i : grid10.Coords, EltTy.bits .f32 = 32 ∨ (Rect.block (s := S100000x64) S10000x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S10000x64.size a ≤ S100000x64.size a
  hwx10_2 : ∀ i : grid10.Coords, EltTy.bits .f32 = 32 ∨ (Rect.block (s := S100000x64) S10000x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x64.size a ≤ S100000x64.size a
  hwx11_0 : ∀ i : grid11.Coords, EltTy.bits .f32 = 32 ∨ (Rect.block (s := S100000x64) S10000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S10000x64.size a ≤ S100000x64.size a
  hwx11_1 : ∀ i : grid11.Coords, EltTy.bits .f32 = 32 ∨ (Rect.block (s := S100000x64) S10000x64.size (cc11_transform_1 i) (hinb11_1 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v59) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v60) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v73) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v74) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v87) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v2) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v88) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v101) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v2) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v102) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v115) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v2) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v116) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v129) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v2) S10000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v130) S10000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v143) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v2) S10000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v144) S10000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v157) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v2) S10000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v158) S10000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v171) S10000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v2) S10000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v172) S10000x64.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v172) S10000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v173) S10000x64.size cc11_transform_1 reads11_1 true false 2 stage11_1 sem11_1
    hrank11 hreads11_1 hinb11_1 nbuf11_1 (Memref.isWhole_whole _) hwx11_1 hstage11_1

abbrev win11 : Fin 2 → Pipeline.Window sig grid11 := fun | 0 => win11_0 | 1 => win11_1 | ⟨_ + 2, h⟩ => absurd h (Nat.not_lt.2 (Nat.le_add_left _ _))
abbrev spec11 : Fin 2 → Pipeline.WinSpec sig grid11.rank := fun w => (win11 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S100000x128 : Shape := ⟨2, ![100000, 128]⟩
abbrev S1x128 : Shape := ⟨2, ![1, 128]⟩
abbrev S_ : Shape := ⟨0, ![]⟩
abbrev S100000x64 : Shape := ⟨2, ![100000, 64]⟩
abbrev S1x64 : Shape := ⟨2, ![1, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x64 : Shape := ⟨2, ![1700000, 64]⟩
abbrev S100000x1 : Shape := ⟨2, ![100000, 1]⟩

abbrev nBuf : Space → Nat
  | .hbm => 293
  | .vmem => 0
  | .smem => 0
  | _ => 0

abbrev hbmTy0_0 (i : Nat) : BufTy := match i % 128 with
  | 0 => ⟨S100000x512, .f32⟩
  | 1 => ⟨S2x1600000, .i32⟩
  | 2 => ⟨S512x128, .f32⟩
  | 3 => ⟨S128, .f32⟩
  | 4 => ⟨S128x64, .f32⟩
  | 5 => ⟨S64, .f32⟩
  | 6 => ⟨S100000x128, .f32⟩
  | 7 => ⟨S1x128, .f32⟩
  | 8 => ⟨S100000x128, .f32⟩
  | 9 => ⟨S100000x128, .f32⟩
  | 10 => ⟨S_, .f32⟩
  | 11 => ⟨S100000x128, .f32⟩
  | 12 => ⟨S100000x128, .f32⟩
  | 13 => ⟨S100000x64, .f32⟩
  | 14 => ⟨S1x64, .f32⟩
  | 15 => ⟨S100000x64, .f32⟩
  | 16 => ⟨S100000x64, .f32⟩
  | 17 => ⟨S100000, .i32⟩
  | 18 => ⟨S1x1600000, .i32⟩
  | 19 => ⟨S1600000, .i32⟩
  | 20 => ⟨S1700000, .i32⟩
  | 21 => ⟨S1x1600000, .i32⟩
  | 22 => ⟨S1600000, .i32⟩
  | 23 => ⟨S1700000, .i32⟩
  | 24 => ⟨S_, .f32⟩
  | 25 => ⟨S1700000, .f32⟩
  | 26 => ⟨S_, .f32⟩
  | 27 => ⟨S100000, .f32⟩
  | 28 => ⟨S1700000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S1700000x1, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x64, .f32⟩
  | 67 => ⟨S1700000x64, .f32⟩
  | 68 => ⟨S1700000x64, .f32⟩
  | 69 => ⟨S_, .f32⟩
  | 70 => ⟨S100000x64, .f32⟩
  | 71 => ⟨S1700000x1, .i32⟩
  | 72 => ⟨S100000x64, .f32⟩
  | 73 => ⟨S_, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S100000x64, .f32⟩
  | 80 => ⟨S_, .i32⟩
  | 81 => ⟨S1700000, .i32⟩
  | 82 => ⟨S1700000, .i1⟩
  | 83 => ⟨S_, .i32⟩
  | 84 => ⟨S1700000, .i32⟩
  | 85 => ⟨S1700000, .i32⟩
  | 86 => ⟨S1700000, .i32⟩
  | 87 => ⟨S1700000x1, .i32⟩
  | 88 => ⟨S1700000x64, .f32⟩
  | 89 => ⟨S1700000x64, .f32⟩
  | 90 => ⟨S1700000x64, .f32⟩
  | 91 => ⟨S_, .f32⟩
  | 92 => ⟨S100000x64, .f32⟩
  | 93 => ⟨S1700000x1, .i32⟩
  | 94 => ⟨S100000x64, .f32⟩
  | 95 => ⟨S_, .f32⟩
  | 96 => ⟨S100000x64, .f32⟩
  | 97 => ⟨S100000x64, .f32⟩
  | 98 => ⟨S_, .f32⟩
  | 99 => ⟨S100000x64, .f32⟩
  | 100 => ⟨S100000x64, .f32⟩
  | 101 => ⟨S100000x64, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000x64, .f32⟩
  | 111 => ⟨S1700000x64, .f32⟩
  | 112 => ⟨S1700000x64, .f32⟩
  | 113 => ⟨S_, .f32⟩
  | 114 => ⟨S100000x64, .f32⟩
  | 115 => ⟨S1700000x1, .i32⟩
  | 116 => ⟨S100000x64, .f32⟩
  | 117 => ⟨S_, .f32⟩
  | 118 => ⟨S100000x64, .f32⟩
  | 119 => ⟨S100000x64, .f32⟩
  | 120 => ⟨S_, .f32⟩
  | 121 => ⟨S100000x64, .f32⟩
  | 122 => ⟨S100000x64, .f32⟩
  | 123 => ⟨S100000x64, .f32⟩
  | 124 => ⟨S_, .i32⟩
  | 125 => ⟨S1700000, .i32⟩
  | 126 => ⟨S1700000, .i1⟩
  | 127 => ⟨S_, .i32⟩
  | _ => ⟨S100000x512, .f32⟩

abbrev hbmTy0_1 (i : Nat) : BufTy := match i % 128 with
  | 0 => ⟨S1700000, .i32⟩
  | 1 => ⟨S1700000, .i32⟩
  | 2 => ⟨S1700000, .i32⟩
  | 3 => ⟨S1700000x1, .i32⟩
  | 4 => ⟨S1700000x64, .f32⟩
  | 5 => ⟨S1700000x64, .f32⟩
  | 6 => ⟨S1700000x64, .f32⟩
  | 7 => ⟨S_, .f32⟩
  | 8 => ⟨S100000x64, .f32⟩
  | 9 => ⟨S1700000x1, .i32⟩
  | 10 => ⟨S100000x64, .f32⟩
  | 11 => ⟨S_, .f32⟩
  | 12 => ⟨S100000x64, .f32⟩
  | 13 => ⟨S100000x64, .f32⟩
  | 14 => ⟨S_, .f32⟩
  | 15 => ⟨S100000x64, .f32⟩
  | 16 => ⟨S100000x64, .f32⟩
  | 17 => ⟨S100000x64, .f32⟩
  | 18 => ⟨S_, .i32⟩
  | 19 => ⟨S1700000, .i32⟩
  | 20 => ⟨S1700000, .i1⟩
  | 21 => ⟨S_, .i32⟩
  | 22 => ⟨S1700000, .i32⟩
  | 23 => ⟨S1700000, .i32⟩
  | 24 => ⟨S1700000, .i32⟩
  | 25 => ⟨S1700000x1, .i32⟩
  | 26 => ⟨S1700000x64, .f32⟩
  | 27 => ⟨S1700000x64, .f32⟩
  | 28 => ⟨S1700000x64, .f32⟩
  | 29 => ⟨S_, .f32⟩
  | 30 => ⟨S100000x64, .f32⟩
  | 31 => ⟨S1700000x1, .i32⟩
  | 32 => ⟨S100000x64, .f32⟩
  | 33 => ⟨S_, .f32⟩
  | 34 => ⟨S100000x64, .f32⟩
  | 35 => ⟨S100000x64, .f32⟩
  | 36 => ⟨S_, .f32⟩
  | 37 => ⟨S100000x64, .f32⟩
  | 38 => ⟨S100000x64, .f32⟩
  | 39 => ⟨S100000x64, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000x64, .f32⟩
  | 49 => ⟨S1700000x64, .f32⟩
  | 50 => ⟨S1700000x64, .f32⟩
  | 51 => ⟨S_, .f32⟩
  | 52 => ⟨S100000x64, .f32⟩
  | 53 => ⟨S1700000x1, .i32⟩
  | 54 => ⟨S100000x64, .f32⟩
  | 55 => ⟨S_, .f32⟩
  | 56 => ⟨S100000x64, .f32⟩
  | 57 => ⟨S100000x64, .f32⟩
  | 58 => ⟨S_, .f32⟩
  | 59 => ⟨S100000x64, .f32⟩
  | 60 => ⟨S100000x64, .f32⟩
  | 61 => ⟨S100000x64, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000x64, .f32⟩
  | 71 => ⟨S1700000x64, .f32⟩
  | 72 => ⟨S1700000x64, .f32⟩
  | 73 => ⟨S_, .f32⟩
  | 74 => ⟨S100000x64, .f32⟩
  | 75 => ⟨S1700000x1, .i32⟩
  | 76 => ⟨S100000x64, .f32⟩
  | 77 => ⟨S_, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S100000x64, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000x64, .f32⟩
  | 93 => ⟨S1700000x64, .f32⟩
  | 94 => ⟨S1700000x64, .f32⟩
  | 95 => ⟨S_, .f32⟩
  | 96 => ⟨S100000x64, .f32⟩
  | 97 => ⟨S1700000x1, .i32⟩
  | 98 => ⟨S100000x64, .f32⟩
  | 99 => ⟨S_, .f32⟩
  | 100 => ⟨S100000x64, .f32⟩
  | 101 => ⟨S100000x64, .f32⟩
  | 102 => ⟨S_, .f32⟩
  | 103 => ⟨S100000x64, .f32⟩
  | 104 => ⟨S100000x64, .f32⟩
  | 105 => ⟨S100000x64, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x64, .f32⟩
  | 115 => ⟨S1700000x64, .f32⟩
  | 116 => ⟨S1700000x64, .f32⟩
  | 117 => ⟨S_, .f32⟩
  | 118 => ⟨S100000x64, .f32⟩
  | 119 => ⟨S1700000x1, .i32⟩
  | 120 => ⟨S100000x64, .f32⟩
  | 121 => ⟨S_, .f32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S100000x64, .f32⟩
  | _ => ⟨S100000x512, .f32⟩

abbrev hbmTy0_2 (i : Nat) : BufTy := match i % 128 with
  | 0 => ⟨S_, .i32⟩
  | 1 => ⟨S1700000, .i32⟩
  | 2 => ⟨S1700000, .i1⟩
  | 3 => ⟨S_, .i32⟩
  | 4 => ⟨S1700000, .i32⟩
  | 5 => ⟨S1700000, .i32⟩
  | 6 => ⟨S1700000, .i32⟩
  | 7 => ⟨S1700000x1, .i32⟩
  | 8 => ⟨S1700000x64, .f32⟩
  | 9 => ⟨S1700000x64, .f32⟩
  | 10 => ⟨S1700000x64, .f32⟩
  | 11 => ⟨S_, .f32⟩
  | 12 => ⟨S100000x64, .f32⟩
  | 13 => ⟨S1700000x1, .i32⟩
  | 14 => ⟨S100000x64, .f32⟩
  | 15 => ⟨S_, .f32⟩
  | 16 => ⟨S100000x64, .f32⟩
  | 17 => ⟨S100000x64, .f32⟩
  | 18 => ⟨S_, .f32⟩
  | 19 => ⟨S100000x64, .f32⟩
  | 20 => ⟨S100000x64, .f32⟩
  | 21 => ⟨S100000x64, .f32⟩
  | 22 => ⟨S_, .f32⟩
  | 23 => ⟨S100000, .f32⟩
  | 24 => ⟨S_, .f32⟩
  | 25 => ⟨S100000, .f32⟩
  | 26 => ⟨S100000, .f32⟩
  | 27 => ⟨S100000x1, .f32⟩
  | 28 => ⟨S100000x64, .f32⟩
  | 29 => ⟨S100000x64, .f32⟩
  | 30 => ⟨S100000x64, .f32⟩
  | 31 => ⟨S_, .f32⟩
  | 32 => ⟨S100000, .f32⟩
  | 33 => ⟨S100000x1, .f32⟩
  | 34 => ⟨S100000x1, .f32⟩
  | 35 => ⟨S100000x64, .f32⟩
  | 36 => ⟨S100000x64, .f32⟩
  | _ => ⟨S100000x512, .f32⟩

abbrev hbmTy (i : Nat) : BufTy := match i / 128 with
  | 0 => hbmTy0_0 i
  | 1 => hbmTy0_1 i
  | 2 => hbmTy0_2 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_v23 : Ref sig .tc := ⟨.hbm, 37, rfl⟩
abbrev main_c : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_6 : Ref sig .tc := ⟨.hbm, 58, rfl⟩
abbrev main_v40 : Ref sig .tc := ⟨.hbm, 59, rfl⟩
abbrev main_v41 : Ref sig .tc := ⟨.hbm, 60, rfl⟩
abbrev main_c_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_14 : Ref sig .tc := ⟨.hbm, 95, rfl⟩
abbrev main_v69 : Ref sig .tc := ⟨.hbm, 96, rfl⟩
abbrev main_v70 : Ref sig .tc := ⟨.hbm, 97, rfl⟩
abbrev main_cst_15 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_c_17 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_18 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_19 : Ref sig .tc := ⟨.hbm, 117, rfl⟩
abbrev main_v86 : Ref sig .tc := ⟨.hbm, 118, rfl⟩
abbrev main_v87 : Ref sig .tc := ⟨.hbm, 119, rfl⟩
abbrev main_cst_20 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_c_21 : Ref sig .tc := ⟨.hbm, 124, rfl⟩
abbrev main_v91 : Ref sig .tc := ⟨.hbm, 125, rfl⟩
abbrev main_v92 : Ref sig .tc := ⟨.hbm, 126, rfl⟩
abbrev main_c_22 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_23 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_24 : Ref sig .tc := ⟨.hbm, 139, rfl⟩
abbrev main_v103 : Ref sig .tc := ⟨.hbm, 140, rfl⟩
abbrev main_v104 : Ref sig .tc := ⟨.hbm, 141, rfl⟩
abbrev main_cst_25 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_c_26 : Ref sig .tc := ⟨.hbm, 146, rfl⟩
abbrev main_v108 : Ref sig .tc := ⟨.hbm, 147, rfl⟩
abbrev main_v109 : Ref sig .tc := ⟨.hbm, 148, rfl⟩
abbrev main_c_27 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_28 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_29 : Ref sig .tc := ⟨.hbm, 161, rfl⟩
abbrev main_v120 : Ref sig .tc := ⟨.hbm, 162, rfl⟩
abbrev main_v121 : Ref sig .tc := ⟨.hbm, 163, rfl⟩
abbrev main_cst_30 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_c_31 : Ref sig .tc := ⟨.hbm, 168, rfl⟩
abbrev main_v125 : Ref sig .tc := ⟨.hbm, 169, rfl⟩
abbrev main_v126 : Ref sig .tc := ⟨.hbm, 170, rfl⟩
abbrev main_c_32 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_cst_33 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_cst_34 : Ref sig .tc := ⟨.hbm, 183, rfl⟩
abbrev main_v137 : Ref sig .tc := ⟨.hbm, 184, rfl⟩
abbrev main_v138 : Ref sig .tc := ⟨.hbm, 185, rfl⟩
abbrev main_cst_35 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_c_36 : Ref sig .tc := ⟨.hbm, 190, rfl⟩
abbrev main_v142 : Ref sig .tc := ⟨.hbm, 191, rfl⟩
abbrev main_v143 : Ref sig .tc := ⟨.hbm, 192, rfl⟩
abbrev main_c_37 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_cst_38 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_cst_39 : Ref sig .tc := ⟨.hbm, 205, rfl⟩
abbrev main_v154 : Ref sig .tc := ⟨.hbm, 206, rfl⟩
abbrev main_v155 : Ref sig .tc := ⟨.hbm, 207, rfl⟩
abbrev main_cst_40 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_c_41 : Ref sig .tc := ⟨.hbm, 212, rfl⟩
abbrev main_v159 : Ref sig .tc := ⟨.hbm, 213, rfl⟩
abbrev main_v160 : Ref sig .tc := ⟨.hbm, 214, rfl⟩
abbrev main_c_42 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_cst_43 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_cst_44 : Ref sig .tc := ⟨.hbm, 227, rfl⟩
abbrev main_v171 : Ref sig .tc := ⟨.hbm, 228, rfl⟩
abbrev main_v172 : Ref sig .tc := ⟨.hbm, 229, rfl⟩
abbrev main_cst_45 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_c_46 : Ref sig .tc := ⟨.hbm, 234, rfl⟩
abbrev main_v176 : Ref sig .tc := ⟨.hbm, 235, rfl⟩
abbrev main_v177 : Ref sig .tc := ⟨.hbm, 236, rfl⟩
abbrev main_c_47 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_cst_48 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_cst_49 : Ref sig .tc := ⟨.hbm, 249, rfl⟩
abbrev main_v188 : Ref sig .tc := ⟨.hbm, 250, rfl⟩
abbrev main_v189 : Ref sig .tc := ⟨.hbm, 251, rfl⟩
abbrev main_cst_50 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_c_51 : Ref sig .tc := ⟨.hbm, 256, rfl⟩
abbrev main_v193 : Ref sig .tc := ⟨.hbm, 257, rfl⟩
abbrev main_v194 : Ref sig .tc := ⟨.hbm, 258, rfl⟩
abbrev main_c_52 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_cst_53 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_cst_54 : Ref sig .tc := ⟨.hbm, 271, rfl⟩
abbrev main_v205 : Ref sig .tc := ⟨.hbm, 272, rfl⟩
abbrev main_v206 : Ref sig .tc := ⟨.hbm, 273, rfl⟩
abbrev main_cst_55 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_call2_cst : Ref sig .tc := ⟨.hbm, 278, rfl⟩
abbrev main_call2_v0 : Ref sig .tc := ⟨.hbm, 279, rfl⟩
abbrev main_call2_cst_0 : Ref sig .tc := ⟨.hbm, 280, rfl⟩
abbrev main_call2_v1 : Ref sig .tc := ⟨.hbm, 281, rfl⟩
abbrev main_call2_v2 : Ref sig .tc := ⟨.hbm, 282, rfl⟩
abbrev main_call2_v3 : Ref sig .tc := ⟨.hbm, 283, rfl⟩
abbrev main_call2_v4 : Ref sig .tc := ⟨.hbm, 284, rfl⟩
abbrev main_call2_v5 : Ref sig .tc := ⟨.hbm, 285, rfl⟩
abbrev main_call2_v6 : Ref sig .tc := ⟨.hbm, 286, rfl⟩
abbrev main_call2_cst_1 : Ref sig .tc := ⟨.hbm, 287, rfl⟩
abbrev main_call2_v7 : Ref sig .tc := ⟨.hbm, 288, rfl⟩
abbrev main_call2_v8 : Ref sig .tc := ⟨.hbm, 289, rfl⟩
abbrev main_call2_v9 : Ref sig .tc := ⟨.hbm, 290, rfl⟩
abbrev main_call2_v10 : Ref sig .tc := ⟨.hbm, 291, rfl⟩
abbrev main_v210 : Ref sig .tc := ⟨.hbm, 292, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x512_S512x128_S100000x128_1_0_0_1_n_n_wf : DotDims.WF S100000x512 S512x128 S100000x128 [1] [0] [0] [1] [] []
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Fold.lean ====
/-
  A line of host operations run in two stretches.

  The buffer contents after a list of operations is a fold over the list, so the contents after the whole list is the
  contents after its tail run from the contents after its head: a long line can be read one stretch at a time.
-/
import Idealize.ShloMosaic.Lib.StableHlo.Run

noncomputable section

namespace Cert.Gnn.Fold

open Idealize.ShloMosaic Idealize.ShloMosaic.StableHlo

variable {τ : Topo} {sig : RefSig} {Val : EltTy → Type}

/-- Two stretches run one after the other are their concatenation run as one. -/
theorem after_append (a b : List (HloOp τ sig Val)) (V : Valuation τ sig Val) :
    after (a ++ b) V = after b (after a V) := by
  induction a generalizing V with
  | nil => rfl
  | cons op a ih => exact ih _

/-- A line cut after its first `k` operations. -/
theorem after_split (L : List (HloOp τ sig Val)) (k : Nat) (V : Valuation τ sig Val) :
    after L V = after (L.drop k) (after (L.take k) V) := by
  rw [← after_append, List.take_append_drop]

end Cert.Gnn.Fold

end
-- ==== Proof.RefChain.lean ====
/-
  The reference's result buffer, read off its run.

  The reference is one line of 287 host operations; after it every buffer holds the fold of the operations over the
  launch contents.  The line is read in fifteen stretches — the perceptron, the source and target lists, the degrees' inverse
  square roots, the weights, the ten rounds, the log-softmax — and at the end of each stretch the buffers later stretches read hold the values the
  operation-by-operation reading of the program names (`val_<buffer>`): within a stretch every operation's result is its
  function of its operands, and the operands written by earlier stretches are carried unchanged.
-/
import proofs.«180246_j3951369912443_1_alg».proof.Proof.RefRun
import proofs.«180246_j3951369912443_1_alg».proof.Proof.RefRead
import proofs.«180246_j3951369912443_1_alg».proof.Proof.Fold
import Idealize.ShloMosaic.PureOps.Ideal

set_option maxRecDepth 16384

noncomputable section

namespace Cert.Gnn.RefChain

open Idealize.ShloMosaic Idealize.ShloMosaic.TcCoe Idealize.SL.Sem Idealize.ShloMosaic.StableHlo
open Cert.ReferenceIdeal Cert.ReferenceIdeal.ReadP

variable (m : (ℓ : Loc nD τ sig) → Buf (Elt Ideal) ℓ) (c : Dev nD)

/-- The six argument arrays as launched. -/
abbrev y0 := m ((c.tc : Thread nD τ).loc main_arg0)
abbrev y1 := m ((c.tc : Thread nD τ).loc main_arg1)
abbrev y2 := m ((c.tc : Thread nD τ).loc main_arg2)
abbrev y3 := m ((c.tc : Thread nD τ).loc main_arg3)
abbrev y4 := m ((c.tc : Thread nD τ).loc main_arg4)
abbrev y5 := m ((c.tc : Thread nD τ).loc main_arg5)

/-! ## A called function's buffers

The operations of a function the program calls (`where`, `log_softmax`) address their buffers through a typed handle that
carries the buffer's type; reading or writing contents through the handle of a literal buffer changes nothing. -/

theorem toBuf_main_cst_2 (p1 p2 p3) (v : (⟨S_, .f32⟩ : BufTy).Contents (Elt Ideal)) :
    (TRef.of (T := ⟨S_, .f32⟩) main_cst_2 p1 p2 p3).toBuf v = v := eq_of_heq (cast_heq _ _)
theorem ofBuf_main_cst_2 (p1 p2 p3) (v : (⟨S_, .f32⟩ : BufTy).Contents (Elt Ideal)) :
    (TRef.of (T := ⟨S_, .f32⟩) main_cst_2 p1 p2 p3).ofBuf v = v := eq_of_heq (cast_heq _ _)
theorem toBuf_main_call1_v0 (p1 p2 p3) (v : (⟨S_, .f32⟩ : BufTy).Contents (Elt Ideal)) :
    (TRef.of (T := ⟨S_, .f32⟩) main_call1_v0 p1 p2 p3).toBuf v = v := eq_of_heq (cast_heq _ _)
theorem ofBuf_main_call1_v0 (p1 p2 p3) (v : (⟨S_, .f32⟩ : BufTy).Contents (Elt Ideal)) :
    (TRef.of (T := ⟨S_, .f32⟩) main_call1_v0 p1 p2 p3).ofBuf v = v := eq_of_heq (cast_heq _ _)
theorem toBuf_main_call1_v1 (p1 p2 p3) (v : (⟨S100000, .f32⟩ : BufTy).Contents (Elt Ideal)) :
    (TRef.of (T := ⟨S100000, .f32⟩) main_call1_v1 p1 p2 p3).toBuf v = v := eq_of_heq (cast_heq _ _)
theorem ofBuf_main_call1_v1 (p1 p2 p3) (v : (⟨S100000, .f32⟩ : BufTy).Contents (Elt Ideal)) :
    (TRef.of (T := ⟨S100000, .f32⟩) main_call1_v1 p1 p2 p3).ofBuf v = v := eq_of_heq (cast_heq _ _)
theorem toBuf_main_v21 (p1 p2 p3) (v : (⟨S100000, .i1⟩ : BufTy).Contents (Elt Ideal)) :
    (TRef.of (T := ⟨S100000, .i1⟩) main_v21 p1 p2 p3).toBuf v = v := eq_of_heq (cast_heq _ _)
theorem ofBuf_main_v21 (p1 p2 p3) (v : (⟨S100000, .i1⟩ : BufTy).Contents (Elt Ideal)) :
    (TRef.of (T := ⟨S100000, .i1⟩) main_v21 p1 p2 p3).ofBuf v = v := eq_of_heq (cast_heq _ _)
theorem toBuf_main_v22 (p1 p2 p3) (v : (⟨S100000, .f32⟩ : BufTy).Contents (Elt Ideal)) :
    (TRef.of (T := ⟨S100000, .f32⟩) main_v22 p1 p2 p3).toBuf v = v := eq_of_heq (cast_heq _ _)
theorem ofBuf_main_v22 (p1 p2 p3) (v : (⟨S100000, .f32⟩ : BufTy).Contents (Elt Ideal)) :
    (TRef.of (T := ⟨S100000, .f32⟩) main_v22 p1 p2 p3).ofBuf v = v := eq_of_heq (cast_heq _ _)
theorem toBuf_main_v23 (p1 p2 p3) (v : (⟨S100000, .f32⟩ : BufTy).Contents (Elt Ideal)) :
    (TRef.of (T := ⟨S100000, .f32⟩) main_v23 p1 p2 p3).toBuf v = v := eq_of_heq (cast_heq _ _)
theorem ofBuf_main_v23 (p1 p2 p3) (v : (⟨S100000, .f32⟩ : BufTy).Contents (Elt Ideal)) :
    (TRef.of (T := ⟨S100000, .f32⟩) main_v23 p1 p2 p3).ofBuf v = v := eq_of_heq (cast_heq _ _)
theorem toBuf_main_call2_cst (p1 p2 p3) (v : (⟨S_, .f32⟩ : BufTy).Contents (Elt Ideal)) :
    (TRef.of (T := ⟨S_, .f32⟩) main_call2_cst p1 p2 p3).toBuf v = v := eq_of_heq (cast_heq _ _)
theorem ofBuf_main_call2_cst (p1 p2 p3) (v : (⟨S_, .f32⟩ : BufTy).Contents (Elt Ideal)) :
    (TRef.of (T := ⟨S_, .f32⟩) main_call2_cst p1 p2 p3).ofBuf v = v := eq_of_heq (cast_heq _ _)
theorem toBuf_main_v209 (p1 p2 p3) (v : (⟨S100000x64, .f32⟩ : BufTy).Contents (Elt Ideal)) :
    (TRef.of (T := ⟨S100000x64, .f32⟩) main_v209 p1 p2 p3).toBuf v = v := eq_of_heq (cast_heq _ _)
theorem ofBuf_main_v209 (p1 p2 p3) (v : (⟨S100000x64, .f32⟩ : BufTy).Contents (Elt Ideal)) :
    (TRef.of (T := ⟨S100000x64, .f32⟩) main_v209 p1 p2 p3).ofBuf v = v := eq_of_heq (cast_heq _ _)
theorem toBuf_main_call2_v0 (p1 p2 p3) (v : (⟨S100000, .f32⟩ : BufTy).Contents (Elt Ideal)) :
    (TRef.of (T := ⟨S100000, .f32⟩) main_call2_v0 p1 p2 p3).toBuf v = v := eq_of_heq (cast_heq _ _)
theorem ofBuf_main_call2_v0 (p1 p2 p3) (v : (⟨S100000, .f32⟩ : BufTy).Contents (Elt Ideal)) :
    (TRef.of (T := ⟨S100000, .f32⟩) main_call2_v0 p1 p2 p3).ofBuf v = v := eq_of_heq (cast_heq _ _)
theorem toBuf_main_call2_cst_0 (p1 p2 p3) (v : (⟨S_, .f32⟩ : BufTy).Contents (Elt Ideal)) :
    (TRef.of (T := ⟨S_, .f32⟩) main_call2_cst_0 p1 p2 p3).toBuf v = v := eq_of_heq (cast_heq _ _)
theorem ofBuf_main_call2_cst_0 (p1 p2 p3) (v : (⟨S_, .f32⟩ : BufTy).Contents (Elt Ideal)) :
    (TRef.of (T := ⟨S_, .f32⟩) main_call2_cst_0 p1 p2 p3).ofBuf v = v := eq_of_heq (cast_heq _ _)
theorem toBuf_main_call2_v1 (p1 p2 p3) (v : (⟨S100000, .f32⟩ : BufTy).Contents (Elt Ideal)) :
    (TRef.of (T := ⟨S100000, .f32⟩) main_call2_v1 p1 p2 p3).toBuf v = v := eq_of_heq (cast_heq _ _)
theorem ofBuf_main_call2_v1 (p1 p2 p3) (v : (⟨S100000, .f32⟩ : BufTy).Contents (Elt Ideal)) :
    (TRef.of (T := ⟨S100000, .f32⟩) main_call2_v1 p1 p2 p3).ofBuf v = v := eq_of_heq (cast_heq _ _)
theorem toBuf_main_call2_v2 (p1 p2 p3) (v : (⟨S100000, .f32⟩ : BufTy).Contents (Elt Ideal)) :
    (TRef.of (T := ⟨S100000, .f32⟩) main_call2_v2 p1 p2 p3).toBuf v = v := eq_of_heq (cast_heq _ _)
theorem ofBuf_main_call2_v2 (p1 p2 p3) (v : (⟨S100000, .f32⟩ : BufTy).Contents (Elt Ideal)) :
    (TRef.of (T := ⟨S100000, .f32⟩) main_call2_v2 p1 p2 p3).ofBuf v = v := eq_of_heq (cast_heq _ _)
theorem toBuf_main_call2_v3 (p1 p2 p3) (v : (⟨S100000x1, .f32⟩ : BufTy).Contents (Elt Ideal)) :
    (TRef.of (T := ⟨S100000x1, .f32⟩) main_call2_v3 p1 p2 p3).toBuf v = v := eq_of_heq (cast_heq _ _)
theorem ofBuf_main_call2_v3 (p1 p2 p3) (v : (⟨S100000x1, .f32⟩ : BufTy).Contents (Elt Ideal)) :
    (TRef.of (T := ⟨S100000x1, .f32⟩) main_call2_v3 p1 p2 p3).ofBuf v = v := eq_of_heq (cast_heq _ _)
theorem toBuf_main_call2_v4 (p1 p2 p3) (v : (⟨S100000x64, .f32⟩ : BufTy).Contents (Elt Ideal)) :
    (TRef.of (T := ⟨S100000x64, .f32⟩) main_call2_v4 p1 p2 p3).toBuf v = v := eq_of_heq (cast_heq _ _)
theorem ofBuf_main_call2_v4 (p1 p2 p3) (v : (⟨S100000x64, .f32⟩ : BufTy).Contents (Elt Ideal)) :
    (TRef.of (T := ⟨S100000x64, .f32⟩) main_call2_v4 p1 p2 p3).ofBuf v = v := eq_of_heq (cast_heq _ _)
theorem toBuf_main_call2_v5 (p1 p2 p3) (v : (⟨S100000x64, .f32⟩ : BufTy).Contents (Elt Ideal)) :
    (TRef.of (T := ⟨S100000x64, .f32⟩) main_call2_v5 p1 p2 p3).toBuf v = v := eq_of_heq (cast_heq _ _)
theorem ofBuf_main_call2_v5 (p1 p2 p3) (v : (⟨S100000x64, .f32⟩ : BufTy).Contents (Elt Ideal)) :
    (TRef.of (T := ⟨S100000x64, .f32⟩) main_call2_v5 p1 p2 p3).ofBuf v = v := eq_of_heq (cast_heq _ _)
theorem toBuf_main_call2_v6 (p1 p2 p3) (v : (⟨S100000x64, .f32⟩ : BufTy).Contents (Elt Ideal)) :
    (TRef.of (T := ⟨S100000x64, .f32⟩) main_call2_v6 p1 p2 p3).toBuf v = v := eq_of_heq (cast_heq _ _)
theorem ofBuf_main_call2_v6 (p1 p2 p3) (v : (⟨S100000x64, .f32⟩ : BufTy).Contents (Elt Ideal)) :
    (TRef.of (T := ⟨S100000x64, .f32⟩) main_call2_v6 p1 p2 p3).ofBuf v = v := eq_of_heq (cast_heq _ _)
theorem toBuf_main_call2_cst_1 (p1 p2 p3) (v : (⟨S_, .f32⟩ : BufTy).Contents (Elt Ideal)) :
    (TRef.of (T := ⟨S_, .f32⟩) main_call2_cst_1 p1 p2 p3).toBuf v = v := eq_of_heq (cast_heq _ _)
theorem ofBuf_main_call2_cst_1 (p1 p2 p3) (v : (⟨S_, .f32⟩ : BufTy).Contents (Elt Ideal)) :
    (TRef.of (T := ⟨S_, .f32⟩) main_call2_cst_1 p1 p2 p3).ofBuf v = v := eq_of_heq (cast_heq _ _)
theorem toBuf_main_call2_v7 (p1 p2 p3) (v : (⟨S100000, .f32⟩ : BufTy).Contents (Elt Ideal)) :
    (TRef.of (T := ⟨S100000, .f32⟩) main_call2_v7 p1 p2 p3).toBuf v = v := eq_of_heq (cast_heq _ _)
theorem ofBuf_main_call2_v7 (p1 p2 p3) (v : (⟨S100000, .f32⟩ : BufTy).Contents (Elt Ideal)) :
    (TRef.of (T := ⟨S100000, .f32⟩) main_call2_v7 p1 p2 p3).ofBuf v = v := eq_of_heq (cast_heq _ _)
theorem toBuf_main_call2_v8 (p1 p2 p3) (v : (⟨S100000x1, .f32⟩ : BufTy).Contents (Elt Ideal)) :
    (TRef.of (T := ⟨S100000x1, .f32⟩) main_call2_v8 p1 p2 p3).toBuf v = v := eq_of_heq (cast_heq _ _)
theorem ofBuf_main_call2_v8 (p1 p2 p3) (v : (⟨S100000x1, .f32⟩ : BufTy).Contents (Elt Ideal)) :
    (TRef.of (T := ⟨S100000x1, .f32⟩) main_call2_v8 p1 p2 p3).ofBuf v = v := eq_of_heq (cast_heq _ _)
theorem toBuf_main_call2_v9 (p1 p2 p3) (v : (⟨S100000x1, .f32⟩ : BufTy).Contents (Elt Ideal)) :
    (TRef.of (T := ⟨S100000x1, .f32⟩) main_call2_v9 p1 p2 p3).toBuf v = v := eq_of_heq (cast_heq _ _)
theorem ofBuf_main_call2_v9 (p1 p2 p3) (v : (⟨S100000x1, .f32⟩ : BufTy).Contents (Elt Ideal)) :
    (TRef.of (T := ⟨S100000x1, .f32⟩) main_call2_v9 p1 p2 p3).ofBuf v = v := eq_of_heq (cast_heq _ _)
theorem toBuf_main_call2_v10 (p1 p2 p3) (v : (⟨S100000x64, .f32⟩ : BufTy).Contents (Elt Ideal)) :
    (TRef.of (T := ⟨S100000x64, .f32⟩) main_call2_v10 p1 p2 p3).toBuf v = v := eq_of_heq (cast_heq _ _)
theorem ofBuf_main_call2_v10 (p1 p2 p3) (v : (⟨S100000x64, .f32⟩ : BufTy).Contents (Elt Ideal)) :
    (TRef.of (T := ⟨S100000x64, .f32⟩) main_call2_v10 p1 p2 p3).ofBuf v = v := eq_of_heq (cast_heq _ _)
theorem toBuf_main_v210 (p1 p2 p3) (v : (⟨S100000x64, .f32⟩ : BufTy).Contents (Elt Ideal)) :
    (TRef.of (T := ⟨S100000x64, .f32⟩) main_v210 p1 p2 p3).toBuf v = v := eq_of_heq (cast_heq _ _)
theorem ofBuf_main_v210 (p1 p2 p3) (v : (⟨S100000x64, .f32⟩ : BufTy).Contents (Elt Ideal)) :
    (TRef.of (T := ⟨S100000x64, .f32⟩) main_v210 p1 p2 p3).ofBuf v = v := eq_of_heq (cast_heq _ _)

/-- The reference's operations, at the ideal values. -/
def opsR : List (HloOp τ sig (Elt Ideal)) := Cert.ReferenceIdeal.ValueP.ops (F := Ideal)

/-- The launch contents. -/
abbrev Q0 : Valuation τ sig (Elt Ideal) := launchContents m c
/-- The contents after the perceptron. -/
def Q1 : Valuation τ sig (Elt Ideal) := after (List.take 11 opsR) (Q0 m c)
/-- The contents after the source and target lists. -/
def Q2 : Valuation τ sig (Elt Ideal) := after (List.take 7 (List.drop 11 opsR)) (Q1 m c)
/-- The contents after the inverse square roots of the degrees. -/
def Q3 : Valuation τ sig (Elt Ideal) := after (List.take 14 (List.drop 7 (List.drop 11 opsR))) (Q2 m c)
/-- The contents after the weights. -/
def Q4 : Valuation τ sig (Elt Ideal) := after (List.take 20 (List.drop 14 (List.drop 7 (List.drop 11 opsR)))) (Q3 m c)
/-- The contents after round 1. -/
def Q5 : Valuation τ sig (Elt Ideal) := after (List.take 22 (List.drop 20 (List.drop 14 (List.drop 7 (List.drop 11 opsR))))) (Q4 m c)
/-- The contents after round 2. -/
def Q6 : Valuation τ sig (Elt Ideal) := after (List.take 22 (List.drop 22 (List.drop 20 (List.drop 14 (List.drop 7 (List.drop 11 opsR)))))) (Q5 m c)
/-- The contents after round 3. -/
def Q7 : Valuation τ sig (Elt Ideal) := after (List.take 22 (List.drop 22 (List.drop 22 (List.drop 20 (List.drop 14 (List.drop 7 (List.drop 11 opsR))))))) (Q6 m c)
/-- The contents after round 4. -/
def Q8 : Valuation τ sig (Elt Ideal) := after (List.take 22 (List.drop 22 (List.drop 22 (List.drop 22 (List.drop 20 (List.drop 14 (List.drop 7 (List.drop 11 opsR)))))))) (Q7 m c)
/-- The contents after round 5. -/
def Q9 : Valuation τ sig (Elt Ideal) := after (List.take 22 (List.drop 22 (List.drop 22 (List.drop 22 (List.drop 22 (List.drop 20 (List.drop 14 (List.drop 7 (List.drop 11 opsR))))))))) (Q8 m c)
/-- The contents after round 6. -/
def Q10 : Valuation τ sig (Elt Ideal) := after (List.take 22 (List.drop 22 (List.drop 22 (List.drop 22 (List.drop 22 (List.drop 22 (List.drop 20 (List.drop 14 (List.drop 7 (List.drop 11 opsR)))))))))) (Q9 m c)
/-- The contents after round 7. -/
def Q11 : Valuation τ sig (Elt Ideal) := after (List.take 22 (List.drop 22 (List.drop 22 (List.drop 22 (List.drop 22 (List.drop 22 (List.drop 22 (List.drop 20 (List.drop 14 (List.drop 7 (List.drop 11 opsR))))))))))) (Q10 m c)
/-- The contents after round 8. -/
def Q12 : Valuation τ sig (Elt Ideal) := after (List.take 22 (List.drop 22 (List.drop 22 (List.drop 22 (List.drop 22 (List.drop 22 (List.drop 22 (List.drop 22 (List.drop 20 (List.drop 14 (List.drop 7 (List.drop 11 opsR)))))))))))) (Q11 m c)
/-- The contents after round 9. -/
def Q13 : Valuation τ sig (Elt Ideal) := after (List.take 22 (List.drop 22 (List.drop 22 (List.drop 22 (List.drop 22 (List.drop 22 (List.drop 22 (List.drop 22 (List.drop 22 (List.drop 20 (List.drop 14 (List.drop 7 (List.drop 11 opsR))))))))))))) (Q12 m c)
/-- The contents after round 10. -/
def Q14 : Valuation τ sig (Elt Ideal) := after (List.take 22 (List.drop 22 (List.drop 22 (List.drop 22 (List.drop 22 (List.drop 22 (List.drop 22 (List.drop 22 (List.drop 22 (List.drop 22 (List.drop 20 (List.drop 14 (List.drop 7 (List.drop 11 opsR)))))))))))))) (Q13 m c)
/-- The contents after the log-softmax. -/
def Q15 : Valuation τ sig (Elt Ideal) := after (List.take 15 (List.drop 22 (List.drop 22 (List.drop 22 (List.drop 22 (List.drop 22 (List.drop 22 (List.drop 22 (List.drop 22 (List.drop 22 (List.drop 22 (List.drop 20 (List.drop 14 (List.drop 7 (List.drop 11 opsR))))))))))))))) (Q14 m c)

/-- The stretches are the whole line. -/
theorem fold_eq : after opsR (Q0 m c) = Q15 m c := by
  unfold Q15 Q14 Q13 Q12 Q11 Q10 Q9 Q8 Q7 Q6 Q5 Q4 Q3 Q2 Q1
  rw [Fold.after_split opsR 11 _,
    Fold.after_split (List.drop 11 opsR) 7 _,
    Fold.after_split (List.drop 7 (List.drop 11 opsR)) 14 _,
    Fold.after_split (List.drop 14 (List.drop 7 (List.drop 11 opsR))) 20 _,
    Fold.after_split (List.drop 20 (List.drop 14 (List.drop 7 (List.drop 11 opsR)))) 22 _,
    Fold.after_split (List.drop 22 (List.drop 20 (List.drop 14 (List.drop 7 (List.drop 11 opsR))))) 22 _,
    Fold.after_split (List.drop 22 (List.drop 22 (List.drop 20 (List.drop 14 (List.drop 7 (List.drop 11 opsR)))))) 22 _,
    Fold.after_split (List.drop 22 (List.drop 22 (List.drop 22 (List.drop 20 (List.drop 14 (List.drop 7 (List.drop 11 opsR))))))) 22 _,
    Fold.after_split (List.drop 22 (List.drop 22 (List.drop 22 (List.drop 22 (List.drop 20 (List.drop 14 (List.drop 7 (List.drop 11 opsR)))))))) 22 _,
    Fold.after_split (List.drop 22 (List.drop 22 (List.drop 22 (List.drop 22 (List.drop 22 (List.drop 20 (List.drop 14 (List.drop 7 (List.drop 11 opsR))))))))) 22 _,
    Fold.after_split (List.drop 22 (List.drop 22 (List.drop 22 (List.drop 22 (List.drop 22 (List.drop 22 (List.drop 20 (List.drop 14 (List.drop 7 (List.drop 11 opsR)))))))))) 22 _,
    Fold.after_split (List.drop 22 (List.drop 22 (List.drop 22 (List.drop 22 (List.drop 22 (List.drop 22 (List.drop 22 (List.drop 20 (List.drop 14 (List.drop 7 (List.drop 11 opsR))))))))))) 22 _,
    Fold.after_split (List.drop 22 (List.drop 22 (List.drop 22 (List.drop 22 (List.drop 22 (List.drop 22 (List.drop 22 (List.drop 22 (List.drop 20 (List.drop 14 (List.drop 7 (List.drop 11 opsR)))))))))))) 22 _,
    Fold.after_split (List.drop 22 (List.drop 22 (List.drop 22 (List.drop 22 (List.drop 22 (List.drop 22 (List.drop 22 (List.drop 22 (List.drop 22 (List.drop 20 (List.drop 14 (List.drop 7 (List.drop 11 opsR))))))))))))) 22 _,
    Fold.after_split (List.drop 22 (List.drop 22 (List.drop 22 (List.drop 22 (List.drop 22 (List.drop 22 (List.drop 22 (List.drop 22 (List.drop 22 (List.drop 22 (List.drop 20 (List.drop 14 (List.drop 7 (List.drop 11 opsR)))))))))))))) 15 _]
  rfl

/-! ## The perceptron -/

theorem Q1_v8 : Q1 m c (Proc.devRef .tc main_v8) = val_main_v8 (F := Ideal) (y0 m c) (y2 m c) (y3 m c) (y4 m c) (y5 m c) := by
  show after [_, _, _, _, _, _, _, _, _, _, _] (Q0 m c) (Proc.devRef .tc main_v8) = _
  after_results_simp
  simp only [val_main_v8, val_main_v5, val_main_v4, val_main_v3, val_main_v0, val_main_v2, val_main_v1, val_main_call0_v0, val_main_call0_cst, val_main_v7, val_main_v6]
  try rfl
theorem Q1_arg1 : Q1 m c (Proc.devRef .tc main_arg1) = y1 m c := by
  show after [_, _, _, _, _, _, _, _, _, _, _] (Q0 m c) (Proc.devRef .tc main_arg1) = _
  after_results_simp <;> rfl

/-! ## The source and target lists (a slice of the edge list, flattened, with 0 … 99999 appended) -/

theorem Q2_v12 : Q2 m c (Proc.devRef .tc main_v12) = val_main_v12 (F := Ideal) (y1 m c) := by
  show after [_, _, _, _, _, _, _] (Q1 m c) (Proc.devRef .tc main_v12) = _
  after_results
  rw [Q1_arg1]
  simp only [val_main_v12, val_main_v11, val_main_v10, val_main_v9]
  try rfl
theorem Q2_v15 : Q2 m c (Proc.devRef .tc main_v15) = val_main_v15 (F := Ideal) (y1 m c) := by
  show after [_, _, _, _, _, _, _] (Q1 m c) (Proc.devRef .tc main_v15) = _
  after_results
  rw [Q1_arg1]
  simp only [val_main_v15, val_main_v14, val_main_v13, val_main_v9]
  try rfl
theorem Q2_v8 : Q2 m c (Proc.devRef .tc main_v8) = val_main_v8 (F := Ideal) (y0 m c) (y2 m c) (y3 m c) (y4 m c) (y5 m c) := by
  show after [_, _, _, _, _, _, _] (Q1 m c) (Proc.devRef .tc main_v8) = _
  after_results_simp; exact Q1_v8 m c

/-! ## The degrees' inverse square roots (zero where the degree is not positive) -/

theorem Q3_v23 : Q3 m c (Proc.devRef .tc main_v23) = val_main_v23 (F := Ideal) (y1 m c) := by
  show after [_, _, _, _, _, _, _, _, _, _, _, _, _, _] (Q2 m c) (Proc.devRef .tc main_v23) = _
  after_results_simp
  rw [Q2_v15 m c]
  simp only [toBuf_main_cst_2, ofBuf_main_cst_2, toBuf_main_call1_v0, ofBuf_main_call1_v0, toBuf_main_call1_v1, ofBuf_main_call1_v1, toBuf_main_v21, ofBuf_main_v21, toBuf_main_v22, ofBuf_main_v22, toBuf_main_v23, ofBuf_main_v23]
  simp only [val_main_v23, val_main_v21, val_main_v19, val_main_v17, val_main_cst_0, val_main_v18, val_main_v16, val_main_cst, val_main_v20, val_main_cst_1, val_main_v22, val_main_call1_v1, val_main_call1_v0, val_main_cst_2]
  try rfl
theorem Q3_v8 : Q3 m c (Proc.devRef .tc main_v8) = val_main_v8 (F := Ideal) (y0 m c) (y2 m c) (y3 m c) (y4 m c) (y5 m c) := by
  show after [_, _, _, _, _, _, _, _, _, _, _, _, _, _] (Q2 m c) (Proc.devRef .tc main_v8) = _
  after_results_simp; exact Q2_v8 m c
theorem Q3_v12 : Q3 m c (Proc.devRef .tc main_v12) = val_main_v12 (F := Ideal) (y1 m c) := by
  show after [_, _, _, _, _, _, _, _, _, _, _, _, _, _] (Q2 m c) (Proc.devRef .tc main_v12) = _
  after_results_simp; exact Q2_v12 m c
theorem Q3_v15 : Q3 m c (Proc.devRef .tc main_v15) = val_main_v15 (F := Ideal) (y1 m c) := by
  show after [_, _, _, _, _, _, _, _, _, _, _, _, _, _] (Q2 m c) (Proc.devRef .tc main_v15) = _
  after_results_simp; exact Q2_v15 m c

/-! ## The weights -/

theorem inv4 : (Q4 m c (Proc.devRef .tc main_v8) = val_main_v8 (F := Ideal) (y0 m c) (y2 m c) (y3 m c) (y4 m c) (y5 m c) ∧ Q4 m c (Proc.devRef .tc main_v12) = val_main_v12 (F := Ideal) (y1 m c) ∧ Q4 m c (Proc.devRef .tc main_v15) = val_main_v15 (F := Ideal) (y1 m c) ∧ Q4 m c (Proc.devRef .tc main_v39) = val_main_v39 (F := Ideal) (y1 m c)) := by
  refine ⟨?_, ?_, ?_, ?_⟩
  · show after [_, _, _, _, _, _, _, _, _, _, _, _, _, _, _, _, _, _, _, _] (Q3 m c) (Proc.devRef .tc main_v8) = _
    after_results_simp; exact Q3_v8 m c
  · show after [_, _, _, _, _, _, _, _, _, _, _, _, _, _, _, _, _, _, _, _] (Q3 m c) (Proc.devRef .tc main_v12) = _
    after_results_simp; exact Q3_v12 m c
  · show after [_, _, _, _, _, _, _, _, _, _, _, _, _, _, _, _, _, _, _, _] (Q3 m c) (Proc.devRef .tc main_v15) = _
    after_results_simp; exact Q3_v15 m c
  · show after [_, _, _, _, _, _, _, _, _, _, _, _, _, _, _, _, _, _, _, _] (Q3 m c) (Proc.devRef .tc main_v39) = _
    after_results_simp
    rw [Q3_v23 m c, Q3_v12 m c, Q3_v15 m c]
    simp only [val_main_v39, val_main_v38, val_main_v30, val_main_v29, val_main_v28, val_main_v25, val_main_v24, val_main_c, val_main_v27, val_main_v26, val_main_c_3, val_main_v37, val_main_v36, val_main_v35, val_main_v32, val_main_v31, val_main_c_4, val_main_v34, val_main_v33, val_main_c_5]
    try rfl

/-! ## Round 1 -/

theorem Q5_out (hi : (Q4 m c (Proc.devRef .tc main_v8) = val_main_v8 (F := Ideal) (y0 m c) (y2 m c) (y3 m c) (y4 m c) (y5 m c) ∧ Q4 m c (Proc.devRef .tc main_v12) = val_main_v12 (F := Ideal) (y1 m c) ∧ Q4 m c (Proc.devRef .tc main_v15) = val_main_v15 (F := Ideal) (y1 m c) ∧ Q4 m c (Proc.devRef .tc main_v39) = val_main_v39 (F := Ideal) (y1 m c))) :
    Q5 m c (Proc.devRef .tc main_v56) = val_main_v56 (F := Ideal) (y0 m c) (y1 m c) (y2 m c) (y3 m c) (y4 m c) (y5 m c) := by
  show after [_, _, _, _, _, _, _, _, _, _, _, _, _, _, _, _, _, _, _, _, _, _] (Q4 m c) (Proc.devRef .tc main_v56) = _
  after_results_simp
  rw [hi.1, hi.2.1, hi.2.2.1, hi.2.2.2]
  simp only [val_main_v56, val_main_v53, val_main_v52, val_main_cst_9, val_main_v51, val_main_v49, val_main_cst_8, val_main_v50, val_main_v48, val_main_v47, val_main_v46, val_main_v45, val_main_v44, val_main_v41, val_main_v40, val_main_c_6, val_main_v43, val_main_v42, val_main_c_7, val_main_v55, val_main_v54, val_main_cst_10]
  try rfl

theorem inv5 (hi : (Q4 m c (Proc.devRef .tc main_v8) = val_main_v8 (F := Ideal) (y0 m c) (y2 m c) (y3 m c) (y4 m c) (y5 m c) ∧ Q4 m c (Proc.devRef .tc main_v12) = val_main_v12 (F := Ideal) (y1 m c) ∧ Q4 m c (Proc.devRef .tc main_v15) = val_main_v15 (F := Ideal) (y1 m c) ∧ Q4 m c (Proc.devRef .tc main_v39) = val_main_v39 (F := Ideal) (y1 m c))) : (Q5 m c (Proc.devRef .tc main_v8) = val_main_v8 (F := Ideal) (y0 m c) (y2 m c) (y3 m c) (y4 m c) (y5 m c) ∧ Q5 m c (Proc.devRef .tc main_v12) = val_main_v12 (F := Ideal) (y1 m c) ∧ Q5 m c (Proc.devRef .tc main_v15) = val_main_v15 (F := Ideal) (y1 m c) ∧ Q5 m c (Proc.devRef .tc main_v39) = val_main_v39 (F := Ideal) (y1 m c)) := by
  refine ⟨?_, ?_, ?_, ?_⟩
  · show after [_, _, _, _, _, _, _, _, _, _, _, _, _, _, _, _, _, _, _, _, _, _] (Q4 m c) (Proc.devRef .tc main_v8) = _
    after_results_simp; exact hi.1
  · show after [_, _, _, _, _, _, _, _, _, _, _, _, _, _, _, _, _, _, _, _, _, _] (Q4 m c) (Proc.devRef .tc main_v12) = _
    after_results_simp; exact hi.2.1
  · show after [_, _, _, _, _, _, _, _, _, _, _, _, _, _, _, _, _, _, _, _, _, _] (Q4 m c) (Proc.devRef .tc main_v15) = _
    after_results_simp; exact hi.2.2.1
  · show after [_, _, _, _, _, _, _, _, _, _, _, _, _, _, _, _, _, _, _, _, _, _] (Q4 m c) (Proc.devRef .tc main_v39) = _
    after_results_simp; exact hi.2.2.2

/-! ## Round 2 -/

theorem Q6_out (hi : (Q5 m c (Proc.devRef .tc main_v8) = val_main_v8 (F := Ideal) (y0 m c) (y2 m c) (y3 m c) (y4 m c) (y5 m c) ∧ Q5 m c (Proc.devRef .tc main_v12) = val_main_v12 (F := Ideal) (y1 m c) ∧ Q5 m c (Proc.devRef .tc main_v15) = val_main_v15 (F := Ideal) (y1 m c) ∧ Q5 m c (Proc.devRef .tc main_v39) = val_main_v39 (F := Ideal) (y1 m c))) (hp : Q5 m c (Proc.devRef .tc main_v56) = val_main_v56 (F := Ideal) (y0 m c) (y1 m c) (y2 m c) (y3 m c) (y4 m c) (y5 m c)) :
    Q6 m c (Proc.devRef .tc main_v73) = val_main_v73 (F := Ideal) (y0 m c) (y1 m c) (y2 m c) (y3 m c) (y4 m c) (y5 m c) := by
  show after [_, _, _, _, _, _, _, _, _, _, _, _, _, _, _, _, _, _, _, _, _, _] (Q5 m c) (Proc.devRef .tc main_v73) = _
  after_results_simp
  rw [hp, hi.1, hi.2.1, hi.2.2.1, hi.2.2.2]
  simp only [val_main_v73, val_main_v70, val_main_v69, val_main_cst_14, val_main_v68, val_main_v66, val_main_cst_13, val_main_v67, val_main_v65, val_main_v64, val_main_v63, val_main_v62, val_main_v61, val_main_v58, val_main_v57, val_main_c_11, val_main_v60, val_main_v59, val_main_c_12, val_main_v72, val_main_v71, val_main_cst_15]
  try rfl

theorem inv6 (hi : (Q5 m c (Proc.devRef .tc main_v8) = val_main_v8 (F := Ideal) (y0 m c) (y2 m c) (y3 m c) (y4 m c) (y5 m c) ∧ Q5 m c (Proc.devRef .tc main_v12) = val_main_v12 (F := Ideal) (y1 m c) ∧ Q5 m c (Proc.devRef .tc main_v15) = val_main_v15 (F := Ideal) (y1 m c) ∧ Q5 m c (Proc.devRef .tc main_v39) = val_main_v39 (F := Ideal) (y1 m c))) : (Q6 m c (Proc.devRef .tc main_v8) = val_main_v8 (F := Ideal) (y0 m c) (y2 m c) (y3 m c) (y4 m c) (y5 m c) ∧ Q6 m c (Proc.devRef .tc main_v12) = val_main_v12 (F := Ideal) (y1 m c) ∧ Q6 m c (Proc.devRef .tc main_v15) = val_main_v15 (F := Ideal) (y1 m c) ∧ Q6 m c (Proc.devRef .tc main_v39) = val_main_v39 (F := Ideal) (y1 m c)) := by
  refine ⟨?_, ?_, ?_, ?_⟩
  · show after [_, _, _, _, _, _, _, _, _, _, _, _, _, _, _, _, _, _, _, _, _, _] (Q5 m c) (Proc.devRef .tc main_v8) = _
    after_results_simp; exact hi.1
  · show after [_, _, _, _, _, _, _, _, _, _, _, _, _, _, _, _, _, _, _, _, _, _] (Q5 m c) (Proc.devRef .tc main_v12) = _
    after_results_simp; exact hi.2.1
  · show after [_, _, _, _, _, _, _, _, _, _, _, _, _, _, _, _, _, _, _, _, _, _] (Q5 m c) (Proc.devRef .tc main_v15) = _
    after_results_simp; exact hi.2.2.1
  · show after [_, _, _, _, _, _, _, _, _, _, _, _, _, _, _, _, _, _, _, _, _, _] (Q5 m c) (Proc.devRef .tc main_v39) = _
    after_results_simp; exact hi.2.2.2

/-! ## Round 3 -/

theorem Q7_out (hi : (Q6 m c (Proc.devRef .tc main_v8) = val_main_v8 (F := Ideal) (y0 m c) (y2 m c) (y3 m c) (y4 m c) (y5 m c) ∧ Q6 m c (Proc.devRef .tc main_v12) = val_main_v12 (F := Ideal) (y1 m c) ∧ Q6 m c (Proc.devRef .tc main_v15) = val_main_v15 (F := Ideal) (y1 m c) ∧ Q6 m c (Proc.devRef .tc main_v39) = val_main_v39 (F := Ideal) (y1 m c))) (hp : Q6 m c (Proc.devRef .tc main_v73) = val_main_v73 (F := Ideal) (y0 m c) (y1 m c) (y2 m c) (y3 m c) (y4 m c) (y5 m c)) :
    Q7 m c (Proc.devRef .tc main_v90) = val_main_v90 (F := Ideal) (y0 m c) (y1 m c) (y2 m c) (y3 m c) (y4 m c) (y5 m c) := by
  show after [_, _, _, _, _, _, _, _, _, _, _, _, _, _, _, _, _, _, _, _, _, _] (Q6 m c) (Proc.devRef .tc main_v90) = _
  after_results_simp
  rw [hp, hi.1, hi.2.1, hi.2.2.1, hi.2.2.2]
  simp only [val_main_v90, val_main_v87, val_main_v86, val_main_cst_19, val_main_v85, val_main_v83, val_main_cst_18, val_main_v84, val_main_v82, val_main_v81, val_main_v80, val_main_v79, val_main_v78, val_main_v75, val_main_v74, val_main_c_16, val_main_v77, val_main_v76, val_main_c_17, val_main_v89, val_main_v88, val_main_cst_20]
  try rfl

theorem inv7 (hi : (Q6 m c (Proc.devRef .tc main_v8) = val_main_v8 (F := Ideal) (y0 m c) (y2 m c) (y3 m c) (y4 m c) (y5 m c) ∧ Q6 m c (Proc.devRef .tc main_v12) = val_main_v12 (F := Ideal) (y1 m c) ∧ Q6 m c (Proc.devRef .tc main_v15) = val_main_v15 (F := Ideal) (y1 m c) ∧ Q6 m c (Proc.devRef .tc main_v39) = val_main_v39 (F := Ideal) (y1 m c))) : (Q7 m c (Proc.devRef .tc main_v8) = val_main_v8 (F := Ideal) (y0 m c) (y2 m c) (y3 m c) (y4 m c) (y5 m c) ∧ Q7 m c (Proc.devRef .tc main_v12) = val_main_v12 (F := Ideal) (y1 m c) ∧ Q7 m c (Proc.devRef .tc main_v15) = val_main_v15 (F := Ideal) (y1 m c) ∧ Q7 m c (Proc.devRef .tc main_v39) = val_main_v39 (F := Ideal) (y1 m c)) := by
  refine ⟨?_, ?_, ?_, ?_⟩
  · show after [_, _, _, _, _, _, _, _, _, _, _, _, _, _, _, _, _, _, _, _, _, _] (Q6 m c) (Proc.devRef .tc main_v8) = _
    after_results_simp; exact hi.1
  · show after [_, _, _, _, _, _, _, _, _, _, _, _, _, _, _, _, _, _, _, _, _, _] (Q6 m c) (Proc.devRef .tc main_v12) = _
    after_results_simp; exact hi.2.1
  · show after [_, _, _, _, _, _, _, _, _, _, _, _, _, _, _, _, _, _, _, _, _, _] (Q6 m c) (Proc.devRef .tc main_v15) = _
    after_results_simp; exact hi.2.2.1
  · show after [_, _, _, _, _, _, _, _, _, _, _, _, _, _, _, _, _, _, _, _, _, _] (Q6 m c) (Proc.devRef .tc main_v39) = _
    after_results_simp; exact hi.2.2.2

/-! ## Round 4 -/

theorem Q8_out (hi : (Q7 m c (Proc.devRef .tc main_v8) = val_main_v8 (F := Ideal) (y0 m c) (y2 m c) (y3 m c) (y4 m c) (y5 m c) ∧ Q7 m c (Proc.devRef .tc main_v12) = val_main_v12 (F := Ideal) (y1 m c) ∧ Q7 m c (Proc.devRef .tc main_v15) = val_main_v15 (F := Ideal) (y1 m c) ∧ Q7 m c (Proc.devRef .tc main_v39) = val_main_v39 (F := Ideal) (y1 m c))) (hp : Q7 m c (Proc.devRef .tc main_v90) = val_main_v90 (F := Ideal) (y0 m c) (y1 m c) (y2 m c) (y3 m c) (y4 m c) (y5 m c)) :
    Q8 m c (Proc.devRef .tc main_v107) = val_main_v107 (F := Ideal) (y0 m c) (y1 m c) (y2 m c) (y3 m c) (y4 m c) (y5 m c) := by
  show after [_, _, _, _, _, _, _, _, _, _, _, _, _, _, _, _, _, _, _, _, _, _] (Q7 m c) (Proc.devRef .tc main_v107) = _
  after_results_simp
  rw [hp, hi.1, hi.2.1, hi.2.2.1, hi.2.2.2]
  simp only [val_main_v107, val_main_v104, val_main_v103, val_main_cst_24, val_main_v102, val_main_v100, val_main_cst_23, val_main_v101, val_main_v99, val_main_v98, val_main_v97, val_main_v96, val_main_v95, val_main_v92, val_main_v91, val_main_c_21, val_main_v94, val_main_v93, val_main_c_22, val_main_v106, val_main_v105, val_main_cst_25]
  try rfl

theorem inv8 (hi : (Q7 m c (Proc.devRef .tc main_v8) = val_main_v8 (F := Ideal) (y0 m c) (y2 m c) (y3 m c) (y4 m c) (y5 m c) ∧ Q7 m c (Proc.devRef .tc main_v12) = val_main_v12 (F := Ideal) (y1 m c) ∧ Q7 m c (Proc.devRef .tc main_v15) = val_main_v15 (F := Ideal) (y1 m c) ∧ Q7 m c (Proc.devRef .tc main_v39) = val_main_v39 (F := Ideal) (y1 m c))) : (Q8 m c (Proc.devRef .tc main_v8) = val_main_v8 (F := Ideal) (y0 m c) (y2 m c) (y3 m c) (y4 m c) (y5 m c) ∧ Q8 m c (Proc.devRef .tc main_v12) = val_main_v12 (F := Ideal) (y1 m c) ∧ Q8 m c (Proc.devRef .tc main_v15) = val_main_v15 (F := Ideal) (y1 m c) ∧ Q8 m c (Proc.devRef .tc main_v39) = val_main_v39 (F := Ideal) (y1 m c)) := by
  refine ⟨?_, ?_, ?_, ?_⟩
  · show after [_, _, _, _, _, _, _, _, _, _, _, _, _, _, _, _, _, _, _, _, _, _] (Q7 m c) (Proc.devRef .tc main_v8) = _
    after_results_simp; exact hi.1
  · show after [_, _, _, _, _, _, _, _, _, _, _, _, _, _, _, _, _, _, _, _, _, _] (Q7 m c) (Proc.devRef .tc main_v12) = _
    after_results_simp; exact hi.2.1
  · show after [_, _, _, _, _, _, _, _, _, _, _, _, _, _, _, _, _, _, _, _, _, _] (Q7 m c) (Proc.devRef .tc main_v15) = _
    after_results_simp; exact hi.2.2.1
  · show after [_, _, _, _, _, _, _, _, _, _, _, _, _, _, _, _, _, _, _, _, _, _] (Q7 m c) (Proc.devRef .tc main_v39) = _
    after_results_simp; exact hi.2.2.2

/-! ## Round 5 -/

theorem Q9_out (hi : (Q8 m c (Proc.devRef .tc main_v8) = val_main_v8 (F := Ideal) (y0 m c) (y2 m c) (y3 m c) (y4 m c) (y5 m c) ∧ Q8 m c (Proc.devRef .tc main_v12) = val_main_v12 (F := Ideal) (y1 m c) ∧ Q8 m c (Proc.devRef .tc main_v15) = val_main_v15 (F := Ideal) (y1 m c) ∧ Q8 m c (Proc.devRef .tc main_v39) = val_main_v39 (F := Ideal) (y1 m c))) (hp : Q8 m c (Proc.devRef .tc main_v107) = val_main_v107 (F := Ideal) (y0 m c) (y1 m c) (y2 m c) (y3 m c) (y4 m c) (y5 m c)) :
    Q9 m c (Proc.devRef .tc main_v124) = val_main_v124 (F := Ideal) (y0 m c) (y1 m c) (y2 m c) (y3 m c) (y4 m c) (y5 m c) := by
  show after [_, _, _, _, _, _, _, _, _, _, _, _, _, _, _, _, _, _, _, _, _, _] (Q8 m c) (Proc.devRef .tc main_v124) = _
  after_results_simp
  rw [hp, hi.1, hi.2.1, hi.2.2.1, hi.2.2.2]
  simp only [val_main_v124, val_main_v121, val_main_v120, val_main_cst_29, val_main_v119, val_main_v117, val_main_cst_28, val_main_v118, val_main_v116, val_main_v115, val_main_v114, val_main_v113, val_main_v112, val_main_v109, val_main_v108, val_main_c_26, val_main_v111, val_main_v110, val_main_c_27, val_main_v123, val_main_v122, val_main_cst_30]
  try rfl

theorem inv9 (hi : (Q8 m c (Proc.devRef .tc main_v8) = val_main_v8 (F := Ideal) (y0 m c) (y2 m c) (y3 m c) (y4 m c) (y5 m c) ∧ Q8 m c (Proc.devRef .tc main_v12) = val_main_v12 (F := Ideal) (y1 m c) ∧ Q8 m c (Proc.devRef .tc main_v15) = val_main_v15 (F := Ideal) (y1 m c) ∧ Q8 m c (Proc.devRef .tc main_v39) = val_main_v39 (F := Ideal) (y1 m c))) : (Q9 m c (Proc.devRef .tc main_v8) = val_main_v8 (F := Ideal) (y0 m c) (y2 m c) (y3 m c) (y4 m c) (y5 m c) ∧ Q9 m c (Proc.devRef .tc main_v12) = val_main_v12 (F := Ideal) (y1 m c) ∧ Q9 m c (Proc.devRef .tc main_v15) = val_main_v15 (F := Ideal) (y1 m c) ∧ Q9 m c (Proc.devRef .tc main_v39) = val_main_v39 (F := Ideal) (y1 m c)) := by
  refine ⟨?_, ?_, ?_, ?_⟩
  · show after [_, _, _, _, _, _, _, _, _, _, _, _, _, _, _, _, _, _, _, _, _, _] (Q8 m c) (Proc.devRef .tc main_v8) = _
    after_results_simp; exact hi.1
  · show after [_, _, _, _, _, _, _, _, _, _, _, _, _, _, _, _, _, _, _, _, _, _] (Q8 m c) (Proc.devRef .tc main_v12) = _
    after_results_simp; exact hi.2.1
  · show after [_, _, _, _, _, _, _, _, _, _, _, _, _, _, _, _, _, _, _, _, _, _] (Q8 m c) (Proc.devRef .tc main_v15) = _
    after_results_simp; exact hi.2.2.1
  · show after [_, _, _, _, _, _, _, _, _, _, _, _, _, _, _, _, _, _, _, _, _, _] (Q8 m c) (Proc.devRef .tc main_v39) = _
    after_results_simp; exact hi.2.2.2

/-! ## Round 6 -/

theorem Q10_out (hi : (Q9 m c (Proc.devRef .tc main_v8) = val_main_v8 (F := Ideal) (y0 m c) (y2 m c) (y3 m c) (y4 m c) (y5 m c) ∧ Q9 m c (Proc.devRef .tc main_v12) = val_main_v12 (F := Ideal) (y1 m c) ∧ Q9 m c (Proc.devRef .tc main_v15) = val_main_v15 (F := Ideal) (y1 m c) ∧ Q9 m c (Proc.devRef .tc main_v39) = val_main_v39 (F := Ideal) (y1 m c))) (hp : Q9 m c (Proc.devRef .tc main_v124) = val_main_v124 (F := Ideal) (y0 m c) (y1 m c) (y2 m c) (y3 m c) (y4 m c) (y5 m c)) :
    Q10 m c (Proc.devRef .tc main_v141) = val_main_v141 (F := Ideal) (y0 m c) (y1 m c) (y2 m c) (y3 m c) (y4 m c) (y5 m c) := by
  show after [_, _, _, _, _, _, _, _, _, _, _, _, _, _, _, _, _, _, _, _, _, _] (Q9 m c) (Proc.devRef .tc main_v141) = _
  after_results_simp
  rw [hp, hi.1, hi.2.1, hi.2.2.1, hi.2.2.2]
  simp only [val_main_v141, val_main_v138, val_main_v137, val_main_cst_34, val_main_v136, val_main_v134, val_main_cst_33, val_main_v135, val_main_v133, val_main_v132, val_main_v131, val_main_v130, val_main_v129, val_main_v126, val_main_v125, val_main_c_31, val_main_v128, val_main_v127, val_main_c_32, val_main_v140, val_main_v139, val_main_cst_35]
  try rfl

theorem inv10 (hi : (Q9 m c (Proc.devRef .tc main_v8) = val_main_v8 (F := Ideal) (y0 m c) (y2 m c) (y3 m c) (y4 m c) (y5 m c) ∧ Q9 m c (Proc.devRef .tc main_v12) = val_main_v12 (F := Ideal) (y1 m c) ∧ Q9 m c (Proc.devRef .tc main_v15) = val_main_v15 (F := Ideal) (y1 m c) ∧ Q9 m c (Proc.devRef .tc main_v39) = val_main_v39 (F := Ideal) (y1 m c))) : (Q10 m c (Proc.devRef .tc main_v8) = val_main_v8 (F := Ideal) (y0 m c) (y2 m c) (y3 m c) (y4 m c) (y5 m c) ∧ Q10 m c (Proc.devRef .tc main_v12) = val_main_v12 (F := Ideal) (y1 m c) ∧ Q10 m c (Proc.devRef .tc main_v15) = val_main_v15 (F := Ideal) (y1 m c) ∧ Q10 m c (Proc.devRef .tc main_v39) = val_main_v39 (F := Ideal) (y1 m c)) := by
  refine ⟨?_, ?_, ?_, ?_⟩
  · show after [_, _, _, _, _, _, _, _, _, _, _, _, _, _, _, _, _, _, _, _, _, _] (Q9 m c) (Proc.devRef .tc main_v8) = _
    after_results_simp; exact hi.1
  · show after [_, _, _, _, _, _, _, _, _, _, _, _, _, _, _, _, _, _, _, _, _, _] (Q9 m c) (Proc.devRef .tc main_v12) = _
    after_results_simp; exact hi.2.1
  · show after [_, _, _, _, _, _, _, _, _, _, _, _, _, _, _, _, _, _, _, _, _, _] (Q9 m c) (Proc.devRef .tc main_v15) = _
    after_results_simp; exact hi.2.2.1
  · show after [_, _, _, _, _, _, _, _, _, _, _, _, _, _, _, _, _, _, _, _, _, _] (Q9 m c) (Proc.devRef .tc main_v39) = _
    after_results_simp; exact hi.2.2.2

/-! ## Round 7 -/

theorem Q11_out (hi : (Q10 m c (Proc.devRef .tc main_v8) = val_main_v8 (F := Ideal) (y0 m c) (y2 m c) (y3 m c) (y4 m c) (y5 m c) ∧ Q10 m c (Proc.devRef .tc main_v12) = val_main_v12 (F := Ideal) (y1 m c) ∧ Q10 m c (Proc.devRef .tc main_v15) = val_main_v15 (F := Ideal) (y1 m c) ∧ Q10 m c (Proc.devRef .tc main_v39) = val_main_v39 (F := Ideal) (y1 m c))) (hp : Q10 m c (Proc.devRef .tc main_v141) = val_main_v141 (F := Ideal) (y0 m c) (y1 m c) (y2 m c) (y3 m c) (y4 m c) (y5 m c)) :
    Q11 m c (Proc.devRef .tc main_v158) = val_main_v158 (F := Ideal) (y0 m c) (y1 m c) (y2 m c) (y3 m c) (y4 m c) (y5 m c) := by
  show after [_, _, _, _, _, _, _, _, _, _, _, _, _, _, _, _, _, _, _, _, _, _] (Q10 m c) (Proc.devRef .tc main_v158) = _
  after_results_simp
  rw [hp, hi.1, hi.2.1, hi.2.2.1, hi.2.2.2]
  simp only [val_main_v158, val_main_v155, val_main_v154, val_main_cst_39, val_main_v153, val_main_v151, val_main_cst_38, val_main_v152, val_main_v150, val_main_v149, val_main_v148, val_main_v147, val_main_v146, val_main_v143, val_main_v142, val_main_c_36, val_main_v145, val_main_v144, val_main_c_37, val_main_v157, val_main_v156, val_main_cst_40]
  try rfl

theorem inv11 (hi : (Q10 m c (Proc.devRef .tc main_v8) = val_main_v8 (F := Ideal) (y0 m c) (y2 m c) (y3 m c) (y4 m c) (y5 m c) ∧ Q10 m c (Proc.devRef .tc main_v12) = val_main_v12 (F := Ideal) (y1 m c) ∧ Q10 m c (Proc.devRef .tc main_v15) = val_main_v15 (F := Ideal) (y1 m c) ∧ Q10 m c (Proc.devRef .tc main_v39) = val_main_v39 (F := Ideal) (y1 m c))) : (Q11 m c (Proc.devRef .tc main_v8) = val_main_v8 (F := Ideal) (y0 m c) (y2 m c) (y3 m c) (y4 m c) (y5 m c) ∧ Q11 m c (Proc.devRef .tc main_v12) = val_main_v12 (F := Ideal) (y1 m c) ∧ Q11 m c (Proc.devRef .tc main_v15) = val_main_v15 (F := Ideal) (y1 m c) ∧ Q11 m c (Proc.devRef .tc main_v39) = val_main_v39 (F := Ideal) (y1 m c)) := by
  refine ⟨?_, ?_, ?_, ?_⟩
  · show after [_, _, _, _, _, _, _, _, _, _, _, _, _, _, _, _, _, _, _, _, _, _] (Q10 m c) (Proc.devRef .tc main_v8) = _
    after_results_simp; exact hi.1
  · show after [_, _, _, _, _, _, _, _, _, _, _, _, _, _, _, _, _, _, _, _, _, _] (Q10 m c) (Proc.devRef .tc main_v12) = _
    after_results_simp; exact hi.2.1
  · show after [_, _, _, _, _, _, _, _, _, _, _, _, _, _, _, _, _, _, _, _, _, _] (Q10 m c) (Proc.devRef .tc main_v15) = _
    after_results_simp; exact hi.2.2.1
  · show after [_, _, _, _, _, _, _, _, _, _, _, _, _, _, _, _, _, _, _, _, _, _] (Q10 m c) (Proc.devRef .tc main_v39) = _
    after_results_simp; exact hi.2.2.2

/-! ## Round 8 -/

theorem Q12_out (hi : (Q11 m c (Proc.devRef .tc main_v8) = val_main_v8 (F := Ideal) (y0 m c) (y2 m c) (y3 m c) (y4 m c) (y5 m c) ∧ Q11 m c (Proc.devRef .tc main_v12) = val_main_v12 (F := Ideal) (y1 m c) ∧ Q11 m c (Proc.devRef .tc main_v15) = val_main_v15 (F := Ideal) (y1 m c) ∧ Q11 m c (Proc.devRef .tc main_v39) = val_main_v39 (F := Ideal) (y1 m c))) (hp : Q11 m c (Proc.devRef .tc main_v158) = val_main_v158 (F := Ideal) (y0 m c) (y1 m c) (y2 m c) (y3 m c) (y4 m c) (y5 m c)) :
    Q12 m c (Proc.devRef .tc main_v175) = val_main_v175 (F := Ideal) (y0 m c) (y1 m c) (y2 m c) (y3 m c) (y4 m c) (y5 m c) := by
  show after [_, _, _, _, _, _, _, _, _, _, _, _, _, _, _, _, _, _, _, _, _, _] (Q11 m c) (Proc.devRef .tc main_v175) = _
  after_results_simp
  rw [hp, hi.1, hi.2.1, hi.2.2.1, hi.2.2.2]
  simp only [val_main_v175, val_main_v172, val_main_v171, val_main_cst_44, val_main_v170, val_main_v168, val_main_cst_43, val_main_v169, val_main_v167, val_main_v166, val_main_v165, val_main_v164, val_main_v163, val_main_v160, val_main_v159, val_main_c_41, val_main_v162, val_main_v161, val_main_c_42, val_main_v174, val_main_v173, val_main_cst_45]
  try rfl

theorem inv12 (hi : (Q11 m c (Proc.devRef .tc main_v8) = val_main_v8 (F := Ideal) (y0 m c) (y2 m c) (y3 m c) (y4 m c) (y5 m c) ∧ Q11 m c (Proc.devRef .tc main_v12) = val_main_v12 (F := Ideal) (y1 m c) ∧ Q11 m c (Proc.devRef .tc main_v15) = val_main_v15 (F := Ideal) (y1 m c) ∧ Q11 m c (Proc.devRef .tc main_v39) = val_main_v39 (F := Ideal) (y1 m c))) : (Q12 m c (Proc.devRef .tc main_v8) = val_main_v8 (F := Ideal) (y0 m c) (y2 m c) (y3 m c) (y4 m c) (y5 m c) ∧ Q12 m c (Proc.devRef .tc main_v12) = val_main_v12 (F := Ideal) (y1 m c) ∧ Q12 m c (Proc.devRef .tc main_v15) = val_main_v15 (F := Ideal) (y1 m c) ∧ Q12 m c (Proc.devRef .tc main_v39) = val_main_v39 (F := Ideal) (y1 m c)) := by
  refine ⟨?_, ?_, ?_, ?_⟩
  · show after [_, _, _, _, _, _, _, _, _, _, _, _, _, _, _, _, _, _, _, _, _, _] (Q11 m c) (Proc.devRef .tc main_v8) = _
    after_results_simp; exact hi.1
  · show after [_, _, _, _, _, _, _, _, _, _, _, _, _, _, _, _, _, _, _, _, _, _] (Q11 m c) (Proc.devRef .tc main_v12) = _
    after_results_simp; exact hi.2.1
  · show after [_, _, _, _, _, _, _, _, _, _, _, _, _, _, _, _, _, _, _, _, _, _] (Q11 m c) (Proc.devRef .tc main_v15) = _
    after_results_simp; exact hi.2.2.1
  · show after [_, _, _, _, _, _, _, _, _, _, _, _, _, _, _, _, _, _, _, _, _, _] (Q11 m c) (Proc.devRef .tc main_v39) = _
    after_results_simp; exact hi.2.2.2

/-! ## Round 9 -/

theorem Q13_out (hi : (Q12 m c (Proc.devRef .tc main_v8) = val_main_v8 (F := Ideal) (y0 m c) (y2 m c) (y3 m c) (y4 m c) (y5 m c) ∧ Q12 m c (Proc.devRef .tc main_v12) = val_main_v12 (F := Ideal) (y1 m c) ∧ Q12 m c (Proc.devRef .tc main_v15) = val_main_v15 (F := Ideal) (y1 m c) ∧ Q12 m c (Proc.devRef .tc main_v39) = val_main_v39 (F := Ideal) (y1 m c))) (hp : Q12 m c (Proc.devRef .tc main_v175) = val_main_v175 (F := Ideal) (y0 m c) (y1 m c) (y2 m c) (y3 m c) (y4 m c) (y5 m c)) :
    Q13 m c (Proc.devRef .tc main_v192) = val_main_v192 (F := Ideal) (y0 m c) (y1 m c) (y2 m c) (y3 m c) (y4 m c) (y5 m c) := by
  show after [_, _, _, _, _, _, _, _, _, _, _, _, _, _, _, _, _, _, _, _, _, _] (Q12 m c) (Proc.devRef .tc main_v192) = _
  after_results_simp
  rw [hp, hi.1, hi.2.1, hi.2.2.1, hi.2.2.2]
  simp only [val_main_v192, val_main_v189, val_main_v188, val_main_cst_49, val_main_v187, val_main_v185, val_main_cst_48, val_main_v186, val_main_v184, val_main_v183, val_main_v182, val_main_v181, val_main_v180, val_main_v177, val_main_v176, val_main_c_46, val_main_v179, val_main_v178, val_main_c_47, val_main_v191, val_main_v190, val_main_cst_50]
  try rfl

theorem inv13 (hi : (Q12 m c (Proc.devRef .tc main_v8) = val_main_v8 (F := Ideal) (y0 m c) (y2 m c) (y3 m c) (y4 m c) (y5 m c) ∧ Q12 m c (Proc.devRef .tc main_v12) = val_main_v12 (F := Ideal) (y1 m c) ∧ Q12 m c (Proc.devRef .tc main_v15) = val_main_v15 (F := Ideal) (y1 m c) ∧ Q12 m c (Proc.devRef .tc main_v39) = val_main_v39 (F := Ideal) (y1 m c))) : (Q13 m c (Proc.devRef .tc main_v8) = val_main_v8 (F := Ideal) (y0 m c) (y2 m c) (y3 m c) (y4 m c) (y5 m c) ∧ Q13 m c (Proc.devRef .tc main_v12) = val_main_v12 (F := Ideal) (y1 m c) ∧ Q13 m c (Proc.devRef .tc main_v15) = val_main_v15 (F := Ideal) (y1 m c) ∧ Q13 m c (Proc.devRef .tc main_v39) = val_main_v39 (F := Ideal) (y1 m c)) := by
  refine ⟨?_, ?_, ?_, ?_⟩
  · show after [_, _, _, _, _, _, _, _, _, _, _, _, _, _, _, _, _, _, _, _, _, _] (Q12 m c) (Proc.devRef .tc main_v8) = _
    after_results_simp; exact hi.1
  · show after [_, _, _, _, _, _, _, _, _, _, _, _, _, _, _, _, _, _, _, _, _, _] (Q12 m c) (Proc.devRef .tc main_v12) = _
    after_results_simp; exact hi.2.1
  · show after [_, _, _, _, _, _, _, _, _, _, _, _, _, _, _, _, _, _, _, _, _, _] (Q12 m c) (Proc.devRef .tc main_v15) = _
    after_results_simp; exact hi.2.2.1
  · show after [_, _, _, _, _, _, _, _, _, _, _, _, _, _, _, _, _, _, _, _, _, _] (Q12 m c) (Proc.devRef .tc main_v39) = _
    after_results_simp; exact hi.2.2.2

/-! ## Round 10 -/

theorem Q14_out (hi : (Q13 m c (Proc.devRef .tc main_v8) = val_main_v8 (F := Ideal) (y0 m c) (y2 m c) (y3 m c) (y4 m c) (y5 m c) ∧ Q13 m c (Proc.devRef .tc main_v12) = val_main_v12 (F := Ideal) (y1 m c) ∧ Q13 m c (Proc.devRef .tc main_v15) = val_main_v15 (F := Ideal) (y1 m c) ∧ Q13 m c (Proc.devRef .tc main_v39) = val_main_v39 (F := Ideal) (y1 m c))) (hp : Q13 m c (Proc.devRef .tc main_v192) = val_main_v192 (F := Ideal) (y0 m c) (y1 m c) (y2 m c) (y3 m c) (y4 m c) (y5 m c)) :
    Q14 m c (Proc.devRef .tc main_v209) = val_main_v209 (F := Ideal) (y0 m c) (y1 m c) (y2 m c) (y3 m c) (y4 m c) (y5 m c) := by
  show after [_, _, _, _, _, _, _, _, _, _, _, _, _, _, _, _, _, _, _, _, _, _] (Q13 m c) (Proc.devRef .tc main_v209) = _
  after_results_simp
  rw [hp, hi.1, hi.2.1, hi.2.2.1, hi.2.2.2]
  simp only [val_main_v209, val_main_v206, val_main_v205, val_main_cst_54, val_main_v204, val_main_v202, val_main_cst_53, val_main_v203, val_main_v201, val_main_v200, val_main_v199, val_main_v198, val_main_v197, val_main_v194, val_main_v193, val_main_c_51, val_main_v196, val_main_v195, val_main_c_52, val_main_v208, val_main_v207, val_main_cst_55]
  try rfl

theorem inv14 (hi : (Q13 m c (Proc.devRef .tc main_v8) = val_main_v8 (F := Ideal) (y0 m c) (y2 m c) (y3 m c) (y4 m c) (y5 m c) ∧ Q13 m c (Proc.devRef .tc main_v12) = val_main_v12 (F := Ideal) (y1 m c) ∧ Q13 m c (Proc.devRef .tc main_v15) = val_main_v15 (F := Ideal) (y1 m c) ∧ Q13 m c (Proc.devRef .tc main_v39) = val_main_v39 (F := Ideal) (y1 m c))) : (Q14 m c (Proc.devRef .tc main_v8) = val_main_v8 (F := Ideal) (y0 m c) (y2 m c) (y3 m c) (y4 m c) (y5 m c) ∧ Q14 m c (Proc.devRef .tc main_v12) = val_main_v12 (F := Ideal) (y1 m c) ∧ Q14 m c (Proc.devRef .tc main_v15) = val_main_v15 (F := Ideal) (y1 m c) ∧ Q14 m c (Proc.devRef .tc main_v39) = val_main_v39 (F := Ideal) (y1 m c)) := by
  refine ⟨?_, ?_, ?_, ?_⟩
  · show after [_, _, _, _, _, _, _, _, _, _, _, _, _, _, _, _, _, _, _, _, _, _] (Q13 m c) (Proc.devRef .tc main_v8) = _
    after_results_simp; exact hi.1
  · show after [_, _, _, _, _, _, _, _, _, _, _, _, _, _, _, _, _, _, _, _, _, _] (Q13 m c) (Proc.devRef .tc main_v12) = _
    after_results_simp; exact hi.2.1
  · show after [_, _, _, _, _, _, _, _, _, _, _, _, _, _, _, _, _, _, _, _, _, _] (Q13 m c) (Proc.devRef .tc main_v15) = _
    after_results_simp; exact hi.2.2.1
  · show after [_, _, _, _, _, _, _, _, _, _, _, _, _, _, _, _, _, _, _, _, _, _] (Q13 m c) (Proc.devRef .tc main_v39) = _
    after_results_simp; exact hi.2.2.2

/-! ## The log-softmax, and the whole line -/

theorem Q14_v209 : Q14 m c (Proc.devRef .tc main_v209) = val_main_v209 (F := Ideal) (y0 m c) (y1 m c) (y2 m c) (y3 m c) (y4 m c) (y5 m c) := by
  have i4 := inv4 m c
  have o5 := Q5_out m c i4
  have i5 := inv5 m c i4
  have o6 := Q6_out m c i5 o5
  have i6 := inv6 m c i5
  have o7 := Q7_out m c i6 o6
  have i7 := inv7 m c i6
  have o8 := Q8_out m c i7 o7
  have i8 := inv8 m c i7
  have o9 := Q9_out m c i8 o8
  have i9 := inv9 m c i8
  have o10 := Q10_out m c i9 o9
  have i10 := inv10 m c i9
  have o11 := Q11_out m c i10 o10
  have i11 := inv11 m c i10
  have o12 := Q12_out m c i11 o11
  have i12 := inv12 m c i11
  have o13 := Q13_out m c i12 o12
  have i13 := inv13 m c i12
  have o14 := Q14_out m c i13 o13
  have i14 := inv14 m c i13
  exact o14

/-- THE REFERENCE'S RESULT: after the whole line the result buffer holds the program's last named value. -/
theorem result_eq : after opsR (Q0 m c) (Proc.devRef .tc main_v210) = val_main_v210 (F := Ideal) (y0 m c) (y1 m c) (y2 m c) (y3 m c) (y4 m c) (y5 m c) := by
  rw [fold_eq]
  show after [_, _, _, _, _, _, _, _, _, _, _, _, _, _, _] (Q14 m c) (Proc.devRef .tc main_v210) = _
  after_results_simp
  rw [Q14_v209 m c]
  simp only [toBuf_main_call2_cst, ofBuf_main_call2_cst, toBuf_main_v209, ofBuf_main_v209, toBuf_main_call2_v0, ofBuf_main_call2_v0, toBuf_main_call2_cst_0, ofBuf_main_call2_cst_0, toBuf_main_call2_v1, ofBuf_main_call2_v1, toBuf_main_call2_v2, ofBuf_main_call2_v2, toBuf_main_call2_v3, ofBuf_main_call2_v3, toBuf_main_call2_v4, ofBuf_main_call2_v4, toBuf_main_call2_v5, ofBuf_main_call2_v5, toBuf_main_call2_v6, ofBuf_main_call2_v6, toBuf_main_call2_cst_1, ofBuf_main_call2_cst_1, toBuf_main_call2_v7, ofBuf_main_call2_v7, toBuf_main_call2_v8, ofBuf_main_call2_v8, toBuf_main_call2_v9, ofBuf_main_call2_v9, toBuf_main_call2_v10, ofBuf_main_call2_v10, toBuf_main_v210, ofBuf_main_v210]
  simp only [val_main_v210, val_main_call2_v5, val_main_call2_v4, val_main_call2_v3, val_main_call2_v2, val_main_call2_v1, val_main_call2_cst_0, val_main_call2_v0, val_main_call2_cst, val_main_call2_v10, val_main_call2_v9, val_main_call2_v8, val_main_call2_v7, val_main_call2_v6, val_main_call2_cst_1]
  try rfl

end Cert.Gnn.RefChain

end
-- ==== Proof.RefArgs.lean ====
/-
  The reference writes none of its argument arrays.

  Stretch by stretch (the stretches of module RefChain): every operation writes its own result buffer, which is never an
  argument, so each argument's buffer holds after a stretch what it held before it, and after the whole line what it held
  at launch.
-/
import proofs.«180246_j3951369912443_1_alg».proof.Proof.RefChain

set_option maxRecDepth 16384

noncomputable section

namespace Cert.Gnn.RefChain

open Idealize.ShloMosaic Idealize.ShloMosaic.TcCoe Idealize.SL.Sem Idealize.ShloMosaic.StableHlo
open Cert.ReferenceIdeal

variable (m : (ℓ : Loc nD τ sig) → Buf (Elt Ideal) ℓ) (c : Dev nD)

theorem args1 : Q1 m c (Proc.devRef .tc main_arg0) = Q0 m c (Proc.devRef .tc main_arg0)
    ∧ Q1 m c (Proc.devRef .tc main_arg1) = Q0 m c (Proc.devRef .tc main_arg1)
    ∧ Q1 m c (Proc.devRef .tc main_arg2) = Q0 m c (Proc.devRef .tc main_arg2)
    ∧ Q1 m c (Proc.devRef .tc main_arg3) = Q0 m c (Proc.devRef .tc main_arg3)
    ∧ Q1 m c (Proc.devRef .tc main_arg4) = Q0 m c (Proc.devRef .tc main_arg4)
    ∧ Q1 m c (Proc.devRef .tc main_arg5) = Q0 m c (Proc.devRef .tc main_arg5) := by
  refine ⟨?_, ?_, ?_, ?_, ?_, ?_⟩ <;>
    (show after [_, _, _, _, _, _, _, _, _, _, _] (Q0 m c) _ = _
     after_results_simp)

theorem args2 : Q2 m c (Proc.devRef .tc main_arg0) = Q1 m c (Proc.devRef .tc main_arg0)
    ∧ Q2 m c (Proc.devRef .tc main_arg1) = Q1 m c (Proc.devRef .tc main_arg1)
    ∧ Q2 m c (Proc.devRef .tc main_arg2) = Q1 m c (Proc.devRef .tc main_arg2)
    ∧ Q2 m c (Proc.devRef .tc main_arg3) = Q1 m c (Proc.devRef .tc main_arg3)
    ∧ Q2 m c (Proc.devRef .tc main_arg4) = Q1 m c (Proc.devRef .tc main_arg4)
    ∧ Q2 m c (Proc.devRef .tc main_arg5) = Q1 m c (Proc.devRef .tc main_arg5) := by
  refine ⟨?_, ?_, ?_, ?_, ?_, ?_⟩ <;>
    (show after [_, _, _, _, _, _, _] (Q1 m c) _ = _
     after_results_simp)

theorem args3 : Q3 m c (Proc.devRef .tc main_arg0) = Q2 m c (Proc.devRef .tc main_arg0)
    ∧ Q3 m c (Proc.devRef .tc main_arg1) = Q2 m c (Proc.devRef .tc main_arg1)
    ∧ Q3 m c (Proc.devRef .tc main_arg2) = Q2 m c (Proc.devRef .tc main_arg2)
    ∧ Q3 m c (Proc.devRef .tc main_arg3) = Q2 m c (Proc.devRef .tc main_arg3)
    ∧ Q3 m c (Proc.devRef .tc main_arg4) = Q2 m c (Proc.devRef .tc main_arg4)
    ∧ Q3 m c (Proc.devRef .tc main_arg5) = Q2 m c (Proc.devRef .tc main_arg5) := by
  refine ⟨?_, ?_, ?_, ?_, ?_, ?_⟩ <;>
    (show after [_, _, _, _, _, _, _, _, _, _, _, _, _, _] (Q2 m c) _ = _
     after_results_simp)

theorem args4 : Q4 m c (Proc.devRef .tc main_arg0) = Q3 m c (Proc.devRef .tc main_arg0)
    ∧ Q4 m c (Proc.devRef .tc main_arg1) = Q3 m c (Proc.devRef .tc main_arg1)
    ∧ Q4 m c (Proc.devRef .tc main_arg2) = Q3 m c (Proc.devRef .tc main_arg2)
    ∧ Q4 m c (Proc.devRef .tc main_arg3) = Q3 m c (Proc.devRef .tc main_arg3)
    ∧ Q4 m c (Proc.devRef .tc main_arg4) = Q3 m c (Proc.devRef .tc main_arg4)
    ∧ Q4 m c (Proc.devRef .tc main_arg5) = Q3 m c (Proc.devRef .tc main_arg5) := by
  refine ⟨?_, ?_, ?_, ?_, ?_, ?_⟩ <;>
    (show after [_, _, _, _, _, _, _, _, _, _, _, _, _, _, _, _, _, _, _, _] (Q3 m c) _ = _
     after_results_simp)

theorem args5 : Q5 m c (Proc.devRef .tc main_arg0) = Q4 m c (Proc.devRef .tc main_arg0)
    ∧ Q5 m c (Proc.devRef .tc main_arg1) = Q4 m c (Proc.devRef .tc main_arg1)
    ∧ Q5 m c (Proc.devRef .tc main_arg2) = Q4 m c (Proc.devRef .tc main_arg2)
    ∧ Q5 m c (Proc.devRef .tc main_arg3) = Q4 m c (Proc.devRef .tc main_arg3)
    ∧ Q5 m c (Proc.devRef .tc main_arg4) = Q4 m c (Proc.devRef .tc main_arg4)
    ∧ Q5 m c (Proc.devRef .tc main_arg5) = Q4 m c (Proc.devRef .tc main_arg5) := by
  refine ⟨?_, ?_, ?_, ?_, ?_, ?_⟩ <;>
    (show after [_, _, _, _, _, _, _, _, _, _, _, _, _, _, _, _, _, _, _, _, _, _] (Q4 m c) _ = _
     after_results_simp)

theorem args6 : Q6 m c (Proc.devRef .tc main_arg0) = Q5 m c (Proc.devRef .tc main_arg0)
    ∧ Q6 m c (Proc.devRef .tc main_arg1) = Q5 m c (Proc.devRef .tc main_arg1)
    ∧ Q6 m c (Proc.devRef .tc main_arg2) = Q5 m c (Proc.devRef .tc main_arg2)
    ∧ Q6 m c (Proc.devRef .tc main_arg3) = Q5 m c (Proc.devRef .tc main_arg3)
    ∧ Q6 m c (Proc.devRef .tc main_arg4) = Q5 m c (Proc.devRef .tc main_arg4)
    ∧ Q6 m c (Proc.devRef .tc main_arg5) = Q5 m c (Proc.devRef .tc main_arg5) := by
  refine ⟨?_, ?_, ?_, ?_, ?_, ?_⟩ <;>
    (show after [_, _, _, _, _, _, _, _, _, _, _, _, _, _, _, _, _, _, _, _, _, _] (Q5 m c) _ = _
     after_results_simp)

theorem args7 : Q7 m c (Proc.devRef .tc main_arg0) = Q6 m c (Proc.devRef .tc main_arg0)
    ∧ Q7 m c (Proc.devRef .tc main_arg1) = Q6 m c (Proc.devRef .tc main_arg1)
    ∧ Q7 m c (Proc.devRef .tc main_arg2) = Q6 m c (Proc.devRef .tc main_arg2)
    ∧ Q7 m c (Proc.devRef .tc main_arg3) = Q6 m c (Proc.devRef .tc main_arg3)
    ∧ Q7 m c (Proc.devRef .tc main_arg4) = Q6 m c (Proc.devRef .tc main_arg4)
    ∧ Q7 m c (Proc.devRef .tc main_arg5) = Q6 m c (Proc.devRef .tc main_arg5) := by
  refine ⟨?_, ?_, ?_, ?_, ?_, ?_⟩ <;>
    (show after [_, _, _, _, _, _, _, _, _, _, _, _, _, _, _, _, _, _, _, _, _, _] (Q6 m c) _ = _
     after_results_simp)

theorem args8 : Q8 m c (Proc.devRef .tc main_arg0) = Q7 m c (Proc.devRef .tc main_arg0)
    ∧ Q8 m c (Proc.devRef .tc main_arg1) = Q7 m c (Proc.devRef .tc main_arg1)
    ∧ Q8 m c (Proc.devRef .tc main_arg2) = Q7 m c (Proc.devRef .tc main_arg2)
    ∧ Q8 m c (Proc.devRef .tc main_arg3) = Q7 m c (Proc.devRef .tc main_arg3)
    ∧ Q8 m c (Proc.devRef .tc main_arg4) = Q7 m c (Proc.devRef .tc main_arg4)
    ∧ Q8 m c (Proc.devRef .tc main_arg5) = Q7 m c (Proc.devRef .tc main_arg5) := by
  refine ⟨?_, ?_, ?_, ?_, ?_, ?_⟩ <;>
    (show after [_, _, _, _, _, _, _, _, _, _, _, _, _, _, _, _, _, _, _, _, _, _] (Q7 m c) _ = _
     after_results_simp)

theorem args9 : Q9 m c (Proc.devRef .tc main_arg0) = Q8 m c (Proc.devRef .tc main_arg0)
    ∧ Q9 m c (Proc.devRef .tc main_arg1) = Q8 m c (Proc.devRef .tc main_arg1)
    ∧ Q9 m c (Proc.devRef .tc main_arg2) = Q8 m c (Proc.devRef .tc main_arg2)
    ∧ Q9 m c (Proc.devRef .tc main_arg3) = Q8 m c (Proc.devRef .tc main_arg3)
    ∧ Q9 m c (Proc.devRef .tc main_arg4) = Q8 m c (Proc.devRef .tc main_arg4)
    ∧ Q9 m c (Proc.devRef .tc main_arg5) = Q8 m c (Proc.devRef .tc main_arg5) := by
  refine ⟨?_, ?_, ?_, ?_, ?_, ?_⟩ <;>
    (show after [_, _, _, _, _, _, _, _, _, _, _, _, _, _, _, _, _, _, _, _, _, _] (Q8 m c) _ = _
     after_results_simp)

theorem args10 : Q10 m c (Proc.devRef .tc main_arg0) = Q9 m c (Proc.devRef .tc main_arg0)
    ∧ Q10 m c (Proc.devRef .tc main_arg1) = Q9 m c (Proc.devRef .tc main_arg1)
    ∧ Q10 m c (Proc.devRef .tc main_arg2) = Q9 m c (Proc.devRef .tc main_arg2)
    ∧ Q10 m c (Proc.devRef .tc main_arg3) = Q9 m c (Proc.devRef .tc main_arg3)
    ∧ Q10 m c (Proc.devRef .tc main_arg4) = Q9 m c (Proc.devRef .tc main_arg4)
    ∧ Q10 m c (Proc.devRef .tc main_arg5) = Q9 m c (Proc.devRef .tc main_arg5) := by
  refine ⟨?_, ?_, ?_, ?_, ?_, ?_⟩ <;>
    (show after [_, _, _, _, _, _, _, _, _, _, _, _, _, _, _, _, _, _, _, _, _, _] (Q9 m c) _ = _
     after_results_simp)

theorem args11 : Q11 m c (Proc.devRef .tc main_arg0) = Q10 m c (Proc.devRef .tc main_arg0)
    ∧ Q11 m c (Proc.devRef .tc main_arg1) = Q10 m c (Proc.devRef .tc main_arg1)
    ∧ Q11 m c (Proc.devRef .tc main_arg2) = Q10 m c (Proc.devRef .tc main_arg2)
    ∧ Q11 m c (Proc.devRef .tc main_arg3) = Q10 m c (Proc.devRef .tc main_arg3)
    ∧ Q11 m c (Proc.devRef .tc main_arg4) = Q10 m c (Proc.devRef .tc main_arg4)
    ∧ Q11 m c (Proc.devRef .tc main_arg5) = Q10 m c (Proc.devRef .tc main_arg5) := by
  refine ⟨?_, ?_, ?_, ?_, ?_, ?_⟩ <;>
    (show after [_, _, _, _, _, _, _, _, _, _, _, _, _, _, _, _, _, _, _, _, _, _] (Q10 m c) _ = _
     after_results_simp)

theorem args12 : Q12 m c (Proc.devRef .tc main_arg0) = Q11 m c (Proc.devRef .tc main_arg0)
    ∧ Q12 m c (Proc.devRef .tc main_arg1) = Q11 m c (Proc.devRef .tc main_arg1)
    ∧ Q12 m c (Proc.devRef .tc main_arg2) = Q11 m c (Proc.devRef .tc main_arg2)
    ∧ Q12 m c (Proc.devRef .tc main_arg3) = Q11 m c (Proc.devRef .tc main_arg3)
    ∧ Q12 m c (Proc.devRef .tc main_arg4) = Q11 m c (Proc.devRef .tc main_arg4)
    ∧ Q12 m c (Proc.devRef .tc main_arg5) = Q11 m c (Proc.devRef .tc main_arg5) := by
  refine ⟨?_, ?_, ?_, ?_, ?_, ?_⟩ <;>
    (show after [_, _, _, _, _, _, _, _, _, _, _, _, _, _, _, _, _, _, _, _, _, _] (Q11 m c) _ = _
     after_results_simp)

theorem args13 : Q13 m c (Proc.devRef .tc main_arg0) = Q12 m c (Proc.devRef .tc main_arg0)
    ∧ Q13 m c (Proc.devRef .tc main_arg1) = Q12 m c (Proc.devRef .tc main_arg1)
    ∧ Q13 m c (Proc.devRef .tc main_arg2) = Q12 m c (Proc.devRef .tc main_arg2)
    ∧ Q13 m c (Proc.devRef .tc main_arg3) = Q12 m c (Proc.devRef .tc main_arg3)
    ∧ Q13 m c (Proc.devRef .tc main_arg4) = Q12 m c (Proc.devRef .tc main_arg4)
    ∧ Q13 m c (Proc.devRef .tc main_arg5) = Q12 m c (Proc.devRef .tc main_arg5) := by
  refine ⟨?_, ?_, ?_, ?_, ?_, ?_⟩ <;>
    (show after [_, _, _, _, _, _, _, _, _, _, _, _, _, _, _, _, _, _, _, _, _, _] (Q12 m c) _ = _
     after_results_simp)

theorem args14 : Q14 m c (Proc.devRef .tc main_arg0) = Q13 m c (Proc.devRef .tc main_arg0)
    ∧ Q14 m c (Proc.devRef .tc main_arg1) = Q13 m c (Proc.devRef .tc main_arg1)
    ∧ Q14 m c (Proc.devRef .tc main_arg2) = Q13 m c (Proc.devRef .tc main_arg2)
    ∧ Q14 m c (Proc.devRef .tc main_arg3) = Q13 m c (Proc.devRef .tc main_arg3)
    ∧ Q14 m c (Proc.devRef .tc main_arg4) = Q13 m c (Proc.devRef .tc main_arg4)
    ∧ Q14 m c (Proc.devRef .tc main_arg5) = Q13 m c (Proc.devRef .tc main_arg5) := by
  refine ⟨?_, ?_, ?_, ?_, ?_, ?_⟩ <;>
    (show after [_, _, _, _, _, _, _, _, _, _, _, _, _, _, _, _, _, _, _, _, _, _] (Q13 m c) _ = _
     after_results_simp)

theorem args15 : Q15 m c (Proc.devRef .tc main_arg0) = Q14 m c (Proc.devRef .tc main_arg0)
    ∧ Q15 m c (Proc.devRef .tc main_arg1) = Q14 m c (Proc.devRef .tc main_arg1)
    ∧ Q15 m c (Proc.devRef .tc main_arg2) = Q14 m c (Proc.devRef .tc main_arg2)
    ∧ Q15 m c (Proc.devRef .tc main_arg3) = Q14 m c (Proc.devRef .tc main_arg3)
    ∧ Q15 m c (Proc.devRef .tc main_arg4) = Q14 m c (Proc.devRef .tc main_arg4)
    ∧ Q15 m c (Proc.devRef .tc main_arg5) = Q14 m c (Proc.devRef .tc main_arg5) := by
  refine ⟨?_, ?_, ?_, ?_, ?_, ?_⟩ <;>
    (show after [_, _, _, _, _, _, _, _, _, _, _, _, _, _, _] (Q14 m c) _ = _
     after_results_simp)

/-- Argument 0 ends as launched. -/
theorem arg0_kept : after opsR (Q0 m c) (Proc.devRef .tc main_arg0) = y0 m c := by
  rw [fold_eq]
  exact ((args15 m c).1).trans (((args14 m c).1).trans (((args13 m c).1).trans (((args12 m c).1).trans (((args11 m c).1).trans (((args10 m c).1).trans (((args9 m c).1).trans (((args8 m c).1).trans (((args7 m c).1).trans (((args6 m c).1).trans (((args5 m c).1).trans (((args4 m c).1).trans (((args3 m c).1).trans (((args2 m c).1).trans ((args1 m c).1))))))))))))))

/-- Argument 1 ends as launched. -/
theorem arg1_kept : after opsR (Q0 m c) (Proc.devRef .tc main_arg1) = y1 m c := by
  rw [fold_eq]
  exact ((args15 m c).2.1).trans (((args14 m c).2.1).trans (((args13 m c).2.1).trans (((args12 m c).2.1).trans (((args11 m c).2.1).trans (((args10 m c).2.1).trans (((args9 m c).2.1).trans (((args8 m c).2.1).trans (((args7 m c).2.1).trans (((args6 m c).2.1).trans (((args5 m c).2.1).trans (((args4 m c).2.1).trans (((args3 m c).2.1).trans (((args2 m c).2.1).trans ((args1 m c).2.1))))))))))))))

/-- Argument 2 ends as launched. -/
theorem arg2_kept : after opsR (Q0 m c) (Proc.devRef .tc main_arg2) = y2 m c := by
  rw [fold_eq]
  exact ((args15 m c).2.2.1).trans (((args14 m c).2.2.1).trans (((args13 m c).2.2.1).trans (((args12 m c).2.2.1).trans (((args11 m c).2.2.1).trans (((args10 m c).2.2.1).trans (((args9 m c).2.2.1).trans (((args8 m c).2.2.1).trans (((args7 m c).2.2.1).trans (((args6 m c).2.2.1).trans (((args5 m c).2.2.1).trans (((args4 m c).2.2.1).trans (((args3 m c).2.2.1).trans (((args2 m c).2.2.1).trans ((args1 m c).2.2.1))))))))))))))

/-- Argument 3 ends as launched. -/
theorem arg3_kept : after opsR (Q0 m c) (Proc.devRef .tc main_arg3) = y3 m c := by
  rw [fold_eq]
  exact ((args15 m c).2.2.2.1).trans (((args14 m c).2.2.2.1).trans (((args13 m c).2.2.2.1).trans (((args12 m c).2.2.2.1).trans (((args11 m c).2.2.2.1).trans (((args10 m c).2.2.2.1).trans (((args9 m c).2.2.2.1).trans (((args8 m c).2.2.2.1).trans (((args7 m c).2.2.2.1).trans (((args6 m c).2.2.2.1).trans (((args5 m c).2.2.2.1).trans (((args4 m c).2.2.2.1).trans (((args3 m c).2.2.2.1).trans (((args2 m c).2.2.2.1).trans ((args1 m c).2.2.2.1))))))))))))))

/-- Argument 4 ends as launched. -/
theorem arg4_kept : after opsR (Q0 m c) (Proc.devRef .tc main_arg4) = y4 m c := by
  rw [fold_eq]
  exact ((args15 m c).2.2.2.2.1).trans (((args14 m c).2.2.2.2.1).trans (((args13 m c).2.2.2.2.1).trans (((args12 m c).2.2.2.2.1).trans (((args11 m c).2.2.2.2.1).trans (((args10 m c).2.2.2.2.1).trans (((args9 m c).2.2.2.2.1).trans (((args8 m c).2.2.2.2.1).trans (((args7 m c).2.2.2.2.1).trans (((args6 m c).2.2.2.2.1).trans (((args5 m c).2.2.2.2.1).trans (((args4 m c).2.2.2.2.1).trans (((args3 m c).2.2.2.2.1).trans (((args2 m c).2.2.2.2.1).trans ((args1 m c).2.2.2.2.1))))))))))))))

/-- Argument 5 ends as launched. -/
theorem arg5_kept : after opsR (Q0 m c) (Proc.devRef .tc main_arg5) = y5 m c := by
  rw [fold_eq]
  exact ((args15 m c).2.2.2.2.2).trans (((args14 m c).2.2.2.2.2).trans (((args13 m c).2.2.2.2.2).trans (((args12 m c).2.2.2.2.2).trans (((args11 m c).2.2.2.2.2).trans (((args10 m c).2.2.2.2.2).trans (((args9 m c).2.2.2.2.2).trans (((args8 m c).2.2.2.2.2).trans (((args7 m c).2.2.2.2.2).trans (((args6 m c).2.2.2.2.2).trans (((args5 m c).2.2.2.2.2).trans (((args4 m c).2.2.2.2.2).trans (((args3 m c).2.2.2.2.2).trans (((args2 m c).2.2.2.2.2).trans ((args1 m c).2.2.2.2.2))))))))))))))

end Cert.Gnn.RefChain

end
-- ==== Proof.KernelRun.lean ====
/-
  The idealized kernel's whole run, with its result named.

  @main is twenty-five segments: stretches of host operations and twelve pallas regions (the two-layer
  perceptron, ten teleport combinations, the row-wise log-softmax).  The contents of every unscoped buffer at each
  segment boundary is a fold from the launch memory; at the last boundary that fold is `W25`.  The statement
  below is the frame statement with one more conjunct: the result buffer ends at `W25` read at the result's
  reference.  What that value is, as a function of the six argument arrays, is the business of the other modules.
-/
import proofs.«180246_j3951369912443_1_alg».proof.Proof.Gen.KernelIdeal.Frame

set_option maxRecDepth 16384

noncomputable section

namespace Cert.Gnn.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result buffer then holds the
    last boundary's contents at the result's reference, and the six argument arrays are as launched. -/
theorem run_value : θ_run defs (onTc (τ := τ) (main (F := F))) ⟨m, fun _ => 0, ρ⟩ (fun r => ∀ c : Dev nD,
      r.2.mem ((c.tc : Thread nD τ).loc main_v173) = W25 m ρ c (Proc.devRef .tc main_v173)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h c =>
      ⟨h c _ (mem_uc main_v173 (by decide)),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c),
       (h c _ (mem_uc main_arg4 (by decide))).trans (W25_main_arg4 m ρ c),
       (h c _ (mem_uc main_arg5 (by decide))).trans (W25_main_arg5 m ρ c)⟩)

end Cert.Gnn.KernelRun

end
-- ==== Proof.Teleport.lean ====
/-
  The teleport combination, region by region.

  Each of the ten combination regions walks the 100000 rows in ten blocks of 10000 rows (all 64 columns); at a point
  the body loads the aggregate's block and the start features' block and stores
      0.9 · aggregate + 0.1 · start            (both factors the f32 words the program spells),
  element by element.  All three windows move with the point in the same way (block `t` is rows 10000·t … 10000·t+9999),
  so what point `t` writes back is block `t` of ONE whole-array function of the two input arrays, and the ten blocks
  tile the array: after the region the output array IS that function of the arrays the region found.
-/
import proofs.«180246_j3951369912443_1_alg».proof.Proof.Gen.KernelIdeal.Frame
import Idealize.ShloMosaic.Lib.Pipeline.Value
import Idealize.ShloMosaic.Lib.ValueIdx

set_option maxRecDepth 16384

noncomputable section

namespace Cert.Gnn

open Idealize.ShloMosaic Idealize.ShloMosaic.TcCoe Idealize.SL.Sem
open Idealize.ShloMosaic.Pipeline (Dat Cfg Window)
open Cert.KernelIdeal Cert.KernelIdeal.Gen

/-- The teleport combination of an aggregate and the start features, element by element. -/
def teleport {s : Shape} (agg h0 : FVec Ideal s .f32) : FVec Ideal s .f32 :=
  addf (mulf (broadcast s (Scalar.ofBits .f32 0x3F666666#32)) agg) (mulf (broadcast s (Scalar.ofBits .f32 0x3DCCCCCD#32)) h0)

/-- The combination at an index. -/
theorem teleport_apply {s : Shape} (agg h0 : FVec Ideal s .f32) (i : s.Idx) :
    teleport agg h0 i = FloatOps.addf (FloatOps.mulf (FloatOps.ofBits .f32 0x3F666666#32) (agg i))
      (FloatOps.mulf (FloatOps.ofBits .f32 0x3DCCCCCD#32) (h0 i)) := rfl

theorem zero_offsets : (![0, 0] : Fin 2 → Nat) = fun _ => 0 := funext fun a => by fin_cases a <;> rfl

variable (V : (c : Dev nD) → (b : Ref sig .tc) → Buf (Elt Ideal) ((c : Thread nD τ).loc b))

/-! ## Region 1 -/

namespace R1

/-- The body's arithmetic is the teleport combination of its two loaded blocks. -/
theorem payload_eq (x0 x1 : Vec Ideal S10000x64 .f32) : k1_pay1 (F := Ideal) x0 x1 = teleport x0 x1 := by
  unfold k1_pay1 teleport
  simp only [shapeCast_self]

/-- The three windows move together: the same block index on both axes at every point, and the row index is the point. -/
theorem index_facts : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) ≤ 9 ∧ win1_2.index t (1 : Fin 2) = 0 :=
  (by decide +kernel : ∀ t : Fin grid1.N, _)

/-- Every block row is some point's. -/
theorem index_onto : ∀ q0 : Fin 10, ∃ t : Fin cfg1.N, win1_2.index t = ![q0.val, 0] :=
  (by decide +kernel : ∀ q0 : Fin 10, ∃ t : Fin grid1.N, win1_2.index t = ![q0.val, 0])

/-- What point `t` writes back is block `t` of the teleport combination of the two arrays the region found. -/
theorem flushed_eq (c : Dev nD) (t : Fin cfg1.N) :
    (dat1 V c).flushed 2 t = ((cfg1.win 2).blk t).view.read (Elt Ideal) (teleport (s := S100000x64) (V c main_v45) (V c main_v2)) := by
  show (cfg1.win 2).cut (grid1.coords t) ((dat1 V c).after 2 t) = _
  rw [after1_2]
  unfold out1_2
  rw [View.canon_unit_zero zero_offsets]
  simp only [View.ld_unit_zero (S := S10000x64) zero_offsets]
  rw [payload_eq]
  obtain ⟨e0, e1, e2, e3, e4, e5⟩ := index_facts t
  funext j
  show teleport (iblk1 V c 0 t) (iblk1 V c 1 t) j = teleport (s := S100000x64) (V c main_v45) (V c main_v2) (((cfg1.win 2).blk t).view.emb j)
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 64 + 1 * (j 1).val = win1_2.index t (1 : Fin 2) * 64 + 1 * (j 1).val; omega
  have h0' : iblk1 V c 0 t j = V c main_v45 (((cfg1.win 2).blk t).view.emb j) := by
    show V c main_v45 (((cfg1.win 0).blk t).view.emb j) = _
    rw [h0]
  have h1' : iblk1 V c 1 t j = V c main_v2 (((cfg1.win 2).blk t).view.emb j) := by
    show V c main_v2 (((cfg1.win 1).blk t).view.emb j) = _
    rw [h1]
  refine (teleport_apply (iblk1 V c 0 t) (iblk1 V c 1 t) j).trans ?_
  refine Eq.trans ?_ (teleport_apply (s := S100000x64) (V c main_v45) (V c main_v2) (((cfg1.win 2).blk t).view.emb j)).symm
  rw [h0', h1']

/-- An index of the array lies in point `t`'s block iff each coordinate lies in the block's range on its axis. -/
theorem mem_block (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v46).slice (win1_2.rect t)).set ↔ _
  rw [View.set_slice_whole, Rect.mem_set_unit]
  exact Iff.rfl

/-- The ten blocks cover the array: row `r` lies in the block of point `r / 10000`. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the region its output array is the teleport combination of the aggregate and the start features it found. -/
theorem array_eq (c : Dev nD) : (dat1 V c).arrAt 2 cfg1.N = teleport (s := S100000x64) (V c main_v45) (V c main_v2) :=
  (dat1 V c).arrAt_eq_of_cover 2 _ (fun t _ => flushed_eq V c t) cover

end R1

/-! ## Region 2 -/

namespace R2

/-- The body's arithmetic is the teleport combination of its two loaded blocks. -/
theorem payload_eq (x0 x1 : Vec Ideal S10000x64 .f32) : k2_pay1 (F := Ideal) x0 x1 = teleport x0 x1 := by
  unfold k2_pay1 teleport
  simp only [shapeCast_self]

/-- The three windows move together: the same block index on both axes at every point, and the row index is the point. -/
theorem index_facts : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = win2_2.index t (1 : Fin 2)
    ∧ win2_2.index t (0 : Fin 2) ≤ 9 ∧ win2_2.index t (1 : Fin 2) = 0 :=
  (by decide +kernel : ∀ t : Fin grid2.N, _)

/-- Every block row is some point's. -/
theorem index_onto : ∀ q0 : Fin 10, ∃ t : Fin cfg2.N, win2_2.index t = ![q0.val, 0] :=
  (by decide +kernel : ∀ q0 : Fin 10, ∃ t : Fin grid2.N, win2_2.index t = ![q0.val, 0])

/-- What point `t` writes back is block `t` of the teleport combination of the two arrays the region found. -/
theorem flushed_eq (c : Dev nD) (t : Fin cfg2.N) :
    (dat2 V c).flushed 2 t = ((cfg2.win 2).blk t).view.read (Elt Ideal) (teleport (s := S100000x64) (V c main_v59) (V c main_v2)) := by
  show (cfg2.win 2).cut (grid2.coords t) ((dat2 V c).after 2 t) = _
  rw [after2_2]
  unfold out2_2
  rw [View.canon_unit_zero zero_offsets]
  simp only [View.ld_unit_zero (S := S10000x64) zero_offsets]
  rw [payload_eq]
  obtain ⟨e0, e1, e2, e3, e4, e5⟩ := index_facts t
  funext j
  show teleport (iblk2 V c 0 t) (iblk2 V c 1 t) j = teleport (s := S100000x64) (V c main_v59) (V c main_v2) (((cfg2.win 2).blk t).view.emb j)
  have h0 : ((cfg2.win 0).blk t).view.emb j = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb j = ((cfg2.win 2).blk t).view.emb j := by
    funext a; apply Fin.ext
    match a with
    | ⟨0, _⟩ => show win2_1.index t (0 : Fin 2) * 10000 + 1 * (j 0).val = win2_2.index t (0 : Fin 2) * 10000 + 1 * (j 0).val; omega
    | ⟨1, _⟩ => show win2_1.index t (1 : Fin 2) * 64 + 1 * (j 1).val = win2_2.index t (1 : Fin 2) * 64 + 1 * (j 1).val; omega
  have h0' : iblk2 V c 0 t j = V c main_v59 (((cfg2.win 2).blk t).view.emb j) := by
    show V c main_v59 (((cfg2.win 0).blk t).view.emb j) = _
    rw [h0]
  have h1' : iblk2 V c 1 t j = V c main_v2 (((cfg2.win 2).blk t).view.emb j) := by
    show V c main_v2 (((cfg2.win 1).blk t).view.emb j) = _
    rw [h1]
  refine (teleport_apply (iblk2 V c 0 t) (iblk2 V c 1 t) j).trans ?_
  refine Eq.trans ?_ (teleport_apply (s := S100000x64) (V c main_v59) (V c main_v2) (((cfg2.win 2).blk t).view.emb j)).symm
  rw [h0', h1']

/-- An index of the array lies in point `t`'s block iff each coordinate lies in the block's range on its axis. -/
theorem mem_block (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v60).slice (win2_2.rect t)).set ↔ _
  rw [View.set_slice_whole, Rect.mem_set_unit]
  exact Iff.rfl

/-- The ten blocks cover the array: row `r` lies in the block of point `r / 10000`. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := index_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- After the region its output array is the teleport combination of the aggregate and the start features it found. -/
theorem array_eq (c : Dev nD) : (dat2 V c).arrAt 2 cfg2.N = teleport (s := S100000x64) (V c main_v59) (V c main_v2) :=
  (dat2 V c).arrAt_eq_of_cover 2 _ (fun t _ => flushed_eq V c t) cover

end R2

/-! ## Region 3 -/

namespace R3

/-- The body's arithmetic is the teleport combination of its two loaded blocks. -/
theorem payload_eq (x0 x1 : Vec Ideal S10000x64 .f32) : k3_pay1 (F := Ideal) x0 x1 = teleport x0 x1 := by
  unfold k3_pay1 teleport
  simp only [shapeCast_self]

/-- The three windows move together: the same block index on both axes at every point, and the row index is the point. -/
theorem index_facts : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2)
    ∧ win3_2.index t (0 : Fin 2) ≤ 9 ∧ win3_2.index t (1 : Fin 2) = 0 :=
  (by decide +kernel : ∀ t : Fin grid3.N, _)

/-- Every block row is some point's. -/
theorem index_onto : ∀ q0 : Fin 10, ∃ t : Fin cfg3.N, win3_2.index t = ![q0.val, 0] :=
  (by decide +kernel : ∀ q0 : Fin 10, ∃ t : Fin grid3.N, win3_2.index t = ![q0.val, 0])

/-- What point `t` writes back is block `t` of the teleport combination of the two arrays the region found. -/
theorem flushed_eq (c : Dev nD) (t : Fin cfg3.N) :
    (dat3 V c).flushed 2 t = ((cfg3.win 2).blk t).view.read (Elt Ideal) (teleport (s := S100000x64) (V c main_v73) (V c main_v2)) := by
  show (cfg3.win 2).cut (grid3.coords t) ((dat3 V c).after 2 t) = _
  rw [after3_2]
  unfold out3_2
  rw [View.canon_unit_zero zero_offsets]
  simp only [View.ld_unit_zero (S := S10000x64) zero_offsets]
  rw [payload_eq]
  obtain ⟨e0, e1, e2, e3, e4, e5⟩ := index_facts t
  funext j
  show teleport (iblk3 V c 0 t) (iblk3 V c 1 t) j = teleport (s := S100000x64) (V c main_v73) (V c main_v2) (((cfg3.win 2).blk t).view.emb j)
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb j = ((cfg3.win 2).blk t).view.emb j := by
    funext a; apply Fin.ext
    match a with
    | ⟨0, _⟩ => show win3_1.index t (0 : Fin 2) * 10000 + 1 * (j 0).val = win3_2.index t (0 : Fin 2) * 10000 + 1 * (j 0).val; omega
    | ⟨1, _⟩ => show win3_1.index t (1 : Fin 2) * 64 + 1 * (j 1).val = win3_2.index t (1 : Fin 2) * 64 + 1 * (j 1).val; omega
  have h0' : iblk3 V c 0 t j = V c main_v73 (((cfg3.win 2).blk t).view.emb j) := by
    show V c main_v73 (((cfg3.win 0).blk t).view.emb j) = _
    rw [h0]
  have h1' : iblk3 V c 1 t j = V c main_v2 (((cfg3.win 2).blk t).view.emb j) := by
    show V c main_v2 (((cfg3.win 1).blk t).view.emb j) = _
    rw [h1]
  refine (teleport_apply (iblk3 V c 0 t) (iblk3 V c 1 t) j).trans ?_
  refine Eq.trans ?_ (teleport_apply (s := S100000x64) (V c main_v73) (V c main_v2) (((cfg3.win 2).blk t).view.emb j)).symm
  rw [h0', h1']

/-- An index of the array lies in point `t`'s block iff each coordinate lies in the block's range on its axis. -/
theorem mem_block (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v74).slice (win3_2.rect t)).set ↔ _
  rw [View.set_slice_whole, Rect.mem_set_unit]
  exact Iff.rfl

/-- The ten blocks cover the array: row `r` lies in the block of point `r / 10000`. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := index_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- After the region its output array is the teleport combination of the aggregate and the start features it found. -/
theorem array_eq (c : Dev nD) : (dat3 V c).arrAt 2 cfg3.N = teleport (s := S100000x64) (V c main_v73) (V c main_v2) :=
  (dat3 V c).arrAt_eq_of_cover 2 _ (fun t _ => flushed_eq V c t) cover

end R3

/-! ## Region 4 -/

namespace R4

/-- The body's arithmetic is the teleport combination of its two loaded blocks. -/
theorem payload_eq (x0 x1 : Vec Ideal S10000x64 .f32) : k4_pay1 (F := Ideal) x0 x1 = teleport x0 x1 := by
  unfold k4_pay1 teleport
  simp only [shapeCast_self]

/-- The three windows move together: the same block index on both axes at every point, and the row index is the point. -/
theorem index_facts : ∀ t : Fin cfg4.N, win4_0.index t (0 : Fin 2) = win4_2.index t (0 : Fin 2)
    ∧ win4_0.index t (1 : Fin 2) = win4_2.index t (1 : Fin 2)
    ∧ win4_1.index t (0 : Fin 2) = win4_2.index t (0 : Fin 2)
    ∧ win4_1.index t (1 : Fin 2) = win4_2.index t (1 : Fin 2)
    ∧ win4_2.index t (0 : Fin 2) ≤ 9 ∧ win4_2.index t (1 : Fin 2) = 0 :=
  (by decide +kernel : ∀ t : Fin grid4.N, _)

/-- Every block row is some point's. -/
theorem index_onto : ∀ q0 : Fin 10, ∃ t : Fin cfg4.N, win4_2.index t = ![q0.val, 0] :=
  (by decide +kernel : ∀ q0 : Fin 10, ∃ t : Fin grid4.N, win4_2.index t = ![q0.val, 0])

/-- What point `t` writes back is block `t` of the teleport combination of the two arrays the region found. -/
theorem flushed_eq (c : Dev nD) (t : Fin cfg4.N) :
    (dat4 V c).flushed 2 t = ((cfg4.win 2).blk t).view.read (Elt Ideal) (teleport (s := S100000x64) (V c main_v87) (V c main_v2)) := by
  show (cfg4.win 2).cut (grid4.coords t) ((dat4 V c).after 2 t) = _
  rw [after4_2]
  unfold out4_2
  rw [View.canon_unit_zero zero_offsets]
  simp only [View.ld_unit_zero (S := S10000x64) zero_offsets]
  rw [payload_eq]
  obtain ⟨e0, e1, e2, e3, e4, e5⟩ := index_facts t
  funext j
  show teleport (iblk4 V c 0 t) (iblk4 V c 1 t) j = teleport (s := S100000x64) (V c main_v87) (V c main_v2) (((cfg4.win 2).blk t).view.emb j)
  have h0 : ((cfg4.win 0).blk t).view.emb j = ((cfg4.win 2).blk t).view.emb j := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 64 + 1 * (j 1).val = win4_2.index t (1 : Fin 2) * 64 + 1 * (j 1).val; omega
  have h1 : ((cfg4.win 1).blk t).view.emb j = ((cfg4.win 2).blk t).view.emb j := by
    funext a; apply Fin.ext
    match a with
    | ⟨0, _⟩ => show win4_1.index t (0 : Fin 2) * 10000 + 1 * (j 0).val = win4_2.index t (0 : Fin 2) * 10000 + 1 * (j 0).val; omega
    | ⟨1, _⟩ => show win4_1.index t (1 : Fin 2) * 64 + 1 * (j 1).val = win4_2.index t (1 : Fin 2) * 64 + 1 * (j 1).val; omega
  have h0' : iblk4 V c 0 t j = V c main_v87 (((cfg4.win 2).blk t).view.emb j) := by
    show V c main_v87 (((cfg4.win 0).blk t).view.emb j) = _
    rw [h0]
  have h1' : iblk4 V c 1 t j = V c main_v2 (((cfg4.win 2).blk t).view.emb j) := by
    show V c main_v2 (((cfg4.win 1).blk t).view.emb j) = _
    rw [h1]
  refine (teleport_apply (iblk4 V c 0 t) (iblk4 V c 1 t) j).trans ?_
  refine Eq.trans ?_ (teleport_apply (s := S100000x64) (V c main_v87) (V c main_v2) (((cfg4.win 2).blk t).view.emb j)).symm
  rw [h0', h1']

/-- An index of the array lies in point `t`'s block iff each coordinate lies in the block's range on its axis. -/
theorem mem_block (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v88).slice (win4_2.rect t)).set ↔ _
  rw [View.set_slice_whole, Rect.mem_set_unit]
  exact Iff.rfl

/-- The ten blocks cover the array: row `r` lies in the block of point `r / 10000`. -/
theorem cover (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ := index_onto ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_block]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- After the region its output array is the teleport combination of the aggregate and the start features it found. -/
theorem array_eq (c : Dev nD) : (dat4 V c).arrAt 2 cfg4.N = teleport (s := S100000x64) (V c main_v87) (V c main_v2) :=
  (dat4 V c).arrAt_eq_of_cover 2 _ (fun t _ => flushed_eq V c t) cover

end R4

/-! ## Region 5 -/

namespace R5

/-- The body's arithmetic is the teleport combination of its two loaded blocks. -/
theorem payload_eq (x0 x1 : Vec Ideal S10000x64 .f32) : k5_pay1 (F := Ideal) x0 x1 = teleport x0 x1 := by
  unfold k5_pay1 teleport
  simp only [shapeCast_self]

/-- The three windows move together: the same block index on both axes at every point, and the row index is the point. -/
theorem index_facts : ∀ t : Fin cfg5.N, win5_0.index t (0 : Fin 2) = win5_2.index t (0 : Fin 2)
    ∧ win5_0.index t (1 : Fin 2) = win5_2.index t (1 : Fin 2)
    ∧ win5_1.index t (0 : Fin 2) = win5_2.index t (0 : Fin 2)
    ∧ win5_1.index t (1 : Fin 2) = win5_2.index t (1 : Fin 2)
    ∧ win5_2.index t (0 : Fin 2) ≤ 9 ∧ win5_2.index t (1 : Fin 2) = 0 :=
  (by decide +kernel : ∀ t : Fin grid5.N, _)

/-- Every block row is some point's. -/
theorem index_onto : ∀ q0 : Fin 10, ∃ t : Fin cfg5.N, win5_2.index t = ![q0.val, 0] :=
  (by decide +kernel : ∀ q0 : Fin 10, ∃ t : Fin grid5.N, win5_2.index t = ![q0.val, 0])

/-- What point `t` writes back is block `t` of the teleport combination of the two arrays the region found. -/
theorem flushed_eq (c : Dev nD) (t : Fin cfg5.N) :
    (dat5 V c).flushed 2 t = ((cfg5.win 2).blk t).view.read (Elt Ideal) (teleport (s := S100000x64) (V c main_v101) (V c main_v2)) := by
  show (cfg5.win 2).cut (grid5.coords t) ((dat5 V c).after 2 t) = _
  rw [after5_2]
  unfold out5_2
  rw [View.canon_unit_zero zero_offsets]
  simp only [View.ld_unit_zero (S := S10000x64) zero_offsets]
  rw [payload_eq]
  obtain ⟨e0, e1, e2, e3, e4, e5⟩ := index_facts t
  funext j
  show teleport (iblk5 V c 0 t) (iblk5 V c 1 t) j = teleport (s := S100000x64) (V c main_v101) (V c main_v2) (((cfg5.win 2).blk t).view.emb j)
  have h0 : ((cfg5.win 0).blk t).view.emb j = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb j = ((cfg5.win 2).blk t).view.emb j := by
    funext a; apply Fin.ext
    match a with
    | ⟨0, _⟩ => show win5_1.index t (0 : Fin 2) * 10000 + 1 * (j 0).val = win5_2.index t (0 : Fin 2) * 10000 + 1 * (j 0).val; omega
    | ⟨1, _⟩ => show win5_1.index t (1 : Fin 2) * 64 + 1 * (j 1).val = win5_2.index t (1 : Fin 2) * 64 + 1 * (j 1).val; omega
  have h0' : iblk5 V c 0 t j = V c main_v101 (((cfg5.win 2).blk t).view.emb j) := by
    show V c main_v101 (((cfg5.win 0).blk t).view.emb j) = _
    rw [h0]
  have h1' : iblk5 V c 1 t j = V c main_v2 (((cfg5.win 2).blk t).view.emb j) := by
    show V c main_v2 (((cfg5.win 1).blk t).view.emb j) = _
    rw [h1]
  refine (teleport_apply (iblk5 V c 0 t) (iblk5 V c 1 t) j).trans ?_
  refine Eq.trans ?_ (teleport_apply (s := S100000x64) (V c main_v101) (V c main_v2) (((cfg5.win 2).blk t).view.emb j)).symm
  rw [h0', h1']

/-- An index of the array lies in point `t`'s block iff each coordinate lies in the block's range on its axis. -/
theorem mem_block (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v102).slice (win5_2.rect t)).set ↔ _
  rw [View.set_slice_whole, Rect.mem_set_unit]
  exact Iff.rfl

/-- The ten blocks cover the array: row `r` lies in the block of point `r / 10000`. -/
theorem cover (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, ht⟩ := index_onto ⟨(i 0).val / 10000, by omega⟩
  have q0 : win5_2.index t (0 : Fin 2) = (i 0).val / 10000 := congrFun ht 0
  have q1 : win5_2.index t (1 : Fin 2) = 0 := congrFun ht 1
  refine ⟨t, flush5_2 t, ?_⟩
  rw [mem_block]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- After the region its output array is the teleport combination of the aggregate and the start features it found. -/
theorem array_eq (c : Dev nD) : (dat5 V c).arrAt 2 cfg5.N = teleport (s := S100000x64) (V c main_v101) (V c main_v2) :=
  (dat5 V c).arrAt_eq_of_cover 2 _ (fun t _ => flushed_eq V c t) cover

end R5

/-! ## Region 6 -/

namespace R6

/-- The body's arithmetic is the teleport combination of its two loaded blocks. -/
theorem payload_eq (x0 x1 : Vec Ideal S10000x64 .f32) : k6_pay1 (F := Ideal) x0 x1 = teleport x0 x1 := by
  unfold k6_pay1 teleport
  simp only [shapeCast_self]

/-- The three windows move together: the same block index on both axes at every point, and the row index is the point. -/
theorem index_facts : ∀ t : Fin cfg6.N, win6_0.index t (0 : Fin 2) = win6_2.index t (0 : Fin 2)
    ∧ win6_0.index t (1 : Fin 2) = win6_2.index t (1 : Fin 2)
    ∧ win6_1.index t (0 : Fin 2) = win6_2.index t (0 : Fin 2)
    ∧ win6_1.index t (1 : Fin 2) = win6_2.index t (1 : Fin 2)
    ∧ win6_2.index t (0 : Fin 2) ≤ 9 ∧ win6_2.index t (1 : Fin 2) = 0 :=
  (by decide +kernel : ∀ t : Fin grid6.N, _)

/-- Every block row is some point's. -/
theorem index_onto : ∀ q0 : Fin 10, ∃ t : Fin cfg6.N, win6_2.index t = ![q0.val, 0] :=
  (by decide +kernel : ∀ q0 : Fin 10, ∃ t : Fin grid6.N, win6_2.index t = ![q0.val, 0])

/-- What point `t` writes back is block `t` of the teleport combination of the two arrays the region found. -/
theorem flushed_eq (c : Dev nD) (t : Fin cfg6.N) :
    (dat6 V c).flushed 2 t = ((cfg6.win 2).blk t).view.read (Elt Ideal) (teleport (s := S100000x64) (V c main_v115) (V c main_v2)) := by
  show (cfg6.win 2).cut (grid6.coords t) ((dat6 V c).after 2 t) = _
  rw [after6_2]
  unfold out6_2
  rw [View.canon_unit_zero zero_offsets]
  simp only [View.ld_unit_zero (S := S10000x64) zero_offsets]
  rw [payload_eq]
  obtain ⟨e0, e1, e2, e3, e4, e5⟩ := index_facts t
  funext j
  show teleport (iblk6 V c 0 t) (iblk6 V c 1 t) j = teleport (s := S100000x64) (V c main_v115) (V c main_v2) (((cfg6.win 2).blk t).view.emb j)
  have h0 : ((cfg6.win 0).blk t).view.emb j = ((cfg6.win 2).blk t).view.emb j := by
    funext a; apply Fin.ext
    match a with
    | ⟨0, _⟩ => show win6_0.index t (0 : Fin 2) * 10000 + 1 * (j 0).val = win6_2.index t (0 : Fin 2) * 10000 + 1 * (j 0).val; omega
    | ⟨1, _⟩ => show win6_0.index t (1 : Fin 2) * 64 + 1 * (j 1).val = win6_2.index t (1 : Fin 2) * 64 + 1 * (j 1).val; omega
  have h1 : ((cfg6.win 1).blk t).view.emb j = ((cfg6.win 2).blk t).view.emb j := by
    funext a; apply Fin.ext
    match a with
    | ⟨0, _⟩ => show win6_1.index t (0 : Fin 2) * 10000 + 1 * (j 0).val = win6_2.index t (0 : Fin 2) * 10000 + 1 * (j 0).val; omega
    | ⟨1, _⟩ => show win6_1.index t (1 : Fin 2) * 64 + 1 * (j 1).val = win6_2.index t (1 : Fin 2) * 64 + 1 * (j 1).val; omega
  have h0' : iblk6 V c 0 t j = V c main_v115 (((cfg6.win 2).blk t).view.emb j) := by
    show V c main_v115 (((cfg6.win 0).blk t).view.emb j) = _
    rw [h0]
  have h1' : iblk6 V c 1 t j = V c main_v2 (((cfg6.win 2).blk t).view.emb j) := by
    show V c main_v2 (((cfg6.win 1).blk t).view.emb j) = _
    rw [h1]
  refine (teleport_apply (iblk6 V c 0 t) (iblk6 V c 1 t) j).trans ?_
  refine Eq.trans ?_ (teleport_apply (s := S100000x64) (V c main_v115) (V c main_v2) (((cfg6.win 2).blk t).view.emb j)).symm
  rw [h0', h1']

/-- An index of the array lies in point `t`'s block iff each coordinate lies in the block's range on its axis. -/
theorem mem_block (t : Fin cfg6.N) (i : S100000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v116).slice (win6_2.rect t)).set ↔ _
  rw [View.set_slice_whole, Rect.mem_set_unit]
  exact Iff.rfl

/-- The ten blocks cover the array: row `r` lies in the block of point `r / 10000`. -/
theorem cover (i : S100000x64.Idx) : ∃ t : Fin cfg6.N, (cfg6.win 2).flush t = true ∧ i ∈ ((cfg6.win 2).blk t).view.set := by
  have hi0 : (i 0).val < 100000 := (i 0).isLt
  have hi1 : (i 1).val < 64 := (i 1).isLt
  obtain ⟨t, ht⟩ := index_onto ⟨(i 0).val / 10000, by omega⟩
  have q0 : win6_2.index t (0 : Fin 2) = (i 0).val / 10000 := congrFun ht 0
  have q1 : win6_2.index t (1 : Fin 2) = 0 := congrFun ht 1
  refine ⟨t, flush6_2 t, ?_⟩
  rw [mem_block]
  intro a
  match a with
  | ⟨0, _⟩ => show win6_2.index t (0 : Fin 2) * 10000 ≤ (i 0).val ∧ (i 0).val < win6_2.index t (0 : Fin 2) * 10000 + 10000; omega
  | ⟨1, _⟩ => show win6_2.index t (1 : Fin 2) * 64 ≤ (i 1).val ∧ (i 1).val < win6_2.index t (1 : Fin 2) * 64 + 64; omega

/-- After the region its output array is the teleport combination of the aggregate and the start features it found. -/
theorem array_eq (c : Dev nD) : (dat6 V c).arrAt 2 cfg6.N = teleport (s := S100000x64) (V c main_v115) (V c main_v2) :=
  (dat6 V c).arrAt_eq_of_cover 2 _ (fun t _ => flushed_eq V c t) cover

end R6

/-! ## Region 7 -/

namespace R7

/-- The body's arithmetic is the teleport combination of its two loaded blocks. -/
theorem payload_eq (x0 x1 : Vec Ideal S10000x64 .f32) : k7_pay1 (F := Ideal) x0 x1 = teleport x0 x1 := by
  unfold k7_pay1 teleport
  simp only [shapeCast_self]

/-- The three windows move together: the same block index on both axes at every point, and the row index is the point. -/
theorem index_facts : ∀ t : Fin cfg7.N, win7_0.index t (0 : Fin 2) = win7_2.index t (0 : Fin 2)
    ∧ win7_0.index t (1 : Fin 2) = win7_2.index t (1 : Fin 2)
    ∧ win7_1.index t (0 : Fin 2) = win7_2.index t (0 : Fin 2)
    ∧ win7_1.index t (1 : Fin 2) = win7_2.index t (1 : Fin 2)
    ∧ win7_2.index t (0 : Fin 2) ≤ 9 ∧ win7_2.index t (1 : Fin 2) = 0 :=
  (by decide +kernel : ∀ t : Fin grid7.N, _)

/-- Every block row is some point's. -/
theorem index_onto : ∀ q0 : Fin 10, ∃ t : Fin cfg7.N, win7_2.index t = ![q0.val, 0] :=
  (by decide +kernel : ∀ q0 : Fin 10, ∃ t : Fin grid7.N, win7_2.index t = ![q0.val, 0])

/-- What point `t` writes back is block `t` of the teleport combination of the two arrays the region found. -/
theorem flushed_eq (c : Dev nD) (t : Fin cfg7.N) :
    (dat7 V c).flushed 2 t = ((cfg7.win 2).blk t).view.read (Elt Ideal) (teleport (s := S100000x64) (V c main_v129) (V c main_v2)) := by
  show (cfg7.win 2).cut (grid7.coords t) ((dat7 V c).after 2 t) = _
  rw [after7_2]
  unfold out7_2
  rw [View.canon_unit_zero zero_offsets]
  simp only [View.ld_unit_zero (S := S10000x64) zero_offsets]
  rw [payload_eq]
  obtain ⟨e0, e1, e2, e3, e4, e5⟩ := index_facts t
  funext j
  show teleport (iblk7 V c 0 t) (iblk7 V c 1 t) j = teleport (s := S100000x64) (V c main_v129) (V c main_v2) (((cfg7.win 2).blk t).view.emb j)
  have h0 : ((cfg7.win 0).blk t).view.emb j = ((cfg7.win 2).blk t).view.emb j := by
    funext a; apply Fin.ext
    match a with
    | ⟨0, _⟩ => show win7_0.index t (0 : Fin 2) * 10000 + 1 * (j 0).val = win7_2.index t (0 : Fin 2) * 10000 + 1 * (j 0).val; omega
    | ⟨1, _⟩ => show win7_0.index t (1 : Fin 2) * 64 + 1 * (j 1).val = win7_2.index t (1 : Fin 2) * 64 + 1 * (j 1).val; omega
  have h1 : ((cfg7.win 1).blk t).view.emb j = ((cfg7.win 2).blk t).view.emb j := by
    funext a; apply Fin.ext
    match a with
    | ⟨0, _⟩ => show win7_1.index t (0 : Fin 2) * 10000 + 1 * (j 0).val = win7_2.index t (0 : Fin 2) * 10000 + 1 * (j 0).val; omega
    | ⟨1, _⟩ => show win7_1.index t (1 : Fin 2) * 64 + 1 * (j 1).val = win7_2.index t (1 : Fin 2) * 64 + 1 * (j 1).val; omega
  have h0' : iblk7 V c 0 t j = V c main_v129 (((cfg7.win 2).blk t).view.emb j) := by
    show V c main_v129 (((cfg7.win 0).blk t).view.emb j) = _
    rw [h0]
  have h1' : iblk7 V c 1 t j = V c main_v2 (((cfg7.win 2).blk t).view.emb j) := by
    show V c main_v2 (((cfg7.win 1).blk t).view.emb j) = _
    rw [h1]
  refine (teleport_apply (iblk7 V c 0 t) (iblk7 V c 1 t) j).trans ?_
  refine Eq.trans ?_ (teleport_apply (s := S100000x64) (V c main_v129) (V c main_v2) (((cfg7.win 2).blk t).view.emb j)).symm
  rw [h0', h1']

/-- An index of the array lies in point `t`'s block iff each coordinate lies in the block's range on its axis. -/
theorem mem_block (t : Fin cfg7.N) (i : S100000x64.Idx) :
    i ∈ ((cfg7.win 2).blk t).view.set ↔ ∀ a : Fin 2, win7_2.index t a * S10000x64.size a ≤ (i a).val ∧ (i a).val < win7_2.index t a * S10000x64.size a + S10000x64.size a := by
  show i ∈ ((View.whole main_v130).slice (win7_2.rect t)).set ↔ _
  rw [View.set_slice_whole, Rect.mem_set_unit]
  exact Iff.rfl

/-- The ten blocks cover the array: row `r` lies in the block of point `r / 10000`. -/
theorem cover (i : S100000x64.Idx) : ∃ t : Fin cfg7.N, (cfg7.win 2).flush t = true ∧ i ∈ ((cfg7.win 2).blk t).view.set := by
  have hi0 : (i 0).val < 100000 := (i 0).isLt
  have hi1 : (i 1).val < 64 := (i 1).isLt
  obtain ⟨t, ht⟩ := index_onto ⟨(i 0).val / 10000, by omega⟩
  have q0 : win7_2.index t (0 : Fin 2) = (i 0).val / 10000 := congrFun ht 0
  have q1 : win7_2.index t (1 : Fin 2) = 0 := congrFun ht 1
  refine ⟨t, flush7_2 t, ?_⟩
  rw [mem_block]
  intro a
  match a with
  | ⟨0, _⟩ => show win7_2.index t (0 : Fin 2) * 10000 ≤ (i 0).val ∧ (i 0).val < win7_2.index t (0 : Fin 2) * 10000 + 10000; omega
  | ⟨1, _⟩ => show win7_2.index t (1 : Fin 2) * 64 ≤ (i 1).val ∧ (i 1).val < win7_2.index t (1 : Fin 2) * 64 + 64; omega

/-- After the region its output array is the teleport combination of the aggregate and the start features it found. -/
theorem array_eq (c : Dev nD) : (dat7 V c).arrAt 2 cfg7.N = teleport (s := S100000x64) (V c main_v129) (V c main_v2) :=
  (dat7 V c).arrAt_eq_of_cover 2 _ (fun t _ => flushed_eq V c t) cover

end R7

/-! ## Region 8 -/

namespace R8

/-- The body's arithmetic is the teleport combination of its two loaded blocks. -/
theorem payload_eq (x0 x1 : Vec Ideal S10000x64 .f32) : k8_pay1 (F := Ideal) x0 x1 = teleport x0 x1 := by
  unfold k8_pay1 teleport
  simp only [shapeCast_self]

/-- The three windows move together: the same block index on both axes at every point, and the row index is the point. -/
theorem index_facts : ∀ t : Fin cfg8.N, win8_0.index t (0 : Fin 2) = win8_2.index t (0 : Fin 2)
    ∧ win8_0.index t (1 : Fin 2) = win8_2.index t (1 : Fin 2)
    ∧ win8_1.index t (0 : Fin 2) = win8_2.index t (0 : Fin 2)
    ∧ win8_1.index t (1 : Fin 2) = win8_2.index t (1 : Fin 2)
    ∧ win8_2.index t (0 : Fin 2) ≤ 9 ∧ win8_2.index t (1 : Fin 2) = 0 :=
  (by decide +kernel : ∀ t : Fin grid8.N, _)

/-- Every block row is some point's. -/
theorem index_onto : ∀ q0 : Fin 10, ∃ t : Fin cfg8.N, win8_2.index t = ![q0.val, 0] :=
  (by decide +kernel : ∀ q0 : Fin 10, ∃ t : Fin grid8.N, win8_2.index t = ![q0.val, 0])

/-- What point `t` writes back is block `t` of the teleport combination of the two arrays the region found. -/
theorem flushed_eq (c : Dev nD) (t : Fin cfg8.N) :
    (dat8 V c).flushed 2 t = ((cfg8.win 2).blk t).view.read (Elt Ideal) (teleport (s := S100000x64) (V c main_v143) (V c main_v2)) := by
  show (cfg8.win 2).cut (grid8.coords t) ((dat8 V c).after 2 t) = _
  rw [after8_2]
  unfold out8_2
  rw [View.canon_unit_zero zero_offsets]
  simp only [View.ld_unit_zero (S := S10000x64) zero_offsets]
  rw [payload_eq]
  obtain ⟨e0, e1, e2, e3, e4, e5⟩ := index_facts t
  funext j
  show teleport (iblk8 V c 0 t) (iblk8 V c 1 t) j = teleport (s := S100000x64) (V c main_v143) (V c main_v2) (((cfg8.win 2).blk t).view.emb j)
  have h0 : ((cfg8.win 0).blk t).view.emb j = ((cfg8.win 2).blk t).view.emb j := by
    funext a; apply Fin.ext
    match a with
    | ⟨0, _⟩ => show win8_0.index t (0 : Fin 2) * 10000 + 1 * (j 0).val = win8_2.index t (0 : Fin 2) * 10000 + 1 * (j 0).val; omega
    | ⟨1, _⟩ => show win8_0.index t (1 : Fin 2) * 64 + 1 * (j 1).val = win8_2.index t (1 : Fin 2) * 64 + 1 * (j 1).val; omega
  have h1 : ((cfg8.win 1).blk t).view.emb j = ((cfg8.win 2).blk t).view.emb j := by
    funext a; apply Fin.ext
    match a with
    | ⟨0, _⟩ => show win8_1.index t (0 : Fin 2) * 10000 + 1 * (j 0).val = win8_2.index t (0 : Fin 2) * 10000 + 1 * (j 0).val; omega
    | ⟨1, _⟩ => show win8_1.index t (1 : Fin 2) * 64 + 1 * (j 1).val = win8_2.index t (1 : Fin 2) * 64 + 1 * (j 1).val; omega
  have h0' : iblk8 V c 0 t j = V c main_v143 (((cfg8.win 2).blk t).view.emb j) := by
    show V c main_v143 (((cfg8.win 0).blk t).view.emb j) = _
    rw [h0]
  have h1' : iblk8 V c 1 t j = V c main_v2 (((cfg8.win 2).blk t).view.emb j) := by
    show V c main_v2 (((cfg8.win 1).blk t).view.emb j) = _
    rw [h1]
  refine (teleport_apply (iblk8 V c 0 t) (iblk8 V c 1 t) j).trans ?_
  refine Eq.trans ?_ (teleport_apply (s := S100000x64) (V c main_v143) (V c main_v2) (((cfg8.win 2).blk t).view.emb j)).symm
  rw [h0', h1']

/-- An index of the array lies in point `t`'s block iff each coordinate lies in the block's range on its axis. -/
theorem mem_block (t : Fin cfg8.N) (i : S100000x64.Idx) :
    i ∈ ((cfg8.win 2).blk t).view.set ↔ ∀ a : Fin 2, win8_2.index t a * S10000x64.size a ≤ (i a).val ∧ (i a).val < win8_2.index t a * S10000x64.size a + S10000x64.size a := by
  show i ∈ ((View.whole main_v144).slice (win8_2.rect t)).set ↔ _
  rw [View.set_slice_whole, Rect.mem_set_unit]
  exact Iff.rfl

/-- The ten blocks cover the array: row `r` lies in the block of point `r / 10000`. -/
theorem cover (i : S100000x64.Idx) : ∃ t : Fin cfg8.N, (cfg8.win 2).flush t = true ∧ i ∈ ((cfg8.win 2).blk t).view.set := by
  have hi0 : (i 0).val < 100000 := (i 0).isLt
  have hi1 : (i 1).val < 64 := (i 1).isLt
  obtain ⟨t, ht⟩ := index_onto ⟨(i 0).val / 10000, by omega⟩
  have q0 : win8_2.index t (0 : Fin 2) = (i 0).val / 10000 := congrFun ht 0
  have q1 : win8_2.index t (1 : Fin 2) = 0 := congrFun ht 1
  refine ⟨t, flush8_2 t, ?_⟩
  rw [mem_block]
  intro a
  match a with
  | ⟨0, _⟩ => show win8_2.index t (0 : Fin 2) * 10000 ≤ (i 0).val ∧ (i 0).val < win8_2.index t (0 : Fin 2) * 10000 + 10000; omega
  | ⟨1, _⟩ => show win8_2.index t (1 : Fin 2) * 64 ≤ (i 1).val ∧ (i 1).val < win8_2.index t (1 : Fin 2) * 64 + 64; omega

/-- After the region its output array is the teleport combination of the aggregate and the start features it found. -/
theorem array_eq (c : Dev nD) : (dat8 V c).arrAt 2 cfg8.N = teleport (s := S100000x64) (V c main_v143) (V c main_v2) :=
  (dat8 V c).arrAt_eq_of_cover 2 _ (fun t _ => flushed_eq V c t) cover

end R8

/-! ## Region 9 -/

namespace R9

/-- The body's arithmetic is the teleport combination of its two loaded blocks. -/
theorem payload_eq (x0 x1 : Vec Ideal S10000x64 .f32) : k9_pay1 (F := Ideal) x0 x1 = teleport x0 x1 := by
  unfold k9_pay1 teleport
  simp only [shapeCast_self]

/-- The three windows move together: the same block index on both axes at every point, and the row index is the point. -/
theorem index_facts : ∀ t : Fin cfg9.N, win9_0.index t (0 : Fin 2) = win9_2.index t (0 : Fin 2)
    ∧ win9_0.index t (1 : Fin 2) = win9_2.index t (1 : Fin 2)
    ∧ win9_1.index t (0 : Fin 2) = win9_2.index t (0 : Fin 2)
    ∧ win9_1.index t (1 : Fin 2) = win9_2.index t (1 : Fin 2)
    ∧ win9_2.index t (0 : Fin 2) ≤ 9 ∧ win9_2.index t (1 : Fin 2) = 0 :=
  (by decide +kernel : ∀ t : Fin grid9.N, _)

/-- Every block row is some point's. -/
theorem index_onto : ∀ q0 : Fin 10, ∃ t : Fin cfg9.N, win9_2.index t = ![q0.val, 0] :=
  (by decide +kernel : ∀ q0 : Fin 10, ∃ t : Fin grid9.N, win9_2.index t = ![q0.val, 0])

/-- What point `t` writes back is block `t` of the teleport combination of the two arrays the region found. -/
theorem flushed_eq (c : Dev nD) (t : Fin cfg9.N) :
    (dat9 V c).flushed 2 t = ((cfg9.win 2).blk t).view.read (Elt Ideal) (teleport (s := S100000x64) (V c main_v157) (V c main_v2)) := by
  show (cfg9.win 2).cut (grid9.coords t) ((dat9 V c).after 2 t) = _
  rw [after9_2]
  unfold out9_2
  rw [View.canon_unit_zero zero_offsets]
  simp only [View.ld_unit_zero (S := S10000x64) zero_offsets]
  rw [payload_eq]
  obtain ⟨e0, e1, e2, e3, e4, e5⟩ := index_facts t
  funext j
  show teleport (iblk9 V c 0 t) (iblk9 V c 1 t) j = teleport (s := S100000x64) (V c main_v157) (V c main_v2) (((cfg9.win 2).blk t).view.emb j)
  have h0 : ((cfg9.win 0).blk t).view.emb j = ((cfg9.win 2).blk t).view.emb j := by
    funext a; apply Fin.ext
    match a with
    | ⟨0, _⟩ => show win9_0.index t (0 : Fin 2) * 10000 + 1 * (j 0).val = win9_2.index t (0 : Fin 2) * 10000 + 1 * (j 0).val; omega
    | ⟨1, _⟩ => show win9_0.index t (1 : Fin 2) * 64 + 1 * (j 1).val = win9_2.index t (1 : Fin 2) * 64 + 1 * (j 1).val; omega
  have h1 : ((cfg9.win 1).blk t).view.emb j = ((cfg9.win 2).blk t).view.emb j := by
    funext a; apply Fin.ext
    match a with
    | ⟨0, _⟩ => show win9_1.index t (0 : Fin 2) * 10000 + 1 * (j 0).val = win9_2.index t (0 : Fin 2) * 10000 + 1 * (j 0).val; omega
    | ⟨1, _⟩ => show win9_1.index t (1 : Fin 2) * 64 + 1 * (j 1).val = win9_2.index t (1 : Fin 2) * 64 + 1 * (j 1).val; omega
  have h0' : iblk9 V c 0 t j = V c main_v157 (((cfg9.win 2).blk t).view.emb j) := by
    show V c main_v157 (((cfg9.win 0).blk t).view.emb j) = _
    rw [h0]
  have h1' : iblk9 V c 1 t j = V c main_v2 (((cfg9.win 2).blk t).view.emb j) := by
    show V c main_v2 (((cfg9.win 1).blk t).view.emb j) = _
    rw [h1]
  refine (teleport_apply (iblk9 V c 0 t) (iblk9 V c 1 t) j).trans ?_
  refine Eq.trans ?_ (teleport_apply (s := S100000x64) (V c main_v157) (V c main_v2) (((cfg9.win 2).blk t).view.emb j)).symm
  rw [h0', h1']

/-- An index of the array lies in point `t`'s block iff each coordinate lies in the block's range on its axis. -/
theorem mem_block (t : Fin cfg9.N) (i : S100000x64.Idx) :
    i ∈ ((cfg9.win 2).blk t).view.set ↔ ∀ a : Fin 2, win9_2.index t a * S10000x64.size a ≤ (i a).val ∧ (i a).val < win9_2.index t a * S10000x64.size a + S10000x64.size a := by
  show i ∈ ((View.whole main_v158).slice (win9_2.rect t)).set ↔ _
  rw [View.set_slice_whole, Rect.mem_set_unit]
  exact Iff.rfl

/-- The ten blocks cover the array: row `r` lies in the block of point `r / 10000`. -/
theorem cover (i : S100000x64.Idx) : ∃ t : Fin cfg9.N, (cfg9.win 2).flush t = true ∧ i ∈ ((cfg9.win 2).blk t).view.set := by
  have hi0 : (i 0).val < 100000 := (i 0).isLt
  have hi1 : (i 1).val < 64 := (i 1).isLt
  obtain ⟨t, ht⟩ := index_onto ⟨(i 0).val / 10000, by omega⟩
  have q0 : win9_2.index t (0 : Fin 2) = (i 0).val / 10000 := congrFun ht 0
  have q1 : win9_2.index t (1 : Fin 2) = 0 := congrFun ht 1
  refine ⟨t, flush9_2 t, ?_⟩
  rw [mem_block]
  intro a
  match a with
  | ⟨0, _⟩ => show win9_2.index t (0 : Fin 2) * 10000 ≤ (i 0).val ∧ (i 0).val < win9_2.index t (0 : Fin 2) * 10000 + 10000; omega
  | ⟨1, _⟩ => show win9_2.index t (1 : Fin 2) * 64 ≤ (i 1).val ∧ (i 1).val < win9_2.index t (1 : Fin 2) * 64 + 64; omega

/-- After the region its output array is the teleport combination of the aggregate and the start features it found. -/
theorem array_eq (c : Dev nD) : (dat9 V c).arrAt 2 cfg9.N = teleport (s := S100000x64) (V c main_v157) (V c main_v2) :=
  (dat9 V c).arrAt_eq_of_cover 2 _ (fun t _ => flushed_eq V c t) cover

end R9

/-! ## Region 10 -/

namespace R10

/-- The body's arithmetic is the teleport combination of its two loaded blocks. -/
theorem payload_eq (x0 x1 : Vec Ideal S10000x64 .f32) : k10_pay1 (F := Ideal) x0 x1 = teleport x0 x1 := by
  unfold k10_pay1 teleport
  simp only [shapeCast_self]

/-- The three windows move together: the same block index on both axes at every point, and the row index is the point. -/
theorem index_facts : ∀ t : Fin cfg10.N, win10_0.index t (0 : Fin 2) = win10_2.index t (0 : Fin 2)
    ∧ win10_0.index t (1 : Fin 2) = win10_2.index t (1 : Fin 2)
    ∧ win10_1.index t (0 : Fin 2) = win10_2.index t (0 : Fin 2)
    ∧ win10_1.index t (1 : Fin 2) = win10_2.index t (1 : Fin 2)
    ∧ win10_2.index t (0 : Fin 2) ≤ 9 ∧ win10_2.index t (1 : Fin 2) = 0 :=
  (by decide +kernel : ∀ t : Fin grid10.N, _)

/-- Every block row is some point's. -/
theorem index_onto : ∀ q0 : Fin 10, ∃ t : Fin cfg10.N, win10_2.index t = ![q0.val, 0] :=
  (by decide +kernel : ∀ q0 : Fin 10, ∃ t : Fin grid10.N, win10_2.index t = ![q0.val, 0])

/-- What point `t` writes back is block `t` of the teleport combination of the two arrays the region found. -/
theorem flushed_eq (c : Dev nD) (t : Fin cfg10.N) :
    (dat10 V c).flushed 2 t = ((cfg10.win 2).blk t).view.read (Elt Ideal) (teleport (s := S100000x64) (V c main_v171) (V c main_v2)) := by
  show (cfg10.win 2).cut (grid10.coords t) ((dat10 V c).after 2 t) = _
  rw [after10_2]
  unfold out10_2
  rw [View.canon_unit_zero zero_offsets]
  simp only [View.ld_unit_zero (S := S10000x64) zero_offsets]
  rw [payload_eq]
  obtain ⟨e0, e1, e2, e3, e4, e5⟩ := index_facts t
  funext j
  show teleport (iblk10 V c 0 t) (iblk10 V c 1 t) j = teleport (s := S100000x64) (V c main_v171) (V c main_v2) (((cfg10.win 2).blk t).view.emb j)
  have h0 : ((cfg10.win 0).blk t).view.emb j = ((cfg10.win 2).blk t).view.emb j := by
    funext a; apply Fin.ext
    match a with
    | ⟨0, _⟩ => show win10_0.index t (0 : Fin 2) * 10000 + 1 * (j 0).val = win10_2.index t (0 : Fin 2) * 10000 + 1 * (j 0).val; omega
    | ⟨1, _⟩ => show win10_0.index t (1 : Fin 2) * 64 + 1 * (j 1).val = win10_2.index t (1 : Fin 2) * 64 + 1 * (j 1).val; omega
  have h1 : ((cfg10.win 1).blk t).view.emb j = ((cfg10.win 2).blk t).view.emb j := by
    funext a; apply Fin.ext
    match a with
    | ⟨0, _⟩ => show win10_1.index t (0 : Fin 2) * 10000 + 1 * (j 0).val = win10_2.index t (0 : Fin 2) * 10000 + 1 * (j 0).val; omega
    | ⟨1, _⟩ => show win10_1.index t (1 : Fin 2) * 64 + 1 * (j 1).val = win10_2.index t (1 : Fin 2) * 64 + 1 * (j 1).val; omega
  have h0' : iblk10 V c 0 t j = V c main_v171 (((cfg10.win 2).blk t).view.emb j) := by
    show V c main_v171 (((cfg10.win 0).blk t).view.emb j) = _
    rw [h0]
  have h1' : iblk10 V c 1 t j = V c main_v2 (((cfg10.win 2).blk t).view.emb j) := by
    show V c main_v2 (((cfg10.win 1).blk t).view.emb j) = _
    rw [h1]
  refine (teleport_apply (iblk10 V c 0 t) (iblk10 V c 1 t) j).trans ?_
  refine Eq.trans ?_ (teleport_apply (s := S100000x64) (V c main_v171) (V c main_v2) (((cfg10.win 2).blk t).view.emb j)).symm
  rw [h0', h1']

/-- An index of the array lies in point `t`'s block iff each coordinate lies in the block's range on its axis. -/
theorem mem_block (t : Fin cfg10.N) (i : S100000x64.Idx) :
    i ∈ ((cfg10.win 2).blk t).view.set ↔ ∀ a : Fin 2, win10_2.index t a * S10000x64.size a ≤ (i a).val ∧ (i a).val < win10_2.index t a * S10000x64.size a + S10000x64.size a := by
  show i ∈ ((View.whole main_v172).slice (win10_2.rect t)).set ↔ _
  rw [View.set_slice_whole, Rect.mem_set_unit]
  exact Iff.rfl

/-- The ten blocks cover the array: row `r` lies in the block of point `r / 10000`. -/
theorem cover (i : S100000x64.Idx) : ∃ t : Fin cfg10.N, (cfg10.win 2).flush t = true ∧ i ∈ ((cfg10.win 2).blk t).view.set := by
  have hi0 : (i 0).val < 100000 := (i 0).isLt
  have hi1 : (i 1).val < 64 := (i 1).isLt
  obtain ⟨t, ht⟩ := index_onto ⟨(i 0).val / 10000, by omega⟩
  have q0 : win10_2.index t (0 : Fin 2) = (i 0).val / 10000 := congrFun ht 0
  have q1 : win10_2.index t (1 : Fin 2) = 0 := congrFun ht 1
  refine ⟨t, flush10_2 t, ?_⟩
  rw [mem_block]
  intro a
  match a with
  | ⟨0, _⟩ => show win10_2.index t (0 : Fin 2) * 10000 ≤ (i 0).val ∧ (i 0).val < win10_2.index t (0 : Fin 2) * 10000 + 10000; omega
  | ⟨1, _⟩ => show win10_2.index t (1 : Fin 2) * 64 ≤ (i 1).val ∧ (i 1).val < win10_2.index t (1 : Fin 2) * 64 + 64; omega

/-- After the region its output array is the teleport combination of the aggregate and the start features it found. -/
theorem array_eq (c : Dev nD) : (dat10 V c).arrAt 2 cfg10.N = teleport (s := S100000x64) (V c main_v171) (V c main_v2) :=
  (dat10 V c).arrAt_eq_of_cover 2 _ (fun t _ => flushed_eq V c t) cover

end R10

end Cert.Gnn

end
-- ==== Proof.LogSoftmax.lean ====
/-
  The row-wise log-softmax: the last region against the reference's host operations.

  For a row `r` of a matrix `h` with 64 columns let  M(r) = max over k of h[r,k]  (the fold of `max` from −∞) and
      logSoftmax h [r,q] = (h[r,q] − M(r)) − log Σ_k exp (h[r,k] − M(r)).
  The last region walks the 100000 rows in ten blocks of 10000 rows and computes exactly this on each block, row by row
  (a lane maximum, a subtraction, an exponential, a lane sum, a logarithm, a subtraction); since a row lies in one block, a
  block of the output is the block of `logSoftmax` of the WHOLE input array, and the ten blocks tile the array.  The
  reference computes the same with host operations; it takes one more maximum with −∞ and starts its sum from the f32 zero,
  neither of which changes the value (−∞ is the fold's own start; the word zero is the real 0).
-/
import proofs.«180246_j3951369912443_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.Gnn

open Idealize.ShloMosaic Idealize.ShloMosaic.TcCoe Idealize.SL.Sem Idealize.ShloMosaic.ValueIdx
open Idealize.ShloMosaic.Pipeline (Dat Cfg Window)

/-! ## The function -/

/-- A row's maximum: the fold of `max` over the 64 columns, from −∞ (the f32 word the programs spell). -/
def rowMax {n : ℕ} (h : FVec Ideal ⟨2, ![n, 64]⟩ .f32) (r : Fin n) : Ideal .f32 :=
  (Finset.univ : Finset (Fin 64)).fold max (FloatOps.ofBits .f32 0xFF800000#32) (fun k => h (ix2 r k))

/-- The log-softmax of row `r` at column `q`. -/
def logSoftmaxRow {n : ℕ} (h : FVec Ideal ⟨2, ![n, 64]⟩ .f32) (r : Fin n) (q : Fin 64) : Ideal .f32 :=
  FloatOps.subf (FloatOps.subf (h (ix2 r q)) (rowMax h r))
    (FloatOps.log (∑ k : Fin 64, FloatOps.exp (FloatOps.subf (h (ix2 r k)) (rowMax h r))))

/-- The row-wise log-softmax of a matrix with 64 columns. -/
def logSoftmax {n : ℕ} (h : FVec Ideal ⟨2, ![n, 64]⟩ .f32) : FVec Ideal ⟨2, ![n, 64]⟩ .f32 :=
  fun i => logSoftmaxRow h (i 0) (i 1)

/-- A row of a block that is a row of the whole matrix has the whole matrix's log-softmax. -/
theorem logSoftmaxRow_block {n N : ℕ} (H : FVec Ideal ⟨2, ![N, 64]⟩ .f32) (B : FVec Ideal ⟨2, ![n, 64]⟩ .f32)
    (p : Fin n) (r : Fin N) (hB : ∀ k : Fin 64, B (ix2 p k) = H (ix2 r k)) (q : Fin 64) :
    logSoftmaxRow B p q = logSoftmaxRow H r q := by
  have hm : rowMax B p = rowMax H r := by unfold rowMax; simp only [hB]
  unfold logSoftmaxRow
  rw [hm]; simp only [hB]

namespace LogSoftmaxRegion

open Cert.KernelIdeal Cert.KernelIdeal.Gen

/-! ## The kernel body on one block -/

/-- A column of per-row values spread over the 64 columns reads, at (p, q), the value of row p. -/
theorem column_spread (w : FVec Ideal S10000x1 .f32) (p : Fin 10000) (q : Fin 64) :
    broadcastTo S10000x64 w broadcasts_S10000x1_S10000x64 (ix2 p q) = w (ix2 p (0 : Fin 1)) :=
  broadcastTo_apply w broadcasts_S10000x1_S10000x64 (ix2 p q) (ix2 p (0 : Fin 1)) (fun a => match a with
    | ⟨0, _⟩ => by show p.val = if (10000 : Nat) = 1 then 0 else p.val; rw [if_neg (by decide)]
    | ⟨1, _⟩ => by show 0 = if (1 : Nat) = 1 then 0 else q.val; rw [if_pos rfl])

/-- A vector of per-row values recast as a column reads, at (p, 0), the value of row p. -/
theorem column_cast (v : FVec Ideal S10000 .f32) (p : Fin 10000) :
    shapeCast S10000x1 v shapeCasts_S10000_S10000x1 (ix2 p (0 : Fin 1)) = v (ix1 p) :=
  shapeCast_apply v shapeCasts_S10000_S10000x1 (ix2 p (0 : Fin 1)) (ix1 p) (by
    rw [Shape.rowMajor_val_one, Shape.rowMajor_val_two]
    show p.val = p.val * 1 + 0
    omega)

/-- The lane maximum of a block at row p is the row's maximum. -/
theorem lane_max (x : FVec Ideal S10000x64 .f32) (hφ : FKind.Formats .f32)
    (hacc : (0xFF800000#32 : BitVec 32) = FKind.maximumf.neutral .f32 hφ) (p : Fin 10000) :
    multiReduction .maximumf [1] S10000 x 0xFF800000#32 reduces_S10000x64_S10000 hφ hacc (ix1 p) = rowMax (n := 10000) x p := by
  refine (Ideal.multiReduction_maximumf_single x 0xFF800000#32 reduces_S10000x64_S10000 hφ hacc (ix1 p)).trans ?_
  unfold rowMax
  exact congrArg (fun f => (Finset.univ : Finset (Fin 64)).fold max (FloatOps.ofBits .f32 0xFF800000#32) f)
    (funext fun k => congrArg x (funext fun a => Fin.ext (by match a with | ⟨0, _⟩ => rfl | ⟨1, _⟩ => rfl)))

/-- The lane sum of a block at row p is the sum over the row. -/
theorem lane_sum (y : FVec Ideal S10000x64 .f32) (hφ : FKind.Formats .f32)
    (hacc : (0x00000000#32 : BitVec 32) = FKind.add.neutral .f32 hφ) (p : Fin 10000) :
    multiReduction .add [1] S10000 y 0x00000000#32 reduces_S10000x64_S10000 hφ hacc (ix1 p) = ∑ k : Fin 64, y (ix2 p k) := by
  refine (Ideal.multiReduction_add_single y 0x00000000#32 reduces_S10000x64_S10000 hφ hacc (ix1 p)).trans ?_
  exact Finset.sum_congr rfl fun k _ => congrArg y (funext fun a => Fin.ext (by match a with | ⟨0, _⟩ => rfl | ⟨1, _⟩ => rfl))

/-- The block with each row's maximum taken off. -/
def shifted (x : FVec Ideal S10000x64 .f32) : FVec Ideal S10000x64 .f32 :=
  subf x (broadcastTo S10000x64 (shapeCast S10000x1
    (multiReduction .maximumf [1] S10000 x 0xFF800000#32 reduces_S10000x64_S10000 (.inl rfl) rfl) shapeCasts_S10000_S10000x1)
    broadcasts_S10000x1_S10000x64)

theorem shifted_at (x : FVec Ideal S10000x64 .f32) (p : Fin 10000) (k : Fin 64) :
    shifted x (ix2 p k) = FloatOps.subf (x (ix2 p k)) (rowMax (n := 10000) x p) := by
  show FloatOps.subf (x (ix2 p k)) (broadcastTo S10000x64 _ broadcasts_S10000x1_S10000x64 (ix2 p k)) = _
  refine congrArg (FloatOps.subf (x (ix2 p k))) ?_
  exact (column_spread _ p k).trans ((column_cast _ p).trans (lane_max x _ _ p))

/-- The body's arithmetic, in the pieces above. -/
theorem payload_shape (x : Vec Ideal S10000x64 .f32) :
    k11_pay1 (F := Ideal) x = subf (shifted x) (broadcastTo S10000x64 (log (shapeCast S10000x1
      (multiReduction .add [1] S10000 (exp (shifted x)) 0x00000000#32 reduces_S10000x64_S10000 (.inl rfl) rfl) shapeCasts_S10000_S10000x1))
      broadcasts_S10000x1_S10000x64) := by
  unfold k11_pay1 shifted
  simp only [shapeCast_self]

/-- The body's result at (p, q) is the block's log-softmax there. -/
theorem payload_at (x : Vec Ideal S10000x64 .f32) (p : Fin 10000) (q : Fin 64) :
    k11_pay1 (F := Ideal) x (ix2 p q) = logSoftmaxRow (n := 10000) x p q := by
  rw [payload_shape]
  show FloatOps.subf (shifted x (ix2 p q)) (broadcastTo S10000x64 _ broadcasts_S10000x1_S10000x64 (ix2 p q)) = _
  rw [shifted_at]
  refine congrArg (FloatOps.subf _) ?_
  refine (column_spread _ p q).trans ?_
  show FloatOps.log (shapeCast S10000x1 _ shapeCasts_S10000_S10000x1 (ix2 p (0 : Fin 1))) = _
  refine congrArg FloatOps.log ?_
  refine (column_cast _ p).trans ((lane_sum _ _ _ p).trans ?_)
  exact Finset.sum_congr rfl fun k _ => by
    show FloatOps.exp (shifted x (ix2 p k)) = _
    rw [shifted_at]

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The two windows move together, block row = the point, block column 0. -/
theorem index_facts : ∀ t : Fin cfg11.N, win11_0.index t (0 : Fin 2) = win11_1.index t (0 : Fin 2)
    ∧ win11_0.index t (1 : Fin 2) = win11_1.index t (1 : Fin 2)
    ∧ win11_1.index t (0 : Fin 2) ≤ 9 ∧ win11_1.index t (1 : Fin 2) = 0 :=
  (by decide +kernel : ∀ t : Fin grid11.N, _)

theorem index_onto : ∀ q0 : Fin 10, ∃ t : Fin cfg11.N, win11_1.index t = ![q0.val, 0] :=
  (by decide +kernel : ∀ q0 : Fin 10, ∃ t : Fin grid11.N, win11_1.index t = ![q0.val, 0])

/-- What point `t` writes back is block `t` of the log-softmax of the whole array the region found. -/
theorem flushed_eq (c : Dev nD) (t : Fin cfg11.N) :
    (dat11 V c).flushed 1 t = ((cfg11.win 1).blk t).view.read (Elt Ideal) (logSoftmax (n := 100000) (V c main_v172)) := by
  show (cfg11.win 1).cut (grid11.coords t) ((dat11 V c).after 1 t) = _
  rw [after11_1]
  unfold out11_1
  rw [View.canon_unit_zero zero_offsets]
  simp only [View.ld_unit_zero (S := S10000x64) zero_offsets]
  obtain ⟨e0, e1, e2, e3⟩ := index_facts t
  funext j
  obtain ⟨p, q, rfl⟩ : ∃ (p : Fin 10000) (q : Fin 64), j = ix2 p q := ⟨j 0, j 1, eq_ix2 j⟩
  refine (payload_at (iblk11 V c 0 t) p q).trans ?_
  have hr : win11_1.index t (0 : Fin 2) * 10000 + p.val < 100000 := by omega
  have hout : ((cfg11.win 1).blk t).view.emb (ix2 p q) = ix2 (⟨win11_1.index t (0 : Fin 2) * 10000 + p.val, hr⟩ : Fin 100000) q := by
    funext a; apply Fin.ext
    match a with
    | ⟨0, _⟩ => show win11_1.index t (0 : Fin 2) * 10000 + 1 * p.val = win11_1.index t (0 : Fin 2) * 10000 + p.val; omega
    | ⟨1, _⟩ => show win11_1.index t (1 : Fin 2) * 64 + 1 * q.val = q.val; omega
  show _ = logSoftmax (n := 100000) (V c main_v172) (((cfg11.win 1).blk t).view.emb (ix2 p q))
  rw [hout]
  show _ = logSoftmaxRow (n := 100000) (V c main_v172) ⟨win11_1.index t (0 : Fin 2) * 10000 + p.val, hr⟩ q
  refine logSoftmaxRow_block (V c main_v172) (iblk11 V c 0 t) p _ (fun k => ?_) q
  show V c main_v172 (((cfg11.win 0).blk t).view.emb (ix2 p k)) = _
  refine congrArg (V c main_v172) ?_
  funext a; apply Fin.ext
  match a with
  | ⟨0, _⟩ => show win11_0.index t (0 : Fin 2) * 10000 + 1 * p.val = win11_1.index t (0 : Fin 2) * 10000 + p.val; omega
  | ⟨1, _⟩ => show win11_0.index t (1 : Fin 2) * 64 + 1 * k.val = k.val; omega

theorem mem_block (t : Fin cfg11.N) (i : S100000x64.Idx) :
    i ∈ ((cfg11.win 1).blk t).view.set ↔ ∀ a : Fin 2, win11_1.index t a * S10000x64.size a ≤ (i a).val ∧ (i a).val < win11_1.index t a * S10000x64.size a + S10000x64.size a := by
  show i ∈ ((View.whole main_v173).slice (win11_1.rect t)).set ↔ _
  rw [View.set_slice_whole, Rect.mem_set_unit]
  exact Iff.rfl

theorem cover (i : S100000x64.Idx) : ∃ t : Fin cfg11.N, (cfg11.win 1).flush t = true ∧ i ∈ ((cfg11.win 1).blk t).view.set := by
  have hi0 : (i 0).val < 100000 := (i 0).isLt
  have hi1 : (i 1).val < 64 := (i 1).isLt
  obtain ⟨t, ht⟩ := index_onto ⟨(i 0).val / 10000, by omega⟩
  have q0 : win11_1.index t (0 : Fin 2) = (i 0).val / 10000 := congrFun ht 0
  have q1 : win11_1.index t (1 : Fin 2) = 0 := congrFun ht 1
  refine ⟨t, flush11_1 t, ?_⟩
  rw [mem_block]
  intro a
  match a with
  | ⟨0, _⟩ => show win11_1.index t (0 : Fin 2) * 10000 ≤ (i 0).val ∧ (i 0).val < win11_1.index t (0 : Fin 2) * 10000 + 10000; omega
  | ⟨1, _⟩ => show win11_1.index t (1 : Fin 2) * 64 ≤ (i 1).val ∧ (i 1).val < win11_1.index t (1 : Fin 2) * 64 + 64; omega

/-- After the last region its output array is the row-wise log-softmax of the array it found. -/
theorem array_eq (c : Dev nD) : (dat11 V c).arrAt 1 cfg11.N = logSoftmax (n := 100000) (V c main_v172) :=
  (dat11 V c).arrAt_eq_of_cover 1 _ (fun t _ => flushed_eq V c t) cover

end LogSoftmaxRegion

end Cert.Gnn

end
-- ==== Proof.LogSoftmaxRef.lean ====
/-
  The reference's log-softmax is the same function.

  The reference takes each row's maximum with a host reduction from −∞, takes one more maximum with −∞ (which changes
  nothing: −∞ is where the fold starts), subtracts, exponentiates, sums each row from the f32 zero (the real 0),
  takes the logarithm and subtracts.  Read at row `r`, column `q` that is `logSoftmaxRow`.
-/
import proofs.«180246_j3951369912443_1_alg».proof.Proof.LogSoftmax
import proofs.«180246_j3951369912443_1_alg».proof.Proof.RefRead

set_option maxRecDepth 16384

noncomputable section

namespace Cert.Gnn.LogSoftmaxRegion

open Idealize.ShloMosaic Idealize.ShloMosaic.TcCoe Idealize.SL.Sem Idealize.ShloMosaic.ValueIdx
open Cert.ReferenceIdeal Cert.ReferenceIdeal.Gen Cert.ReferenceIdeal.ReadP

/-- A fold of the ideal maximum is a fold of `max`. -/
theorem fold_maximumf {ι : Type} (s : Finset ι) (b : Ideal .f32) (f : ι → Ideal .f32) :
    s.fold FloatOps.maximumf b f = s.fold max b f := rfl

variable (x0 : FVec Ideal S100000x512 .f32) (x1 : IVec S2x1600000 32) (x2 : FVec Ideal S512x128 .f32) (x3 : FVec Ideal S128 .f32)
  (x4 : FVec Ideal S128x64 .f32) (x5 : FVec Ideal S64 .f32)

/-- The host's row-maximum reduction from −∞, at row `r`, is the row's maximum. -/
theorem host_rowMax (h : FVec Ideal S100000x64 .f32) (init : FVec Ideal S_ .f32)
    (hinit : init (Shape.Idx.first h_S_) = FloatOps.ofBits .f32 0xFF800000#32) (r : Fin 100000) :
    Host.reduce FloatOps.maximumf h init reducesTo_S100000x64_S100000_d1 h_S_ (ix1 r) = rowMax (n := 100000) h r := by
  have hR : Shape.Reduces S100000x64 [1] S100000 := by decide
  refine (Host.reduce_eq_fold_single FloatOps.maximumf h init reducesTo_S100000x64_S100000_d1 hR h_S_ (ix1 r)).trans ?_
  refine (fold_maximumf _ _ _).trans ?_
  rw [hinit]
  unfold rowMax
  exact congrArg (fun f => (Finset.univ : Finset (Fin 64)).fold max (FloatOps.ofBits .f32 0xFF800000#32) f)
    (funext fun k => congrArg h (funext fun a => Fin.ext (by match a with | ⟨0, _⟩ => rfl | ⟨1, _⟩ => rfl)))

/-- One more maximum with −∞ changes nothing. -/
theorem max_negInf_rowMax (h : FVec Ideal S100000x64 .f32) (r : Fin 100000) :
    max (FloatOps.ofBits (F := Ideal) .f32 0xFF800000#32) (rowMax (n := 100000) h r) = rowMax (n := 100000) h r := by
  refine max_eq_right ?_
  unfold rowMax
  exact (Finset.le_fold_max _).mpr (Or.inl le_rfl)

/-- The reference's row maximum (its host reduction, then the maximum with −∞) is the row's maximum. -/
theorem reference_rowMax (r : Fin 100000) :
    val_main_call2_v2 (F := Ideal) x0 x1 x2 x3 x4 x5 (ix1 r) = rowMax (n := 100000) (val_main_v209 (F := Ideal) x0 x1 x2 x3 x4 x5) r := by
  rw [val_main_call2_v2_apply, val_main_call2_v1_apply]
  unfold val_main_call2_v0
  rw [host_rowMax _ _ rfl r]
  exact max_negInf_rowMax _ r

/-- The reference's shifted value at (r, k). -/
theorem reference_shifted (r : Fin 100000) (k : Fin 64) :
    val_main_call2_v5 (F := Ideal) x0 x1 x2 x3 x4 x5 (ix2 r k)
      = FloatOps.subf (val_main_v209 (F := Ideal) x0 x1 x2 x3 x4 x5 (ix2 r k)) (rowMax (n := 100000) (val_main_v209 (F := Ideal) x0 x1 x2 x3 x4 x5) r) := by
  rw [val_main_call2_v5_apply, val_main_call2_v4_apply, val_main_call2_v3_apply]
  have e : idx_main_call2_v3 (idx_main_call2_v4 (ix2 r k)) = ix1 r :=
    funext fun a => Fin.ext (by match a with | ⟨0, _⟩ => rfl)
  rw [e, reference_rowMax]

/-- The reference's sum of exponentials over row `r`. -/
theorem reference_sum (r : Fin 100000) (q : Fin 64) :
    (∑ k : Fin 64, val_main_call2_v6 (F := Ideal) x0 x1 x2 x3 x4 x5
        (idx_main_call2_v7 (idx_main_call2_v8 (idx_main_call2_v10 (ix2 r q))) k))
      = ∑ k : Fin 64, FloatOps.exp (FloatOps.subf (val_main_v209 (F := Ideal) x0 x1 x2 x3 x4 x5 (ix2 r k)) (rowMax (n := 100000) (val_main_v209 (F := Ideal) x0 x1 x2 x3 x4 x5) r)) :=
  Finset.sum_congr rfl fun k _ => by
    have e : idx_main_call2_v7 (idx_main_call2_v8 (idx_main_call2_v10 (ix2 r q))) k = ix2 r k :=
      funext fun a => Fin.ext (by match a with | ⟨0, _⟩ => rfl | ⟨1, _⟩ => rfl)
    rw [e, val_main_call2_v6_apply, reference_shifted]
    rfl

/-- The reference's sum starts from the f32 zero, which is the real 0. -/
theorem reference_zero : val_main_call2_cst_1 (F := Ideal) (Shape.Idx.first h_S_) = 0 := by
  show Ideal.ofBits .f32 0x00000000#32 = 0
  exact Ideal.ofBits_zero_f32

/-- The reference's result is the row-wise log-softmax of its tenth-round value. -/
theorem reference_eq :
    logSoftmax (n := 100000) (val_main_v209 (F := Ideal) x0 x1 x2 x3 x4 x5) = val_main_v210 (F := Ideal) x0 x1 x2 x3 x4 x5 := by
  funext i
  obtain ⟨r, q, rfl⟩ : ∃ (r : Fin 100000) (q : Fin 64), i = ix2 r q := ⟨i 0, i 1, eq_ix2 i⟩
  show logSoftmaxRow (n := 100000) _ r q = _
  rw [val_main_v210_apply, reference_shifted, val_main_call2_v10_apply, val_main_call2_v9_apply, val_main_call2_v8_apply,
    val_main_call2_v7_apply, reference_sum, reference_zero, zero_add]
  rfl

end Cert.Gnn.LogSoftmaxRegion

end
-- ==== Proof.Mlp.lean ====
/-
  The two-layer perceptron: the first region.

  For a node `r` with feature row x[r,·] (512 features), weights W₁ (512 × 128), W₂ (128 × 64) and biases b₁, b₂ (held as
  one-row matrices) let
      hidden[r,k] = max (Σ_l x[r,l] · W₁[l,k] + b₁[k]) 0          and        mlp[r,q] = Σ_k hidden[r,k] · W₂[k,q] + b₂[q].
  The region walks the 100000 nodes in fifty blocks of 2000 rows; at a point the body loads the block of x and the whole of
  W₁, b₁, W₂, b₂, narrows the factors to bf16 (the identity on extended reals), multiplies into zero accumulators, adds the
  biases, clamps at zero and stores the 2000 × 64 result.  A node's result depends on its own row of x only, so the block
  stored at a point is the block of `mlp` of the WHOLE arrays, and the fifty blocks tile the output array.
-/
import proofs.«180246_j3951369912443_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gnn

open Idealize.ShloMosaic Idealize.ShloMosaic.TcCoe Idealize.SL.Sem Idealize.ShloMosaic.ValueIdx
open Idealize.ShloMosaic.Pipeline (Dat Cfg Window)

/-! ## The function -/

/-- The hidden layer of node `r` at unit `k`. -/
def hidden {n : ℕ} (x : FVec Ideal ⟨2, ![n, 512]⟩ .f32) (W1 : FVec Ideal ⟨2, ![512, 128]⟩ .f32)
    (b1 : FVec Ideal ⟨2, ![1, 128]⟩ .f32) (r : Fin n) (k : Fin 128) : Ideal .f32 :=
  max ((∑ l : Fin 512, x (ix2 r l) * W1 (ix2 l k)) + b1 (ix2 (0 : Fin 1) k)) (FloatOps.ofBits .f32 0x00000000#32)

/-- The perceptron's output of node `r` at class `q`. -/
def mlpRow {n : ℕ} (x : FVec Ideal ⟨2, ![n, 512]⟩ .f32) (W1 : FVec Ideal ⟨2, ![512, 128]⟩ .f32)
    (b1 : FVec Ideal ⟨2, ![1, 128]⟩ .f32) (W2 : FVec Ideal ⟨2, ![128, 64]⟩ .f32) (b2 : FVec Ideal ⟨2, ![1, 64]⟩ .f32)
    (r : Fin n) (q : Fin 64) : Ideal .f32 :=
  (∑ k : Fin 128, hidden x W1 b1 r k * W2 (ix2 k q)) + b2 (ix2 (0 : Fin 1) q)

/-- The perceptron on every node. -/
def mlp {n : ℕ} (x : FVec Ideal ⟨2, ![n, 512]⟩ .f32) (W1 : FVec Ideal ⟨2, ![512, 128]⟩ .f32)
    (b1 : FVec Ideal ⟨2, ![1, 128]⟩ .f32) (W2 : FVec Ideal ⟨2, ![128, 64]⟩ .f32) (b2 : FVec Ideal ⟨2, ![1, 64]⟩ .f32) :
    FVec Ideal ⟨2, ![n, 64]⟩ .f32 :=
  fun i => mlpRow x W1 b1 W2 b2 (i 0) (i 1)

/-- A row of a block of x that is a row of the whole x has the whole array's output. -/
theorem mlpRow_block {n N : ℕ} (X : FVec Ideal ⟨2, ![N, 512]⟩ .f32) (B : FVec Ideal ⟨2, ![n, 512]⟩ .f32)
    (W1 : FVec Ideal ⟨2, ![512, 128]⟩ .f32) (b1 : FVec Ideal ⟨2, ![1, 128]⟩ .f32) (W2 : FVec Ideal ⟨2, ![128, 64]⟩ .f32)
    (b2 : FVec Ideal ⟨2, ![1, 64]⟩ .f32) (p : Fin n) (r : Fin N) (hB : ∀ l : Fin 512, B (ix2 p l) = X (ix2 r l)) (q : Fin 64) :
    mlpRow B W1 b1 W2 b2 p q = mlpRow X W1 b1 W2 b2 r q := by
  unfold mlpRow hidden
  simp only [hB]

namespace Mlp

open Cert.KernelIdeal Cert.KernelIdeal.Gen

/-! ## The two matrix products at an index -/

theorem dot1_lhs0 (i : S2000x128.Idx) (q : dot_S2000x512_S512x128_S2000x128_1_0_0_1_n_n.contr.Idx) : (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem dot1_rhs1 (i : S2000x128.Idx) (q : dot_S2000x512_S512x128_S2000x128_1_0_0_1_n_n.contr.Idx) : (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl
/-- The product into a zero accumulator, at (p, q): the sum over the 512 contracted coordinates. -/
theorem dot1_at {φ₁ φ₂ : FTy} (lhs : FVec Ideal S2000x512 φ₁) (rhs : FVec Ideal S512x128 φ₂) (p : Fin 2000) (q : Fin 128) :
    FloatOps.matmul dot_S2000x512_S512x128_S2000x128_1_0_0_1_n_n none lhs rhs (constant (F := Ideal) S2000x128 .f32 0x00000000#32) (ix2 p q)
      = ∑ l : Fin 512, lhs (ix2 p l) * rhs (ix2 l q) := by
  rw [Ideal.matmul_constant_zero_apply, ← Equiv.sum_comp (ValueIdx.contrEquiv1 dot_S2000x512_S512x128_S2000x128_1_0_0_1_n_n 512 rfl rfl).symm]
  refine Finset.sum_congr rfl fun l _ => ?_
  have hk := ValueIdx.contrEquiv1_symm_val dot_S2000x512_S512x128_S2000x128_1_0_0_1_n_n 512 rfl rfl l
  have el : dot_S2000x512_S512x128_S2000x128_1_0_0_1_n_n.lhsIdx (ix2 p q) ((ValueIdx.contrEquiv1 dot_S2000x512_S512x128_S2000x128_1_0_0_1_n_n 512 rfl rfl).symm l) = ix2 p l := funext fun a => Fin.ext (by
    match a with
    | ⟨0, _⟩ => exact dot1_lhs0 _ _
    | ⟨1, _⟩ => exact (dot_S2000x512_S512x128_S2000x128_1_0_0_1_n_n.lhsIdx_val_of_single rfl _ _).trans hk)
  have er : dot_S2000x512_S512x128_S2000x128_1_0_0_1_n_n.rhsIdx (ix2 p q) ((ValueIdx.contrEquiv1 dot_S2000x512_S512x128_S2000x128_1_0_0_1_n_n 512 rfl rfl).symm l) = ix2 l q := funext fun a => Fin.ext (by
    match a with
    | ⟨0, _⟩ => exact (dot_S2000x512_S512x128_S2000x128_1_0_0_1_n_n.rhsIdx_val_of_single rfl _ _).trans hk
    | ⟨1, _⟩ => exact dot1_rhs1 _ _)
  rw [el, er]

theorem dot2_lhs0 (i : S2000x64.Idx) (q : dot_S2000x128_S128x64_S2000x64_1_0_0_1_n_n.contr.Idx) : (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem dot2_rhs1 (i : S2000x64.Idx) (q : dot_S2000x128_S128x64_S2000x64_1_0_0_1_n_n.contr.Idx) : (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl
/-- The product into a zero accumulator, at (p, q): the sum over the 128 contracted coordinates. -/
theorem dot2_at {φ₁ φ₂ : FTy} (lhs : FVec Ideal S2000x128 φ₁) (rhs : FVec Ideal S128x64 φ₂) (p : Fin 2000) (q : Fin 64) :
    FloatOps.matmul dot_S2000x128_S128x64_S2000x64_1_0_0_1_n_n none lhs rhs (constant (F := Ideal) S2000x64 .f32 0x00000000#32) (ix2 p q)
      = ∑ l : Fin 128, lhs (ix2 p l) * rhs (ix2 l q) := by
  rw [Ideal.matmul_constant_zero_apply, ← Equiv.sum_comp (ValueIdx.contrEquiv1 dot_S2000x128_S128x64_S2000x64_1_0_0_1_n_n 128 rfl rfl).symm]
  refine Finset.sum_congr rfl fun l _ => ?_
  have hk := ValueIdx.contrEquiv1_symm_val dot_S2000x128_S128x64_S2000x64_1_0_0_1_n_n 128 rfl rfl l
  have el : dot_S2000x128_S128x64_S2000x64_1_0_0_1_n_n.lhsIdx (ix2 p q) ((ValueIdx.contrEquiv1 dot_S2000x128_S128x64_S2000x64_1_0_0_1_n_n 128 rfl rfl).symm l) = ix2 p l := funext fun a => Fin.ext (by
    match a with
    | ⟨0, _⟩ => exact dot2_lhs0 _ _
    | ⟨1, _⟩ => exact (dot_S2000x128_S128x64_S2000x64_1_0_0_1_n_n.lhsIdx_val_of_single rfl _ _).trans hk)
  have er : dot_S2000x128_S128x64_S2000x64_1_0_0_1_n_n.rhsIdx (ix2 p q) ((ValueIdx.contrEquiv1 dot_S2000x128_S128x64_S2000x64_1_0_0_1_n_n 128 rfl rfl).symm l) = ix2 l q := funext fun a => Fin.ext (by
    match a with
    | ⟨0, _⟩ => exact (dot_S2000x128_S128x64_S2000x64_1_0_0_1_n_n.rhsIdx_val_of_single rfl _ _).trans hk
    | ⟨1, _⟩ => exact dot2_rhs1 _ _)
  rw [el, er]

/-! ## The body on one block -/

/-- The hidden layer of the block, as the body computes it (the factors narrowed to bf16, which changes nothing here). -/
def hiddenBlock (v0 : Vec Ideal S2000x512 .f32) (v2 : Vec Ideal S512x128 .f32) (v5 : Vec Ideal S1x128 .f32) : FVec Ideal S2000x128 .f32 :=
  maximumf (addf (matmul dot_S2000x512_S512x128_S2000x128_1_0_0_1_n_n none (truncf .bf16 v0 bitsLt_bf16_f32) (truncf .bf16 v2 bitsLt_bf16_f32) (constant (F := Ideal) S2000x128 .f32 0x00000000#32))
      (broadcastTo S2000x128 (shapeCast S1x128 v5 shapeCasts_S1x128_S1x128) broadcasts_S1x128_S2000x128))
    (broadcast S2000x128 (Scalar.ofBits (F := Ideal) .f32 0x00000000#32))

theorem hiddenBlock_at (v0 : Vec Ideal S2000x512 .f32) (v2 : Vec Ideal S512x128 .f32) (v5 : Vec Ideal S1x128 .f32) (p : Fin 2000) (k : Fin 128) :
    hiddenBlock v0 v2 v5 (ix2 p k) = hidden (n := 2000) v0 v2 v5 p k := by
  show max (FloatOps.matmul dot_S2000x512_S512x128_S2000x128_1_0_0_1_n_n none (truncf .bf16 v0 bitsLt_bf16_f32) (truncf .bf16 v2 bitsLt_bf16_f32) (constant (F := Ideal) S2000x128 .f32 0x00000000#32) (ix2 p k)
      + broadcastTo S2000x128 (shapeCast S1x128 v5 shapeCasts_S1x128_S1x128) broadcasts_S1x128_S2000x128 (ix2 p k)) _ = _
  rw [dot1_at, shapeCast_self, broadcastTo_1b_ab_apply]
  rfl

theorem payload_shape (v0 : Vec Ideal S2000x512 .f32) (v2 : Vec Ideal S512x128 .f32) (v5 : Vec Ideal S1x128 .f32)
    (v12 : Vec Ideal S128x64 .f32) (v15 : Vec Ideal S1x64 .f32) :
    k0_pay1 (F := Ideal) v0 v2 v5 v12 v15
      = addf (matmul dot_S2000x128_S128x64_S2000x64_1_0_0_1_n_n none (truncf .bf16 (hiddenBlock v0 v2 v5) bitsLt_bf16_f32) (truncf .bf16 v12 bitsLt_bf16_f32) (constant (F := Ideal) S2000x64 .f32 0x00000000#32))
          (broadcastTo S2000x64 (shapeCast S1x64 v15 shapeCasts_S1x64_S1x64) broadcasts_S1x64_S2000x64) := rfl

/-- The body's result at (p, q) is the perceptron's output of the block's row p at class q. -/
theorem payload_at (v0 : Vec Ideal S2000x512 .f32) (v2 : Vec Ideal S512x128 .f32) (v5 : Vec Ideal S1x128 .f32)
    (v12 : Vec Ideal S128x64 .f32) (v15 : Vec Ideal S1x64 .f32) (p : Fin 2000) (q : Fin 64) :
    k0_pay1 (F := Ideal) v0 v2 v5 v12 v15 (ix2 p q) = mlpRow (n := 2000) v0 v2 v5 v12 v15 p q := by
  rw [payload_shape]
  show FloatOps.matmul dot_S2000x128_S128x64_S2000x64_1_0_0_1_n_n none (truncf .bf16 (hiddenBlock v0 v2 v5) bitsLt_bf16_f32) (truncf .bf16 v12 bitsLt_bf16_f32) (constant (F := Ideal) S2000x64 .f32 0x00000000#32) (ix2 p q)
      + broadcastTo S2000x64 (shapeCast S1x64 v15 shapeCasts_S1x64_S1x64) broadcasts_S1x64_S2000x64 (ix2 p q) = _
  rw [dot2_at, shapeCast_self, broadcastTo_1b_ab_apply]
  unfold mlpRow
  refine congrArg (· + v15 (ix2 (0 : Fin 1) q)) (Finset.sum_congr rfl fun k _ => ?_)
  show hiddenBlock v0 v2 v5 (ix2 p k) * v12 (ix2 k q) = _
  rw [hiddenBlock_at]

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The feature window and the output window move together (block row = the point, block column 0); the four parameter
    windows stay at block (0, 0). -/
theorem index_facts : ∀ t : Fin cfg0.N, win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 49 ∧ win0_5.index t (1 : Fin 2) = 0 :=
  (by decide +kernel : ∀ t : Fin grid0.N, _)

theorem index_onto : ∀ q0 : Fin 50, ∃ t : Fin cfg0.N, win0_5.index t = ![q0.val, 0] :=
  (by decide +kernel : ∀ q0 : Fin 50, ∃ t : Fin grid0.N, win0_5.index t = ![q0.val, 0])

/-- What point `t` writes back is block `t` of the perceptron's output on the whole arrays the region found. -/
theorem flushed_eq (c : Dev nD) (t : Fin cfg0.N) :
    (dat0 V c).flushed 5 t = ((cfg0.win 5).blk t).view.read (Elt Ideal)
      (mlp (n := 100000) (V c main_arg0) (V c main_arg2) (V c main_v0) (V c main_arg4) (V c main_v1)) := by
  show (cfg0.win 5).cut (grid0.coords t) ((dat0 V c).after 5 t) = _
  rw [after0_5]
  unfold out0_5
  rw [View.canon_unit_zero zero_offsets]
  simp only [View.ld_unit_zero (S := S2000x512) zero_offsets, View.ld_unit_zero (S := S512x128) zero_offsets,
    View.ld_unit_zero (S := S1x128) zero_offsets, View.ld_unit_zero (S := S128x64) zero_offsets, View.ld_unit_zero (S := S1x64) zero_offsets]
  obtain ⟨e0, e1, e2, e3, e4, e5, e6, e7, e8, e9, e10, e11⟩ := index_facts t
  funext j
  obtain ⟨p, q, rfl⟩ : ∃ (p : Fin 2000) (q : Fin 64), j = ix2 p q := ⟨j 0, j 1, eq_ix2 j⟩
  refine (payload_at (iblk0 V c 0 t) (iblk0 V c 1 t) (iblk0 V c 2 t) (iblk0 V c 3 t) (iblk0 V c 4 t) p q).trans ?_
  have hr : win0_5.index t (0 : Fin 2) * 2000 + p.val < 100000 := by omega
  have hout : ((cfg0.win 5).blk t).view.emb (ix2 p q) = ix2 (⟨win0_5.index t (0 : Fin 2) * 2000 + p.val, hr⟩ : Fin 100000) q := by
    funext a; apply Fin.ext
    match a with
    | ⟨0, _⟩ => show win0_5.index t (0 : Fin 2) * 2000 + 1 * p.val = win0_5.index t (0 : Fin 2) * 2000 + p.val; omega
    | ⟨1, _⟩ => show win0_5.index t (1 : Fin 2) * 64 + 1 * q.val = q.val; omega
  show _ = mlp (n := 100000) (V c main_arg0) (V c main_arg2) (V c main_v0) (V c main_arg4) (V c main_v1) (((cfg0.win 5).blk t).view.emb (ix2 p q))
  rw [hout]
  show _ = mlpRow (n := 100000) (V c main_arg0) (V c main_arg2) (V c main_v0) (V c main_arg4) (V c main_v1) ⟨win0_5.index t (0 : Fin 2) * 2000 + p.val, hr⟩ q
  have h1 : iblk0 V c 1 t = V c main_arg2 := by
    funext i
    show V c main_arg2 (((cfg0.win 1).blk t).view.emb i) = _
    refine congrArg (V c main_arg2) (funext fun a => Fin.ext ?_)
    match a with
    | ⟨0, _⟩ => show win0_1.index t (0 : Fin 2) * 512 + 1 * (i 0).val = (i 0).val; omega
    | ⟨1, _⟩ => show win0_1.index t (1 : Fin 2) * 128 + 1 * (i 1).val = (i 1).val; omega
  have h2 : iblk0 V c 2 t = V c main_v0 := by
    funext i
    show V c main_v0 (((cfg0.win 2).blk t).view.emb i) = _
    refine congrArg (V c main_v0) (funext fun a => Fin.ext ?_)
    match a with
    | ⟨0, _⟩ => show win0_2.index t (0 : Fin 2) * 1 + 1 * (i 0).val = (i 0).val; omega
    | ⟨1, _⟩ => show win0_2.index t (1 : Fin 2) * 128 + 1 * (i 1).val = (i 1).val; omega
  have h3 : iblk0 V c 3 t = V c main_arg4 := by
    funext i
    show V c main_arg4 (((cfg0.win 3).blk t).view.emb i) = _
    refine congrArg (V c main_arg4) (funext fun a => Fin.ext ?_)
    match a with
    | ⟨0, _⟩ => show win0_3.index t (0 : Fin 2) * 128 + 1 * (i 0).val = (i 0).val; omega
    | ⟨1, _⟩ => show win0_3.index t (1 : Fin 2) * 64 + 1 * (i 1).val = (i 1).val; omega
  have h4 : iblk0 V c 4 t = V c main_v1 := by
    funext i
    show V c main_v1 (((cfg0.win 4).blk t).view.emb i) = _
    refine congrArg (V c main_v1) (funext fun a => Fin.ext ?_)
    match a with
    | ⟨0, _⟩ => show win0_4.index t (0 : Fin 2) * 1 + 1 * (i 0).val = (i 0).val; omega
    | ⟨1, _⟩ => show win0_4.index t (1 : Fin 2) * 64 + 1 * (i 1).val = (i 1).val; omega
  rw [h1, h2, h3, h4]
  refine mlpRow_block (V c main_arg0) (iblk0 V c 0 t) _ _ _ _ p _ (fun l => ?_) q
  show V c main_arg0 (((cfg0.win 0).blk t).view.emb (ix2 p l)) = _
  refine congrArg (V c main_arg0) (funext fun a => Fin.ext ?_)
  match a with
  | ⟨0, _⟩ => show win0_0.index t (0 : Fin 2) * 2000 + 1 * p.val = win0_5.index t (0 : Fin 2) * 2000 + p.val; omega
  | ⟨1, _⟩ => show win0_0.index t (1 : Fin 2) * 512 + 1 * l.val = l.val; omega

theorem mem_block (t : Fin cfg0.N) (i : S100000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v2).slice (win0_5.rect t)).set ↔ _
  rw [View.set_slice_whole, Rect.mem_set_unit]
  exact Iff.rfl

theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := index_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 64 ≤ (i 1).val ∧ (i 1).val < win0_5.index t (1 : Fin 2) * 64 + 64; omega

/-- After the first region its output array is the perceptron's output on the arrays it found. -/
theorem array_eq (c : Dev nD) : (dat0 V c).arrAt 5 cfg0.N
    = mlp (n := 100000) (V c main_arg0) (V c main_arg2) (V c main_v0) (V c main_arg4) (V c main_v1) :=
  (dat0 V c).arrAt_eq_of_cover 5 _ (fun t _ => flushed_eq V c t) cover

end Mlp

end Cert.Gnn

end
-- ==== Proof.MlpRef.lean ====
/-
  The reference's two-layer perceptron is the same function.

  The reference computes  relu (x · W₁ + b₁) · W₂ + b₂  with two host matrix products, two broadcast biases and a maximum
  with zero.  Read at node `r` and class `q` it is the sum over the 128 hidden units of the clamped hidden value times
  W₂[k,q], plus b₂[q]; the hidden value is the sum over the 512 features plus b₁[k].  That is `mlp`, with the biases read
  through the one-row matrices the kernel program reshapes them to.
-/
import proofs.«180246_j3951369912443_1_alg».proof.Proof.Mlp
import proofs.«180246_j3951369912443_1_alg».proof.Proof.RefRead

set_option maxRecDepth 16384

noncomputable section

namespace Cert.Gnn.Mlp

open Idealize.ShloMosaic Idealize.ShloMosaic.TcCoe Idealize.SL.Sem Idealize.ShloMosaic.ValueIdx
open Cert.ReferenceIdeal Cert.ReferenceIdeal.ReadP

/-- The reference's hidden layer at node `r`, unit `k`. -/
theorem reference_hidden (x0 : FVec Ideal S100000x512 .f32) (x2 : FVec Ideal S512x128 .f32) (x3 : FVec Ideal S128 .f32)
    (r : Fin 100000) (k : Fin 128) :
    val_main_v4 (F := Ideal) x0 x2 x3 (ix2 r k)
      = hidden (n := 100000) x0 x2 (shapeCast Cert.KernelIdeal.S1x128 x3 Cert.KernelIdeal.Gen.shapeCasts_S128_S1x128) r k := by
  rw [val_main_v4_apply, val_main_v3_apply, val_main_v0_apply, val_main_v2_apply, val_main_v1_apply, val_main_call0_v0_apply]
  unfold hidden
  have el : ∀ l : Fin 512, lidx_main_v0 (ix2 r k) l = ix2 r l := fun l =>
    funext fun a => Fin.ext (by match a with | ⟨0, _⟩ => rfl | ⟨1, _⟩ => rfl)
  have er : ∀ l : Fin 512, ridx_main_v0 (ix2 r k) l = ix2 l k := fun l =>
    funext fun a => Fin.ext (by match a with | ⟨0, _⟩ => rfl | ⟨1, _⟩ => rfl)
  have eb : idx_main_v1 (idx_main_v2 (ix2 r k)) = ix1 k :=
    funext fun a => Fin.ext (by match a with | ⟨0, _⟩ => rfl)
  simp only [el, er, eb]
  rw [shapeCast_a_1a_apply]
  rfl

/-- The reference's start features are the perceptron's output on the argument arrays. -/
theorem reference_eq (x0 : FVec Ideal S100000x512 .f32) (x2 : FVec Ideal S512x128 .f32) (x3 : FVec Ideal S128 .f32)
    (x4 : FVec Ideal S128x64 .f32) (x5 : FVec Ideal S64 .f32) :
    mlp (n := 100000) x0 x2 (shapeCast Cert.KernelIdeal.S1x128 x3 Cert.KernelIdeal.Gen.shapeCasts_S128_S1x128) x4
        (shapeCast Cert.KernelIdeal.S1x64 x5 Cert.KernelIdeal.Gen.shapeCasts_S64_S1x64)
      = val_main_v8 (F := Ideal) x0 x2 x3 x4 x5 := by
  funext i
  obtain ⟨r, q, rfl⟩ : ∃ (r : Fin 100000) (q : Fin 64), i = ix2 r q := ⟨i 0, i 1, eq_ix2 i⟩
  show mlpRow (n := 100000) x0 x2 _ x4 _ r q = _
  rw [val_main_v8_apply, val_main_v5_apply, val_main_v7_apply, val_main_v6_apply]
  unfold mlpRow
  have el : ∀ k : Fin 128, lidx_main_v5 (ix2 r q) k = ix2 r k := fun k =>
    funext fun a => Fin.ext (by match a with | ⟨0, _⟩ => rfl | ⟨1, _⟩ => rfl)
  have er : ∀ k : Fin 128, ridx_main_v5 (ix2 r q) k = ix2 k q := fun k =>
    funext fun a => Fin.ext (by match a with | ⟨0, _⟩ => rfl | ⟨1, _⟩ => rfl)
  have eb : idx_main_v6 (idx_main_v7 (ix2 r q)) = ix1 q :=
    funext fun a => Fin.ext (by match a with | ⟨0, _⟩ => rfl)
  simp only [el, er, eb, reference_hidden]
  rw [shapeCast_a_1a_apply]
  rfl

end Cert.Gnn.Mlp

end
-- ==== Proof.Chain.lean ====
/-
  The kernel program's result as the reference's function of the arguments.

  Both programs are one computation: a two-layer perceptron on every node's features (`h₀`), the symmetric
  normalisation `w = d^(-1/2)[src] · d^(-1/2)[dst]` of the graph with self loops (`d` the in-degree counts, `src` and `dst`
  the edge list followed by 0 … 99999), ten rounds of  h ← 0.9 · (Σ over edges into a node of w · h[src]) + 0.1 · h₀ , and a
  row-wise log-softmax.  The reference spells every step as a host operation; the kernel program spells the perceptron, each
  round's combination and the log-softmax as pallas regions and the rest — the gathers, the scatter-adds, the weights — as the
  SAME host operations.  So the proof walks the kernel program's segments in order and shows, boundary by boundary, that
  the buffers hold the reference's values: a stretch of host operations applies the reference's own operations to buffers
  that already hold the reference's values, and a region's output array is the reference's next value by the region's
  whole-array lemma.  Four buffers are carried along unchanged: `h₀`, `src`, `dst` and `w`.
-/
import proofs.«180246_j3951369912443_1_alg».proof.Proof.Gen.KernelIdeal.Frame
import proofs.«180246_j3951369912443_1_alg».proof.Proof.RefRead
import proofs.«180246_j3951369912443_1_alg».proof.Proof.Teleport
import proofs.«180246_j3951369912443_1_alg».proof.Proof.LogSoftmaxRef
import proofs.«180246_j3951369912443_1_alg».proof.Proof.MlpRef
import proofs.«180246_j3951369912443_1_alg».proof.Proof.Fold

set_option maxRecDepth 16384

noncomputable section

namespace Cert.Gnn.Chain

open Idealize.ShloMosaic Idealize.ShloMosaic.TcCoe Idealize.SL.Sem Idealize.ShloMosaic.StableHlo
open Idealize.ShloMosaic.Pipeline (Dat Cfg Window)
open Cert.KernelIdeal Cert.KernelIdeal.Gen
open Cert.ReferenceIdeal.ReadP

variable (m : (ℓ : Loc nD τ sig) → Buf (Elt Ideal) ℓ) (ρ : Dev nD → PrngReg) (c : Dev nD)

/-- The six argument arrays as launched. -/
abbrev x0 := m ((c.tc : Thread nD τ).loc main_arg0)
abbrev x1 := m ((c.tc : Thread nD τ).loc main_arg1)
abbrev x2 := m ((c.tc : Thread nD τ).loc main_arg2)
abbrev x3 := m ((c.tc : Thread nD τ).loc main_arg3)
abbrev x4 := m ((c.tc : Thread nD τ).loc main_arg4)
abbrev x5 := m ((c.tc : Thread nD τ).loc main_arg5)

/-! ## A called function's buffers

The operations of the `where` the program calls address their buffers through a typed handle that carries the buffer's type;
reading or writing contents through the handle of a literal buffer changes nothing. -/

theorem toBuf_main_cst_2 (p1 p2 p3) (v : (⟨S_, .f32⟩ : BufTy).Contents (Elt Ideal)) :
    (TRef.of (T := ⟨S_, .f32⟩) main_cst_2 p1 p2 p3).toBuf v = v := eq_of_heq (cast_heq _ _)
theorem ofBuf_main_cst_2 (p1 p2 p3) (v : (⟨S_, .f32⟩ : BufTy).Contents (Elt Ideal)) :
    (TRef.of (T := ⟨S_, .f32⟩) main_cst_2 p1 p2 p3).ofBuf v = v := eq_of_heq (cast_heq _ _)
theorem toBuf_main_call0_v0 (p1 p2 p3) (v : (⟨S_, .f32⟩ : BufTy).Contents (Elt Ideal)) :
    (TRef.of (T := ⟨S_, .f32⟩) main_call0_v0 p1 p2 p3).toBuf v = v := eq_of_heq (cast_heq _ _)
theorem ofBuf_main_call0_v0 (p1 p2 p3) (v : (⟨S_, .f32⟩ : BufTy).Contents (Elt Ideal)) :
    (TRef.of (T := ⟨S_, .f32⟩) main_call0_v0 p1 p2 p3).ofBuf v = v := eq_of_heq (cast_heq _ _)
theorem toBuf_main_call0_v1 (p1 p2 p3) (v : (⟨S100000, .f32⟩ : BufTy).Contents (Elt Ideal)) :
    (TRef.of (T := ⟨S100000, .f32⟩) main_call0_v1 p1 p2 p3).toBuf v = v := eq_of_heq (cast_heq _ _)
theorem ofBuf_main_call0_v1 (p1 p2 p3) (v : (⟨S100000, .f32⟩ : BufTy).Contents (Elt Ideal)) :
    (TRef.of (T := ⟨S100000, .f32⟩) main_call0_v1 p1 p2 p3).ofBuf v = v := eq_of_heq (cast_heq _ _)
theorem toBuf_main_v15 (p1 p2 p3) (v : (⟨S100000, .i1⟩ : BufTy).Contents (Elt Ideal)) :
    (TRef.of (T := ⟨S100000, .i1⟩) main_v15 p1 p2 p3).toBuf v = v := eq_of_heq (cast_heq _ _)
theorem ofBuf_main_v15 (p1 p2 p3) (v : (⟨S100000, .i1⟩ : BufTy).Contents (Elt Ideal)) :
    (TRef.of (T := ⟨S100000, .i1⟩) main_v15 p1 p2 p3).ofBuf v = v := eq_of_heq (cast_heq _ _)
theorem toBuf_main_v16 (p1 p2 p3) (v : (⟨S100000, .f32⟩ : BufTy).Contents (Elt Ideal)) :
    (TRef.of (T := ⟨S100000, .f32⟩) main_v16 p1 p2 p3).toBuf v = v := eq_of_heq (cast_heq _ _)
theorem ofBuf_main_v16 (p1 p2 p3) (v : (⟨S100000, .f32⟩ : BufTy).Contents (Elt Ideal)) :
    (TRef.of (T := ⟨S100000, .f32⟩) main_v16 p1 p2 p3).ofBuf v = v := eq_of_heq (cast_heq _ _)
theorem toBuf_main_v17 (p1 p2 p3) (v : (⟨S100000, .f32⟩ : BufTy).Contents (Elt Ideal)) :
    (TRef.of (T := ⟨S100000, .f32⟩) main_v17 p1 p2 p3).toBuf v = v := eq_of_heq (cast_heq _ _)
theorem ofBuf_main_v17 (p1 p2 p3) (v : (⟨S100000, .f32⟩ : BufTy).Contents (Elt Ideal)) :
    (TRef.of (T := ⟨S100000, .f32⟩) main_v17 p1 p2 p3).ofBuf v = v := eq_of_heq (cast_heq _ _)

/-! ## Up to the perceptron region -/

theorem W1_arg0 : W1 m ρ c (Proc.devRef .tc main_arg0) = x0 m c := by
  show StableHlo.after hostOps0 (W0 m ρ c) (Proc.devRef .tc main_arg0) = _
  dsimp only [hostOps0]; after_results <;> rfl
theorem W1_arg1 : W1 m ρ c (Proc.devRef .tc main_arg1) = x1 m c := by
  show StableHlo.after hostOps0 (W0 m ρ c) (Proc.devRef .tc main_arg1) = _
  dsimp only [hostOps0]; after_results <;> rfl
theorem W1_arg2 : W1 m ρ c (Proc.devRef .tc main_arg2) = x2 m c := by
  show StableHlo.after hostOps0 (W0 m ρ c) (Proc.devRef .tc main_arg2) = _
  dsimp only [hostOps0]; after_results <;> rfl
theorem W1_arg4 : W1 m ρ c (Proc.devRef .tc main_arg4) = x4 m c := by
  show StableHlo.after hostOps0 (W0 m ρ c) (Proc.devRef .tc main_arg4) = _
  dsimp only [hostOps0]; after_results <;> rfl
/-- The first bias as the one-row matrix the perceptron region loads. -/
theorem W1_v0 : W1 m ρ c (Proc.devRef .tc main_v0) = shapeCast S1x128 (x3 m c) shapeCasts_S128_S1x128 := by
  show StableHlo.after hostOps0 (W0 m ρ c) (Proc.devRef .tc main_v0) = _
  dsimp only [hostOps0]; after_results <;> rfl
/-- The second bias likewise. -/
theorem W1_v1 : W1 m ρ c (Proc.devRef .tc main_v1) = shapeCast S1x64 (x5 m c) shapeCasts_S64_S1x64 := by
  show StableHlo.after hostOps0 (W0 m ρ c) (Proc.devRef .tc main_v1) = _
  dsimp only [hostOps0]; after_results <;> rfl

/-- After the perceptron region its output array holds the reference's start features `h₀`. -/
theorem W2_v2 : W2 m ρ c (Proc.devRef .tc main_v2) = val_main_v8 (F := Ideal) (x0 m c) (x2 m c) (x3 m c) (x4 m c) (x5 m c) := by
  refine (W2_arr m ρ c 5).trans ((Cert.Gnn.Mlp.array_eq (V1 m ρ) c).trans ?_)
  show Cert.Gnn.mlp (n := 100000) (W1 m ρ c (Proc.devRef .tc main_arg0)) (W1 m ρ c (Proc.devRef .tc main_arg2)) (W1 m ρ c (Proc.devRef .tc main_v0)) (W1 m ρ c (Proc.devRef .tc main_arg4)) (W1 m ρ c (Proc.devRef .tc main_v1)) = _
  rw [W1_arg0, W1_arg2, W1_arg4, W1_v0, W1_v1]
  exact Cert.Gnn.Mlp.reference_eq (x0 m c) (x2 m c) (x3 m c) (x4 m c) (x5 m c)

/-- The edge list is not an array of that region. -/
theorem W2_arg1 : W2 m ρ c (Proc.devRef .tc main_arg1) = x1 m c :=
  (W2_of_ne m ρ c main_arg1 (by decide)).trans (W1_arg1 m ρ c)

/-! ## The source and target lists (the first seven host operations after the perceptron) -/

/-- The contents once the source and target lists are written. -/
def Wsd : Valuation τ sig (Elt Ideal) := StableHlo.after (List.take 7 hostOps1) (W2 m ρ c)

theorem Wsd_v6 : Wsd m ρ c (Proc.devRef .tc main_v6) = val_main_v12 (F := Ideal) (x1 m c) := by
  show StableHlo.after [_, _, _, _, _, _, _] (W2 m ρ c) (Proc.devRef .tc main_v6) = _
  after_results
  rw [W2_arg1]
  simp only [val_main_v12, val_main_v11, val_main_v10, val_main_v9]
  try rfl
theorem Wsd_v9 : Wsd m ρ c (Proc.devRef .tc main_v9) = val_main_v15 (F := Ideal) (x1 m c) := by
  show StableHlo.after [_, _, _, _, _, _, _] (W2 m ρ c) (Proc.devRef .tc main_v9) = _
  after_results
  rw [W2_arg1]
  simp only [val_main_v15, val_main_v14, val_main_v13, val_main_v9]
  try rfl
theorem Wsd_v2 : Wsd m ρ c (Proc.devRef .tc main_v2) = val_main_v8 (F := Ideal) (x0 m c) (x2 m c) (x3 m c) (x4 m c) (x5 m c) := by
  show StableHlo.after [_, _, _, _, _, _, _] (W2 m ρ c) (Proc.devRef .tc main_v2) = _
  after_results_simp; exact W2_v2 m ρ c

/-! ## The degrees' inverse square roots (the rest of that stretch, and the `where`) -/

/-- The contents once the inverse square roots of the degrees are written. -/
def Wd : Valuation τ sig (Elt Ideal) :=
  StableHlo.after hostOps1_1 (StableHlo.after (List.drop 7 hostOps1) (Wsd m ρ c))

theorem Wd_v17 : Wd m ρ c (Proc.devRef .tc main_v17) = val_main_v23 (F := Ideal) (x1 m c) := by
  show StableHlo.after hostOps1_1 (StableHlo.after [_, _, _, _, _, _, _, _, _, _, _] (Wsd m ρ c)) (Proc.devRef .tc main_v17) = _
  dsimp only [hostOps1_1]; after_results_simp
  rw [Wsd_v9 m ρ c]
  simp only [toBuf_main_cst_2, ofBuf_main_cst_2, toBuf_main_call0_v0, ofBuf_main_call0_v0, toBuf_main_call0_v1, ofBuf_main_call0_v1, toBuf_main_v15, ofBuf_main_v15, toBuf_main_v16, ofBuf_main_v16, toBuf_main_v17, ofBuf_main_v17]
  simp only [val_main_v23, val_main_v21, val_main_v19, val_main_v17, val_main_cst_0, val_main_v18, val_main_v16, val_main_cst, val_main_v20, val_main_cst_1, val_main_v22, val_main_call1_v1, val_main_call1_v0, val_main_cst_2]
  try rfl
theorem Wd_v6 : Wd m ρ c (Proc.devRef .tc main_v6) = val_main_v12 (F := Ideal) (x1 m c) := by
  show StableHlo.after hostOps1_1 (StableHlo.after [_, _, _, _, _, _, _, _, _, _, _] (Wsd m ρ c)) (Proc.devRef .tc main_v6) = _
  dsimp only [hostOps1_1]; after_results_simp; exact Wsd_v6 m ρ c
theorem Wd_v9 : Wd m ρ c (Proc.devRef .tc main_v9) = val_main_v15 (F := Ideal) (x1 m c) := by
  show StableHlo.after hostOps1_1 (StableHlo.after [_, _, _, _, _, _, _, _, _, _, _] (Wsd m ρ c)) (Proc.devRef .tc main_v9) = _
  dsimp only [hostOps1_1]; after_results_simp; exact Wsd_v9 m ρ c
theorem Wd_v2 : Wd m ρ c (Proc.devRef .tc main_v2) = val_main_v8 (F := Ideal) (x0 m c) (x2 m c) (x3 m c) (x4 m c) (x5 m c) := by
  show StableHlo.after hostOps1_1 (StableHlo.after [_, _, _, _, _, _, _, _, _, _, _] (Wsd m ρ c)) (Proc.devRef .tc main_v2) = _
  dsimp only [hostOps1_1]; after_results_simp; exact Wsd_v2 m ρ c

/-- The stretch before the first combination region, from there. -/
theorem W5_of_Wd (b : DevRef τ sig) : W5 m ρ c b = StableHlo.after hostOps1_2 (Wd m ρ c) b := by
  show StableHlo.after hostOps1_2 (StableHlo.after hostOps1_1 (StableHlo.after hostOps1 (W2 m ρ c))) b = _
  rw [Cert.Gnn.Fold.after_split hostOps1 7]
  rfl

/-! ## The weights and the first aggregate -/

theorem W5_v6 : W5 m ρ c (Proc.devRef .tc main_v6) = val_main_v12 (F := Ideal) (x1 m c) := by
  rw [W5_of_Wd]
  dsimp only [hostOps1_2]; after_results_simp
  exact Wd_v6 m ρ c
theorem W5_v9 : W5 m ρ c (Proc.devRef .tc main_v9) = val_main_v15 (F := Ideal) (x1 m c) := by
  rw [W5_of_Wd]
  dsimp only [hostOps1_2]; after_results_simp
  exact Wd_v9 m ρ c
theorem W5_v2 : W5 m ρ c (Proc.devRef .tc main_v2) = val_main_v8 (F := Ideal) (x0 m c) (x2 m c) (x3 m c) (x4 m c) (x5 m c) := by
  rw [W5_of_Wd]
  dsimp only [hostOps1_2]; after_results_simp
  exact Wd_v2 m ρ c
theorem W5_v32 : W5 m ρ c (Proc.devRef .tc main_v32) = val_main_v38 (F := Ideal) (x1 m c) := by
  rw [W5_of_Wd]
  dsimp only [hostOps1_2]; after_results_simp
  rw [Wd_v17 m ρ c, Wd_v6 m ρ c, Wd_v9 m ρ c]
  simp only [val_main_v38, val_main_v30, val_main_v29, val_main_v28, val_main_v25, val_main_v24, val_main_c, val_main_v27, val_main_v26, val_main_c_3, val_main_v37, val_main_v36, val_main_v35, val_main_v32, val_main_v31, val_main_c_4, val_main_v34, val_main_v33, val_main_c_5]
  try rfl
theorem W5_v45 : W5 m ρ c (Proc.devRef .tc main_v45) = val_main_v51 (F := Ideal) (x0 m c) (x1 m c) (x2 m c) (x3 m c) (x4 m c) (x5 m c) := by
  rw [W5_of_Wd]
  dsimp only [hostOps1_2]; after_results_simp
  rw [Wd_v17 m ρ c, Wd_v6 m ρ c, Wd_v9 m ρ c, Wd_v2 m ρ c]
  simp only [val_main_v51, val_main_v49, val_main_cst_8, val_main_v50, val_main_v48, val_main_v47, val_main_v39, val_main_v38, val_main_v30, val_main_v29, val_main_v28, val_main_v25, val_main_v24, val_main_c, val_main_v27, val_main_v26, val_main_c_3, val_main_v37, val_main_v36, val_main_v35, val_main_v32, val_main_v31, val_main_c_4, val_main_v34, val_main_v33, val_main_c_5, val_main_v46, val_main_v45, val_main_v44, val_main_v41, val_main_v40, val_main_c_6, val_main_v43, val_main_v42, val_main_c_7]
  try rfl

theorem inv5 : (W5 m ρ c (Proc.devRef .tc main_v2) = val_main_v8 (F := Ideal) (x0 m c) (x2 m c) (x3 m c) (x4 m c) (x5 m c) ∧ W5 m ρ c (Proc.devRef .tc main_v6) = val_main_v12 (F := Ideal) (x1 m c) ∧ W5 m ρ c (Proc.devRef .tc main_v9) = val_main_v15 (F := Ideal) (x1 m c) ∧ W5 m ρ c (Proc.devRef .tc main_v32) = val_main_v38 (F := Ideal) (x1 m c)) :=
  ⟨W5_v2 m ρ c, W5_v6 m ρ c, W5_v9 m ρ c, W5_v32 m ρ c⟩

/-! ## Round 1 -/

/-- The reference's round-1 value is the teleport combination of its aggregate and `h₀`. -/
theorem ref_round1 : val_main_v56 (F := Ideal) (x0 m c) (x1 m c) (x2 m c) (x3 m c) (x4 m c) (x5 m c) = Cert.Gnn.teleport (s := S100000x64) (val_main_v51 (F := Ideal) (x0 m c) (x1 m c) (x2 m c) (x3 m c) (x4 m c) (x5 m c)) (val_main_v8 (F := Ideal) (x0 m c) (x2 m c) (x3 m c) (x4 m c) (x5 m c)) := by
  simp only [val_main_v56, val_main_v53, val_main_v52, val_main_cst_9, val_main_v55, val_main_v54, val_main_cst_10]
  funext i; rfl

/-- Region 1 leaves the round's value in its output array … -/
theorem W6_out (hi : (W5 m ρ c (Proc.devRef .tc main_v2) = val_main_v8 (F := Ideal) (x0 m c) (x2 m c) (x3 m c) (x4 m c) (x5 m c) ∧ W5 m ρ c (Proc.devRef .tc main_v6) = val_main_v12 (F := Ideal) (x1 m c) ∧ W5 m ρ c (Proc.devRef .tc main_v9) = val_main_v15 (F := Ideal) (x1 m c) ∧ W5 m ρ c (Proc.devRef .tc main_v32) = val_main_v38 (F := Ideal) (x1 m c))) (ha : W5 m ρ c (Proc.devRef .tc main_v45) = val_main_v51 (F := Ideal) (x0 m c) (x1 m c) (x2 m c) (x3 m c) (x4 m c) (x5 m c)) :
    W6 m ρ c (Proc.devRef .tc main_v46) = val_main_v56 (F := Ideal) (x0 m c) (x1 m c) (x2 m c) (x3 m c) (x4 m c) (x5 m c) := by
  refine (W6_arr m ρ c 2).trans ((Cert.Gnn.R1.array_eq (V5 m ρ) c).trans ?_)
  show Cert.Gnn.teleport (s := S100000x64) (W5 m ρ c (Proc.devRef .tc main_v45)) (W5 m ρ c (Proc.devRef .tc main_v2)) = _
  rw [ha, hi.1]
  exact (ref_round1 m c).symm

/-- … and keeps the four carried buffers. -/
theorem inv6 (hi : (W5 m ρ c (Proc.devRef .tc main_v2) = val_main_v8 (F := Ideal) (x0 m c) (x2 m c) (x3 m c) (x4 m c) (x5 m c) ∧ W5 m ρ c (Proc.devRef .tc main_v6) = val_main_v12 (F := Ideal) (x1 m c) ∧ W5 m ρ c (Proc.devRef .tc main_v9) = val_main_v15 (F := Ideal) (x1 m c) ∧ W5 m ρ c (Proc.devRef .tc main_v32) = val_main_v38 (F := Ideal) (x1 m c))) : (W6 m ρ c (Proc.devRef .tc main_v2) = val_main_v8 (F := Ideal) (x0 m c) (x2 m c) (x3 m c) (x4 m c) (x5 m c) ∧ W6 m ρ c (Proc.devRef .tc main_v6) = val_main_v12 (F := Ideal) (x1 m c) ∧ W6 m ρ c (Proc.devRef .tc main_v9) = val_main_v15 (F := Ideal) (x1 m c) ∧ W6 m ρ c (Proc.devRef .tc main_v32) = val_main_v38 (F := Ideal) (x1 m c)) :=
  ⟨((W6_arr m ρ c 1).trans (((dat1 (V5 m ρ) c).arrAt_in 1 rfl _).trans (A_eq1 (V5 m ρ) c 1))).trans hi.1,
   (W6_of_ne m ρ c main_v6 (by decide)).trans hi.2.1,
   (W6_of_ne m ρ c main_v9 (by decide)).trans hi.2.2.1,
   (W6_of_ne m ρ c main_v32 (by decide)).trans hi.2.2.2⟩

/-- The host operations before region 2 gather the round-1 value along `src`, weight it and scatter-add it along `dst`:
    the reference's next aggregate. -/
theorem W7_agg (hi : (W6 m ρ c (Proc.devRef .tc main_v2) = val_main_v8 (F := Ideal) (x0 m c) (x2 m c) (x3 m c) (x4 m c) (x5 m c) ∧ W6 m ρ c (Proc.devRef .tc main_v6) = val_main_v12 (F := Ideal) (x1 m c) ∧ W6 m ρ c (Proc.devRef .tc main_v9) = val_main_v15 (F := Ideal) (x1 m c) ∧ W6 m ρ c (Proc.devRef .tc main_v32) = val_main_v38 (F := Ideal) (x1 m c))) (ho : W6 m ρ c (Proc.devRef .tc main_v46) = val_main_v56 (F := Ideal) (x0 m c) (x1 m c) (x2 m c) (x3 m c) (x4 m c) (x5 m c)) :
    W7 m ρ c (Proc.devRef .tc main_v59) = val_main_v68 (F := Ideal) (x0 m c) (x1 m c) (x2 m c) (x3 m c) (x4 m c) (x5 m c) := by
  show StableHlo.after hostOps2 (W6 m ρ c) (Proc.devRef .tc main_v59) = _
  dsimp only [hostOps2]; after_results_simp
  rw [ho, hi.2.1, hi.2.2.1, hi.2.2.2]
  simp only [val_main_v68, val_main_v66, val_main_cst_13, val_main_v67, val_main_v65, val_main_v64, val_main_v39, val_main_v63, val_main_v62, val_main_v61, val_main_v58, val_main_v57, val_main_c_11, val_main_v60, val_main_v59, val_main_c_12]
  try rfl

theorem inv7 (hi : (W6 m ρ c (Proc.devRef .tc main_v2) = val_main_v8 (F := Ideal) (x0 m c) (x2 m c) (x3 m c) (x4 m c) (x5 m c) ∧ W6 m ρ c (Proc.devRef .tc main_v6) = val_main_v12 (F := Ideal) (x1 m c) ∧ W6 m ρ c (Proc.devRef .tc main_v9) = val_main_v15 (F := Ideal) (x1 m c) ∧ W6 m ρ c (Proc.devRef .tc main_v32) = val_main_v38 (F := Ideal) (x1 m c))) : (W7 m ρ c (Proc.devRef .tc main_v2) = val_main_v8 (F := Ideal) (x0 m c) (x2 m c) (x3 m c) (x4 m c) (x5 m c) ∧ W7 m ρ c (Proc.devRef .tc main_v6) = val_main_v12 (F := Ideal) (x1 m c) ∧ W7 m ρ c (Proc.devRef .tc main_v9) = val_main_v15 (F := Ideal) (x1 m c) ∧ W7 m ρ c (Proc.devRef .tc main_v32) = val_main_v38 (F := Ideal) (x1 m c)) := by
  refine ⟨?_, ?_, ?_, ?_⟩
  · show StableHlo.after hostOps2 (W6 m ρ c) (Proc.devRef .tc main_v2) = _
    dsimp only [hostOps2]; after_results_simp; exact hi.1
  · show StableHlo.after hostOps2 (W6 m ρ c) (Proc.devRef .tc main_v6) = _
    dsimp only [hostOps2]; after_results_simp; exact hi.2.1
  · show StableHlo.after hostOps2 (W6 m ρ c) (Proc.devRef .tc main_v9) = _
    dsimp only [hostOps2]; after_results_simp; exact hi.2.2.1
  · show StableHlo.after hostOps2 (W6 m ρ c) (Proc.devRef .tc main_v32) = _
    dsimp only [hostOps2]; after_results_simp; exact hi.2.2.2

/-! ## Round 2 -/

/-- The reference's round-2 value is the teleport combination of its aggregate and `h₀`. -/
theorem ref_round2 : val_main_v73 (F := Ideal) (x0 m c) (x1 m c) (x2 m c) (x3 m c) (x4 m c) (x5 m c) = Cert.Gnn.teleport (s := S100000x64) (val_main_v68 (F := Ideal) (x0 m c) (x1 m c) (x2 m c) (x3 m c) (x4 m c) (x5 m c)) (val_main_v8 (F := Ideal) (x0 m c) (x2 m c) (x3 m c) (x4 m c) (x5 m c)) := by
  simp only [val_main_v73, val_main_v70, val_main_v69, val_main_cst_14, val_main_v72, val_main_v71, val_main_cst_15]
  funext i; rfl

/-- Region 2 leaves the round's value in its output array … -/
theorem W8_out (hi : (W7 m ρ c (Proc.devRef .tc main_v2) = val_main_v8 (F := Ideal) (x0 m c) (x2 m c) (x3 m c) (x4 m c) (x5 m c) ∧ W7 m ρ c (Proc.devRef .tc main_v6) = val_main_v12 (F := Ideal) (x1 m c) ∧ W7 m ρ c (Proc.devRef .tc main_v9) = val_main_v15 (F := Ideal) (x1 m c) ∧ W7 m ρ c (Proc.devRef .tc main_v32) = val_main_v38 (F := Ideal) (x1 m c))) (ha : W7 m ρ c (Proc.devRef .tc main_v59) = val_main_v68 (F := Ideal) (x0 m c) (x1 m c) (x2 m c) (x3 m c) (x4 m c) (x5 m c)) :
    W8 m ρ c (Proc.devRef .tc main_v60) = val_main_v73 (F := Ideal) (x0 m c) (x1 m c) (x2 m c) (x3 m c) (x4 m c) (x5 m c) := by
  refine (W8_arr m ρ c 2).trans ((Cert.Gnn.R2.array_eq (V7 m ρ) c).trans ?_)
  show Cert.Gnn.teleport (s := S100000x64) (W7 m ρ c (Proc.devRef .tc main_v59)) (W7 m ρ c (Proc.devRef .tc main_v2)) = _
  rw [ha, hi.1]
  exact (ref_round2 m c).symm

/-- … and keeps the four carried buffers. -/
theorem inv8 (hi : (W7 m ρ c (Proc.devRef .tc main_v2) = val_main_v8 (F := Ideal) (x0 m c) (x2 m c) (x3 m c) (x4 m c) (x5 m c) ∧ W7 m ρ c (Proc.devRef .tc main_v6) = val_main_v12 (F := Ideal) (x1 m c) ∧ W7 m ρ c (Proc.devRef .tc main_v9) = val_main_v15 (F := Ideal) (x1 m c) ∧ W7 m ρ c (Proc.devRef .tc main_v32) = val_main_v38 (F := Ideal) (x1 m c))) : (W8 m ρ c (Proc.devRef .tc main_v2) = val_main_v8 (F := Ideal) (x0 m c) (x2 m c) (x3 m c) (x4 m c) (x5 m c) ∧ W8 m ρ c (Proc.devRef .tc main_v6) = val_main_v12 (F := Ideal) (x1 m c) ∧ W8 m ρ c (Proc.devRef .tc main_v9) = val_main_v15 (F := Ideal) (x1 m c) ∧ W8 m ρ c (Proc.devRef .tc main_v32) = val_main_v38 (F := Ideal) (x1 m c)) :=
  ⟨((W8_arr m ρ c 1).trans (((dat2 (V7 m ρ) c).arrAt_in 1 rfl _).trans (A_eq2 (V7 m ρ) c 1))).trans hi.1,
   (W8_of_ne m ρ c main_v6 (by decide)).trans hi.2.1,
   (W8_of_ne m ρ c main_v9 (by decide)).trans hi.2.2.1,
   (W8_of_ne m ρ c main_v32 (by decide)).trans hi.2.2.2⟩

/-- The host operations before region 3 gather the round-2 value along `src`, weight it and scatter-add it along `dst`:
    the reference's next aggregate. -/
theorem W9_agg (hi : (W8 m ρ c (Proc.devRef .tc main_v2) = val_main_v8 (F := Ideal) (x0 m c) (x2 m c) (x3 m c) (x4 m c) (x5 m c) ∧ W8 m ρ c (Proc.devRef .tc main_v6) = val_main_v12 (F := Ideal) (x1 m c) ∧ W8 m ρ c (Proc.devRef .tc main_v9) = val_main_v15 (F := Ideal) (x1 m c) ∧ W8 m ρ c (Proc.devRef .tc main_v32) = val_main_v38 (F := Ideal) (x1 m c))) (ho : W8 m ρ c (Proc.devRef .tc main_v60) = val_main_v73 (F := Ideal) (x0 m c) (x1 m c) (x2 m c) (x3 m c) (x4 m c) (x5 m c)) :
    W9 m ρ c (Proc.devRef .tc main_v73) = val_main_v85 (F := Ideal) (x0 m c) (x1 m c) (x2 m c) (x3 m c) (x4 m c) (x5 m c) := by
  show StableHlo.after hostOps3 (W8 m ρ c) (Proc.devRef .tc main_v73) = _
  dsimp only [hostOps3]; after_results_simp
  rw [ho, hi.2.1, hi.2.2.1, hi.2.2.2]
  simp only [val_main_v85, val_main_v83, val_main_cst_18, val_main_v84, val_main_v82, val_main_v81, val_main_v39, val_main_v80, val_main_v79, val_main_v78, val_main_v75, val_main_v74, val_main_c_16, val_main_v77, val_main_v76, val_main_c_17]
  try rfl

theorem inv9 (hi : (W8 m ρ c (Proc.devRef .tc main_v2) = val_main_v8 (F := Ideal) (x0 m c) (x2 m c) (x3 m c) (x4 m c) (x5 m c) ∧ W8 m ρ c (Proc.devRef .tc main_v6) = val_main_v12 (F := Ideal) (x1 m c) ∧ W8 m ρ c (Proc.devRef .tc main_v9) = val_main_v15 (F := Ideal) (x1 m c) ∧ W8 m ρ c (Proc.devRef .tc main_v32) = val_main_v38 (F := Ideal) (x1 m c))) : (W9 m ρ c (Proc.devRef .tc main_v2) = val_main_v8 (F := Ideal) (x0 m c) (x2 m c) (x3 m c) (x4 m c) (x5 m c) ∧ W9 m ρ c (Proc.devRef .tc main_v6) = val_main_v12 (F := Ideal) (x1 m c) ∧ W9 m ρ c (Proc.devRef .tc main_v9) = val_main_v15 (F := Ideal) (x1 m c) ∧ W9 m ρ c (Proc.devRef .tc main_v32) = val_main_v38 (F := Ideal) (x1 m c)) := by
  refine ⟨?_, ?_, ?_, ?_⟩
  · show StableHlo.after hostOps3 (W8 m ρ c) (Proc.devRef .tc main_v2) = _
    dsimp only [hostOps3]; after_results_simp; exact hi.1
  · show StableHlo.after hostOps3 (W8 m ρ c) (Proc.devRef .tc main_v6) = _
    dsimp only [hostOps3]; after_results_simp; exact hi.2.1
  · show StableHlo.after hostOps3 (W8 m ρ c) (Proc.devRef .tc main_v9) = _
    dsimp only [hostOps3]; after_results_simp; exact hi.2.2.1
  · show StableHlo.after hostOps3 (W8 m ρ c) (Proc.devRef .tc main_v32) = _
    dsimp only [hostOps3]; after_results_simp; exact hi.2.2.2

/-! ## Round 3 -/

/-- The reference's round-3 value is the teleport combination of its aggregate and `h₀`. -/
theorem ref_round3 : val_main_v90 (F := Ideal) (x0 m c) (x1 m c) (x2 m c) (x3 m c) (x4 m c) (x5 m c) = Cert.Gnn.teleport (s := S100000x64) (val_main_v85 (F := Ideal) (x0 m c) (x1 m c) (x2 m c) (x3 m c) (x4 m c) (x5 m c)) (val_main_v8 (F := Ideal) (x0 m c) (x2 m c) (x3 m c) (x4 m c) (x5 m c)) := by
  simp only [val_main_v90, val_main_v87, val_main_v86, val_main_cst_19, val_main_v89, val_main_v88, val_main_cst_20]
  funext i; rfl

/-- Region 3 leaves the round's value in its output array … -/
theorem W10_out (hi : (W9 m ρ c (Proc.devRef .tc main_v2) = val_main_v8 (F := Ideal) (x0 m c) (x2 m c) (x3 m c) (x4 m c) (x5 m c) ∧ W9 m ρ c (Proc.devRef .tc main_v6) = val_main_v12 (F := Ideal) (x1 m c) ∧ W9 m ρ c (Proc.devRef .tc main_v9) = val_main_v15 (F := Ideal) (x1 m c) ∧ W9 m ρ c (Proc.devRef .tc main_v32) = val_main_v38 (F := Ideal) (x1 m c))) (ha : W9 m ρ c (Proc.devRef .tc main_v73) = val_main_v85 (F := Ideal) (x0 m c) (x1 m c) (x2 m c) (x3 m c) (x4 m c) (x5 m c)) :
    W10 m ρ c (Proc.devRef .tc main_v74) = val_main_v90 (F := Ideal) (x0 m c) (x1 m c) (x2 m c) (x3 m c) (x4 m c) (x5 m c) := by
  refine (W10_arr m ρ c 2).trans ((Cert.Gnn.R3.array_eq (V9 m ρ) c).trans ?_)
  show Cert.Gnn.teleport (s := S100000x64) (W9 m ρ c (Proc.devRef .tc main_v73)) (W9 m ρ c (Proc.devRef .tc main_v2)) = _
  rw [ha, hi.1]
  exact (ref_round3 m c).symm

/-- … and keeps the four carried buffers. -/
theorem inv10 (hi : (W9 m ρ c (Proc.devRef .tc main_v2) = val_main_v8 (F := Ideal) (x0 m c) (x2 m c) (x3 m c) (x4 m c) (x5 m c) ∧ W9 m ρ c (Proc.devRef .tc main_v6) = val_main_v12 (F := Ideal) (x1 m c) ∧ W9 m ρ c (Proc.devRef .tc main_v9) = val_main_v15 (F := Ideal) (x1 m c) ∧ W9 m ρ c (Proc.devRef .tc main_v32) = val_main_v38 (F := Ideal) (x1 m c))) : (W10 m ρ c (Proc.devRef .tc main_v2) = val_main_v8 (F := Ideal) (x0 m c) (x2 m c) (x3 m c) (x4 m c) (x5 m c) ∧ W10 m ρ c (Proc.devRef .tc main_v6) = val_main_v12 (F := Ideal) (x1 m c) ∧ W10 m ρ c (Proc.devRef .tc main_v9) = val_main_v15 (F := Ideal) (x1 m c) ∧ W10 m ρ c (Proc.devRef .tc main_v32) = val_main_v38 (F := Ideal) (x1 m c)) :=
  ⟨((W10_arr m ρ c 1).trans (((dat3 (V9 m ρ) c).arrAt_in 1 rfl _).trans (A_eq3 (V9 m ρ) c 1))).trans hi.1,
   (W10_of_ne m ρ c main_v6 (by decide)).trans hi.2.1,
   (W10_of_ne m ρ c main_v9 (by decide)).trans hi.2.2.1,
   (W10_of_ne m ρ c main_v32 (by decide)).trans hi.2.2.2⟩

/-- The host operations before region 4 gather the round-3 value along `src`, weight it and scatter-add it along `dst`:
    the reference's next aggregate. -/
theorem W11_agg (hi : (W10 m ρ c (Proc.devRef .tc main_v2) = val_main_v8 (F := Ideal) (x0 m c) (x2 m c) (x3 m c) (x4 m c) (x5 m c) ∧ W10 m ρ c (Proc.devRef .tc main_v6) = val_main_v12 (F := Ideal) (x1 m c) ∧ W10 m ρ c (Proc.devRef .tc main_v9) = val_main_v15 (F := Ideal) (x1 m c) ∧ W10 m ρ c (Proc.devRef .tc main_v32) = val_main_v38 (F := Ideal) (x1 m c))) (ho : W10 m ρ c (Proc.devRef .tc main_v74) = val_main_v90 (F := Ideal) (x0 m c) (x1 m c) (x2 m c) (x3 m c) (x4 m c) (x5 m c)) :
    W11 m ρ c (Proc.devRef .tc main_v87) = val_main_v102 (F := Ideal) (x0 m c) (x1 m c) (x2 m c) (x3 m c) (x4 m c) (x5 m c) := by
  show StableHlo.after hostOps4 (W10 m ρ c) (Proc.devRef .tc main_v87) = _
  dsimp only [hostOps4]; after_results_simp
  rw [ho, hi.2.1, hi.2.2.1, hi.2.2.2]
  simp only [val_main_v102, val_main_v100, val_main_cst_23, val_main_v101, val_main_v99, val_main_v98, val_main_v39, val_main_v97, val_main_v96, val_main_v95, val_main_v92, val_main_v91, val_main_c_21, val_main_v94, val_main_v93, val_main_c_22]
  try rfl

theorem inv11 (hi : (W10 m ρ c (Proc.devRef .tc main_v2) = val_main_v8 (F := Ideal) (x0 m c) (x2 m c) (x3 m c) (x4 m c) (x5 m c) ∧ W10 m ρ c (Proc.devRef .tc main_v6) = val_main_v12 (F := Ideal) (x1 m c) ∧ W10 m ρ c (Proc.devRef .tc main_v9) = val_main_v15 (F := Ideal) (x1 m c) ∧ W10 m ρ c (Proc.devRef .tc main_v32) = val_main_v38 (F := Ideal) (x1 m c))) : (W11 m ρ c (Proc.devRef .tc main_v2) = val_main_v8 (F := Ideal) (x0 m c) (x2 m c) (x3 m c) (x4 m c) (x5 m c) ∧ W11 m ρ c (Proc.devRef .tc main_v6) = val_main_v12 (F := Ideal) (x1 m c) ∧ W11 m ρ c (Proc.devRef .tc main_v9) = val_main_v15 (F := Ideal) (x1 m c) ∧ W11 m ρ c (Proc.devRef .tc main_v32) = val_main_v38 (F := Ideal) (x1 m c)) := by
  refine ⟨?_, ?_, ?_, ?_⟩
  · show StableHlo.after hostOps4 (W10 m ρ c) (Proc.devRef .tc main_v2) = _
    dsimp only [hostOps4]; after_results_simp; exact hi.1
  · show StableHlo.after hostOps4 (W10 m ρ c) (Proc.devRef .tc main_v6) = _
    dsimp only [hostOps4]; after_results_simp; exact hi.2.1
  · show StableHlo.after hostOps4 (W10 m ρ c) (Proc.devRef .tc main_v9) = _
    dsimp only [hostOps4]; after_results_simp; exact hi.2.2.1
  · show StableHlo.after hostOps4 (W10 m ρ c) (Proc.devRef .tc main_v32) = _
    dsimp only [hostOps4]; after_results_simp; exact hi.2.2.2

/-! ## Round 4 -/

/-- The reference's round-4 value is the teleport combination of its aggregate and `h₀`. -/
theorem ref_round4 : val_main_v107 (F := Ideal) (x0 m c) (x1 m c) (x2 m c) (x3 m c) (x4 m c) (x5 m c) = Cert.Gnn.teleport (s := S100000x64) (val_main_v102 (F := Ideal) (x0 m c) (x1 m c) (x2 m c) (x3 m c) (x4 m c) (x5 m c)) (val_main_v8 (F := Ideal) (x0 m c) (x2 m c) (x3 m c) (x4 m c) (x5 m c)) := by
  simp only [val_main_v107, val_main_v104, val_main_v103, val_main_cst_24, val_main_v106, val_main_v105, val_main_cst_25]
  funext i; rfl

/-- Region 4 leaves the round's value in its output array … -/
theorem W12_out (hi : (W11 m ρ c (Proc.devRef .tc main_v2) = val_main_v8 (F := Ideal) (x0 m c) (x2 m c) (x3 m c) (x4 m c) (x5 m c) ∧ W11 m ρ c (Proc.devRef .tc main_v6) = val_main_v12 (F := Ideal) (x1 m c) ∧ W11 m ρ c (Proc.devRef .tc main_v9) = val_main_v15 (F := Ideal) (x1 m c) ∧ W11 m ρ c (Proc.devRef .tc main_v32) = val_main_v38 (F := Ideal) (x1 m c))) (ha : W11 m ρ c (Proc.devRef .tc main_v87) = val_main_v102 (F := Ideal) (x0 m c) (x1 m c) (x2 m c) (x3 m c) (x4 m c) (x5 m c)) :
    W12 m ρ c (Proc.devRef .tc main_v88) = val_main_v107 (F := Ideal) (x0 m c) (x1 m c) (x2 m c) (x3 m c) (x4 m c) (x5 m c) := by
  refine (W12_arr m ρ c 2).trans ((Cert.Gnn.R4.array_eq (V11 m ρ) c).trans ?_)
  show Cert.Gnn.teleport (s := S100000x64) (W11 m ρ c (Proc.devRef .tc main_v87)) (W11 m ρ c (Proc.devRef .tc main_v2)) = _
  rw [ha, hi.1]
  exact (ref_round4 m c).symm

/-- … and keeps the four carried buffers. -/
theorem inv12 (hi : (W11 m ρ c (Proc.devRef .tc main_v2) = val_main_v8 (F := Ideal) (x0 m c) (x2 m c) (x3 m c) (x4 m c) (x5 m c) ∧ W11 m ρ c (Proc.devRef .tc main_v6) = val_main_v12 (F := Ideal) (x1 m c) ∧ W11 m ρ c (Proc.devRef .tc main_v9) = val_main_v15 (F := Ideal) (x1 m c) ∧ W11 m ρ c (Proc.devRef .tc main_v32) = val_main_v38 (F := Ideal) (x1 m c))) : (W12 m ρ c (Proc.devRef .tc main_v2) = val_main_v8 (F := Ideal) (x0 m c) (x2 m c) (x3 m c) (x4 m c) (x5 m c) ∧ W12 m ρ c (Proc.devRef .tc main_v6) = val_main_v12 (F := Ideal) (x1 m c) ∧ W12 m ρ c (Proc.devRef .tc main_v9) = val_main_v15 (F := Ideal) (x1 m c) ∧ W12 m ρ c (Proc.devRef .tc main_v32) = val_main_v38 (F := Ideal) (x1 m c)) :=
  ⟨((W12_arr m ρ c 1).trans (((dat4 (V11 m ρ) c).arrAt_in 1 rfl _).trans (A_eq4 (V11 m ρ) c 1))).trans hi.1,
   (W12_of_ne m ρ c main_v6 (by decide)).trans hi.2.1,
   (W12_of_ne m ρ c main_v9 (by decide)).trans hi.2.2.1,
   (W12_of_ne m ρ c main_v32 (by decide)).trans hi.2.2.2⟩

/-- The host operations before region 5 gather the round-4 value along `src`, weight it and scatter-add it along `dst`:
    the reference's next aggregate. -/
theorem W13_agg (hi : (W12 m ρ c (Proc.devRef .tc main_v2) = val_main_v8 (F := Ideal) (x0 m c) (x2 m c) (x3 m c) (x4 m c) (x5 m c) ∧ W12 m ρ c (Proc.devRef .tc main_v6) = val_main_v12 (F := Ideal) (x1 m c) ∧ W12 m ρ c (Proc.devRef .tc main_v9) = val_main_v15 (F := Ideal) (x1 m c) ∧ W12 m ρ c (Proc.devRef .tc main_v32) = val_main_v38 (F := Ideal) (x1 m c))) (ho : W12 m ρ c (Proc.devRef .tc main_v88) = val_main_v107 (F := Ideal) (x0 m c) (x1 m c) (x2 m c) (x3 m c) (x4 m c) (x5 m c)) :
    W13 m ρ c (Proc.devRef .tc main_v101) = val_main_v119 (F := Ideal) (x0 m c) (x1 m c) (x2 m c) (x3 m c) (x4 m c) (x5 m c) := by
  show StableHlo.after hostOps5 (W12 m ρ c) (Proc.devRef .tc main_v101) = _
  dsimp only [hostOps5]; after_results_simp
  rw [ho, hi.2.1, hi.2.2.1, hi.2.2.2]
  simp only [val_main_v119, val_main_v117, val_main_cst_28, val_main_v118, val_main_v116, val_main_v115, val_main_v39, val_main_v114, val_main_v113, val_main_v112, val_main_v109, val_main_v108, val_main_c_26, val_main_v111, val_main_v110, val_main_c_27]
  try rfl

theorem inv13 (hi : (W12 m ρ c (Proc.devRef .tc main_v2) = val_main_v8 (F := Ideal) (x0 m c) (x2 m c) (x3 m c) (x4 m c) (x5 m c) ∧ W12 m ρ c (Proc.devRef .tc main_v6) = val_main_v12 (F := Ideal) (x1 m c) ∧ W12 m ρ c (Proc.devRef .tc main_v9) = val_main_v15 (F := Ideal) (x1 m c) ∧ W12 m ρ c (Proc.devRef .tc main_v32) = val_main_v38 (F := Ideal) (x1 m c))) : (W13 m ρ c (Proc.devRef .tc main_v2) = val_main_v8 (F := Ideal) (x0 m c) (x2 m c) (x3 m c) (x4 m c) (x5 m c) ∧ W13 m ρ c (Proc.devRef .tc main_v6) = val_main_v12 (F := Ideal) (x1 m c) ∧ W13 m ρ c (Proc.devRef .tc main_v9) = val_main_v15 (F := Ideal) (x1 m c) ∧ W13 m ρ c (Proc.devRef .tc main_v32) = val_main_v38 (F := Ideal) (x1 m c)) := by
  refine ⟨?_, ?_, ?_, ?_⟩
  · show StableHlo.after hostOps5 (W12 m ρ c) (Proc.devRef .tc main_v2) = _
    dsimp only [hostOps5]; after_results_simp; exact hi.1
  · show StableHlo.after hostOps5 (W12 m ρ c) (Proc.devRef .tc main_v6) = _
    dsimp only [hostOps5]; after_results_simp; exact hi.2.1
  · show StableHlo.after hostOps5 (W12 m ρ c) (Proc.devRef .tc main_v9) = _
    dsimp only [hostOps5]; after_results_simp; exact hi.2.2.1
  · show StableHlo.after hostOps5 (W12 m ρ c) (Proc.devRef .tc main_v32) = _
    dsimp only [hostOps5]; after_results_simp; exact hi.2.2.2

/-! ## Round 5 -/

/-- The reference's round-5 value is the teleport combination of its aggregate and `h₀`. -/
theorem ref_round5 : val_main_v124 (F := Ideal) (x0 m c) (x1 m c) (x2 m c) (x3 m c) (x4 m c) (x5 m c) = Cert.Gnn.teleport (s := S100000x64) (val_main_v119 (F := Ideal) (x0 m c) (x1 m c) (x2 m c) (x3 m c) (x4 m c) (x5 m c)) (val_main_v8 (F := Ideal) (x0 m c) (x2 m c) (x3 m c) (x4 m c) (x5 m c)) := by
  simp only [val_main_v124, val_main_v121, val_main_v120, val_main_cst_29, val_main_v123, val_main_v122, val_main_cst_30]
  funext i; rfl

/-- Region 5 leaves the round's value in its output array … -/
theorem W14_out (hi : (W13 m ρ c (Proc.devRef .tc main_v2) = val_main_v8 (F := Ideal) (x0 m c) (x2 m c) (x3 m c) (x4 m c) (x5 m c) ∧ W13 m ρ c (Proc.devRef .tc main_v6) = val_main_v12 (F := Ideal) (x1 m c) ∧ W13 m ρ c (Proc.devRef .tc main_v9) = val_main_v15 (F := Ideal) (x1 m c) ∧ W13 m ρ c (Proc.devRef .tc main_v32) = val_main_v38 (F := Ideal) (x1 m c))) (ha : W13 m ρ c (Proc.devRef .tc main_v101) = val_main_v119 (F := Ideal) (x0 m c) (x1 m c) (x2 m c) (x3 m c) (x4 m c) (x5 m c)) :
    W14 m ρ c (Proc.devRef .tc main_v102) = val_main_v124 (F := Ideal) (x0 m c) (x1 m c) (x2 m c) (x3 m c) (x4 m c) (x5 m c) := by
  refine (W14_arr m ρ c 2).trans ((Cert.Gnn.R5.array_eq (V13 m ρ) c).trans ?_)
  show Cert.Gnn.teleport (s := S100000x64) (W13 m ρ c (Proc.devRef .tc main_v101)) (W13 m ρ c (Proc.devRef .tc main_v2)) = _
  rw [ha, hi.1]
  exact (ref_round5 m c).symm

/-- … and keeps the four carried buffers. -/
theorem inv14 (hi : (W13 m ρ c (Proc.devRef .tc main_v2) = val_main_v8 (F := Ideal) (x0 m c) (x2 m c) (x3 m c) (x4 m c) (x5 m c) ∧ W13 m ρ c (Proc.devRef .tc main_v6) = val_main_v12 (F := Ideal) (x1 m c) ∧ W13 m ρ c (Proc.devRef .tc main_v9) = val_main_v15 (F := Ideal) (x1 m c) ∧ W13 m ρ c (Proc.devRef .tc main_v32) = val_main_v38 (F := Ideal) (x1 m c))) : (W14 m ρ c (Proc.devRef .tc main_v2) = val_main_v8 (F := Ideal) (x0 m c) (x2 m c) (x3 m c) (x4 m c) (x5 m c) ∧ W14 m ρ c (Proc.devRef .tc main_v6) = val_main_v12 (F := Ideal) (x1 m c) ∧ W14 m ρ c (Proc.devRef .tc main_v9) = val_main_v15 (F := Ideal) (x1 m c) ∧ W14 m ρ c (Proc.devRef .tc main_v32) = val_main_v38 (F := Ideal) (x1 m c)) :=
  ⟨((W14_arr m ρ c 1).trans (((dat5 (V13 m ρ) c).arrAt_in 1 rfl _).trans (A_eq5 (V13 m ρ) c 1))).trans hi.1,
   (W14_of_ne m ρ c main_v6 (by decide)).trans hi.2.1,
   (W14_of_ne m ρ c main_v9 (by decide)).trans hi.2.2.1,
   (W14_of_ne m ρ c main_v32 (by decide)).trans hi.2.2.2⟩

/-- The host operations before region 6 gather the round-5 value along `src`, weight it and scatter-add it along `dst`:
    the reference's next aggregate. -/
theorem W15_agg (hi : (W14 m ρ c (Proc.devRef .tc main_v2) = val_main_v8 (F := Ideal) (x0 m c) (x2 m c) (x3 m c) (x4 m c) (x5 m c) ∧ W14 m ρ c (Proc.devRef .tc main_v6) = val_main_v12 (F := Ideal) (x1 m c) ∧ W14 m ρ c (Proc.devRef .tc main_v9) = val_main_v15 (F := Ideal) (x1 m c) ∧ W14 m ρ c (Proc.devRef .tc main_v32) = val_main_v38 (F := Ideal) (x1 m c))) (ho : W14 m ρ c (Proc.devRef .tc main_v102) = val_main_v124 (F := Ideal) (x0 m c) (x1 m c) (x2 m c) (x3 m c) (x4 m c) (x5 m c)) :
    W15 m ρ c (Proc.devRef .tc main_v115) = val_main_v136 (F := Ideal) (x0 m c) (x1 m c) (x2 m c) (x3 m c) (x4 m c) (x5 m c) := by
  show StableHlo.after hostOps6 (W14 m ρ c) (Proc.devRef .tc main_v115) = _
  dsimp only [hostOps6]; after_results_simp
  rw [ho, hi.2.1, hi.2.2.1, hi.2.2.2]
  simp only [val_main_v136, val_main_v134, val_main_cst_33, val_main_v135, val_main_v133, val_main_v132, val_main_v39, val_main_v131, val_main_v130, val_main_v129, val_main_v126, val_main_v125, val_main_c_31, val_main_v128, val_main_v127, val_main_c_32]
  try rfl

theorem inv15 (hi : (W14 m ρ c (Proc.devRef .tc main_v2) = val_main_v8 (F := Ideal) (x0 m c) (x2 m c) (x3 m c) (x4 m c) (x5 m c) ∧ W14 m ρ c (Proc.devRef .tc main_v6) = val_main_v12 (F := Ideal) (x1 m c) ∧ W14 m ρ c (Proc.devRef .tc main_v9) = val_main_v15 (F := Ideal) (x1 m c) ∧ W14 m ρ c (Proc.devRef .tc main_v32) = val_main_v38 (F := Ideal) (x1 m c))) : (W15 m ρ c (Proc.devRef .tc main_v2) = val_main_v8 (F := Ideal) (x0 m c) (x2 m c) (x3 m c) (x4 m c) (x5 m c) ∧ W15 m ρ c (Proc.devRef .tc main_v6) = val_main_v12 (F := Ideal) (x1 m c) ∧ W15 m ρ c (Proc.devRef .tc main_v9) = val_main_v15 (F := Ideal) (x1 m c) ∧ W15 m ρ c (Proc.devRef .tc main_v32) = val_main_v38 (F := Ideal) (x1 m c)) := by
  refine ⟨?_, ?_, ?_, ?_⟩
  · show StableHlo.after hostOps6 (W14 m ρ c) (Proc.devRef .tc main_v2) = _
    dsimp only [hostOps6]; after_results_simp; exact hi.1
  · show StableHlo.after hostOps6 (W14 m ρ c) (Proc.devRef .tc main_v6) = _
    dsimp only [hostOps6]; after_results_simp; exact hi.2.1
  · show StableHlo.after hostOps6 (W14 m ρ c) (Proc.devRef .tc main_v9) = _
    dsimp only [hostOps6]; after_results_simp; exact hi.2.2.1
  · show StableHlo.after hostOps6 (W14 m ρ c) (Proc.devRef .tc main_v32) = _
    dsimp only [hostOps6]; after_results_simp; exact hi.2.2.2

/-! ## Round 6 -/

/-- The reference's round-6 value is the teleport combination of its aggregate and `h₀`. -/
theorem ref_round6 : val_main_v141 (F := Ideal) (x0 m c) (x1 m c) (x2 m c) (x3 m c) (x4 m c) (x5 m c) = Cert.Gnn.teleport (s := S100000x64) (val_main_v136 (F := Ideal) (x0 m c) (x1 m c) (x2 m c) (x3 m c) (x4 m c) (x5 m c)) (val_main_v8 (F := Ideal) (x0 m c) (x2 m c) (x3 m c) (x4 m c) (x5 m c)) := by
  simp only [val_main_v141, val_main_v138, val_main_v137, val_main_cst_34, val_main_v140, val_main_v139, val_main_cst_35]
  funext i; rfl

/-- Region 6 leaves the round's value in its output array … -/
theorem W16_out (hi : (W15 m ρ c (Proc.devRef .tc main_v2) = val_main_v8 (F := Ideal) (x0 m c) (x2 m c) (x3 m c) (x4 m c) (x5 m c) ∧ W15 m ρ c (Proc.devRef .tc main_v6) = val_main_v12 (F := Ideal) (x1 m c) ∧ W15 m ρ c (Proc.devRef .tc main_v9) = val_main_v15 (F := Ideal) (x1 m c) ∧ W15 m ρ c (Proc.devRef .tc main_v32) = val_main_v38 (F := Ideal) (x1 m c))) (ha : W15 m ρ c (Proc.devRef .tc main_v115) = val_main_v136 (F := Ideal) (x0 m c) (x1 m c) (x2 m c) (x3 m c) (x4 m c) (x5 m c)) :
    W16 m ρ c (Proc.devRef .tc main_v116) = val_main_v141 (F := Ideal) (x0 m c) (x1 m c) (x2 m c) (x3 m c) (x4 m c) (x5 m c) := by
  refine (W16_arr m ρ c 2).trans ((Cert.Gnn.R6.array_eq (V15 m ρ) c).trans ?_)
  show Cert.Gnn.teleport (s := S100000x64) (W15 m ρ c (Proc.devRef .tc main_v115)) (W15 m ρ c (Proc.devRef .tc main_v2)) = _
  rw [ha, hi.1]
  exact (ref_round6 m c).symm

/-- … and keeps the four carried buffers. -/
theorem inv16 (hi : (W15 m ρ c (Proc.devRef .tc main_v2) = val_main_v8 (F := Ideal) (x0 m c) (x2 m c) (x3 m c) (x4 m c) (x5 m c) ∧ W15 m ρ c (Proc.devRef .tc main_v6) = val_main_v12 (F := Ideal) (x1 m c) ∧ W15 m ρ c (Proc.devRef .tc main_v9) = val_main_v15 (F := Ideal) (x1 m c) ∧ W15 m ρ c (Proc.devRef .tc main_v32) = val_main_v38 (F := Ideal) (x1 m c))) : (W16 m ρ c (Proc.devRef .tc main_v2) = val_main_v8 (F := Ideal) (x0 m c) (x2 m c) (x3 m c) (x4 m c) (x5 m c) ∧ W16 m ρ c (Proc.devRef .tc main_v6) = val_main_v12 (F := Ideal) (x1 m c) ∧ W16 m ρ c (Proc.devRef .tc main_v9) = val_main_v15 (F := Ideal) (x1 m c) ∧ W16 m ρ c (Proc.devRef .tc main_v32) = val_main_v38 (F := Ideal) (x1 m c)) :=
  ⟨((W16_arr m ρ c 1).trans (((dat6 (V15 m ρ) c).arrAt_in 1 rfl _).trans (A_eq6 (V15 m ρ) c 1))).trans hi.1,
   (W16_of_ne m ρ c main_v6 (by decide)).trans hi.2.1,
   (W16_of_ne m ρ c main_v9 (by decide)).trans hi.2.2.1,
   (W16_of_ne m ρ c main_v32 (by decide)).trans hi.2.2.2⟩

/-- The host operations before region 7 gather the round-6 value along `src`, weight it and scatter-add it along `dst`:
    the reference's next aggregate. -/
theorem W17_agg (hi : (W16 m ρ c (Proc.devRef .tc main_v2) = val_main_v8 (F := Ideal) (x0 m c) (x2 m c) (x3 m c) (x4 m c) (x5 m c) ∧ W16 m ρ c (Proc.devRef .tc main_v6) = val_main_v12 (F := Ideal) (x1 m c) ∧ W16 m ρ c (Proc.devRef .tc main_v9) = val_main_v15 (F := Ideal) (x1 m c) ∧ W16 m ρ c (Proc.devRef .tc main_v32) = val_main_v38 (F := Ideal) (x1 m c))) (ho : W16 m ρ c (Proc.devRef .tc main_v116) = val_main_v141 (F := Ideal) (x0 m c) (x1 m c) (x2 m c) (x3 m c) (x4 m c) (x5 m c)) :
    W17 m ρ c (Proc.devRef .tc main_v129) = val_main_v153 (F := Ideal) (x0 m c) (x1 m c) (x2 m c) (x3 m c) (x4 m c) (x5 m c) := by
  show StableHlo.after hostOps7 (W16 m ρ c) (Proc.devRef .tc main_v129) = _
  dsimp only [hostOps7]; after_results_simp
  rw [ho, hi.2.1, hi.2.2.1, hi.2.2.2]
  simp only [val_main_v153, val_main_v151, val_main_cst_38, val_main_v152, val_main_v150, val_main_v149, val_main_v39, val_main_v148, val_main_v147, val_main_v146, val_main_v143, val_main_v142, val_main_c_36, val_main_v145, val_main_v144, val_main_c_37]
  try rfl

theorem inv17 (hi : (W16 m ρ c (Proc.devRef .tc main_v2) = val_main_v8 (F := Ideal) (x0 m c) (x2 m c) (x3 m c) (x4 m c) (x5 m c) ∧ W16 m ρ c (Proc.devRef .tc main_v6) = val_main_v12 (F := Ideal) (x1 m c) ∧ W16 m ρ c (Proc.devRef .tc main_v9) = val_main_v15 (F := Ideal) (x1 m c) ∧ W16 m ρ c (Proc.devRef .tc main_v32) = val_main_v38 (F := Ideal) (x1 m c))) : (W17 m ρ c (Proc.devRef .tc main_v2) = val_main_v8 (F := Ideal) (x0 m c) (x2 m c) (x3 m c) (x4 m c) (x5 m c) ∧ W17 m ρ c (Proc.devRef .tc main_v6) = val_main_v12 (F := Ideal) (x1 m c) ∧ W17 m ρ c (Proc.devRef .tc main_v9) = val_main_v15 (F := Ideal) (x1 m c) ∧ W17 m ρ c (Proc.devRef .tc main_v32) = val_main_v38 (F := Ideal) (x1 m c)) := by
  refine ⟨?_, ?_, ?_, ?_⟩
  · show StableHlo.after hostOps7 (W16 m ρ c) (Proc.devRef .tc main_v2) = _
    dsimp only [hostOps7]; after_results_simp; exact hi.1
  · show StableHlo.after hostOps7 (W16 m ρ c) (Proc.devRef .tc main_v6) = _
    dsimp only [hostOps7]; after_results_simp; exact hi.2.1
  · show StableHlo.after hostOps7 (W16 m ρ c) (Proc.devRef .tc main_v9) = _
    dsimp only [hostOps7]; after_results_simp; exact hi.2.2.1
  · show StableHlo.after hostOps7 (W16 m ρ c) (Proc.devRef .tc main_v32) = _
    dsimp only [hostOps7]; after_results_simp; exact hi.2.2.2

/-! ## Round 7 -/

/-- The reference's round-7 value is the teleport combination of its aggregate and `h₀`. -/
theorem ref_round7 : val_main_v158 (F := Ideal) (x0 m c) (x1 m c) (x2 m c) (x3 m c) (x4 m c) (x5 m c) = Cert.Gnn.teleport (s := S100000x64) (val_main_v153 (F := Ideal) (x0 m c) (x1 m c) (x2 m c) (x3 m c) (x4 m c) (x5 m c)) (val_main_v8 (F := Ideal) (x0 m c) (x2 m c) (x3 m c) (x4 m c) (x5 m c)) := by
  simp only [val_main_v158, val_main_v155, val_main_v154, val_main_cst_39, val_main_v157, val_main_v156, val_main_cst_40]
  funext i; rfl

/-- Region 7 leaves the round's value in its output array … -/
theorem W18_out (hi : (W17 m ρ c (Proc.devRef .tc main_v2) = val_main_v8 (F := Ideal) (x0 m c) (x2 m c) (x3 m c) (x4 m c) (x5 m c) ∧ W17 m ρ c (Proc.devRef .tc main_v6) = val_main_v12 (F := Ideal) (x1 m c) ∧ W17 m ρ c (Proc.devRef .tc main_v9) = val_main_v15 (F := Ideal) (x1 m c) ∧ W17 m ρ c (Proc.devRef .tc main_v32) = val_main_v38 (F := Ideal) (x1 m c))) (ha : W17 m ρ c (Proc.devRef .tc main_v129) = val_main_v153 (F := Ideal) (x0 m c) (x1 m c) (x2 m c) (x3 m c) (x4 m c) (x5 m c)) :
    W18 m ρ c (Proc.devRef .tc main_v130) = val_main_v158 (F := Ideal) (x0 m c) (x1 m c) (x2 m c) (x3 m c) (x4 m c) (x5 m c) := by
  refine (W18_arr m ρ c 2).trans ((Cert.Gnn.R7.array_eq (V17 m ρ) c).trans ?_)
  show Cert.Gnn.teleport (s := S100000x64) (W17 m ρ c (Proc.devRef .tc main_v129)) (W17 m ρ c (Proc.devRef .tc main_v2)) = _
  rw [ha, hi.1]
  exact (ref_round7 m c).symm

/-- … and keeps the four carried buffers. -/
theorem inv18 (hi : (W17 m ρ c (Proc.devRef .tc main_v2) = val_main_v8 (F := Ideal) (x0 m c) (x2 m c) (x3 m c) (x4 m c) (x5 m c) ∧ W17 m ρ c (Proc.devRef .tc main_v6) = val_main_v12 (F := Ideal) (x1 m c) ∧ W17 m ρ c (Proc.devRef .tc main_v9) = val_main_v15 (F := Ideal) (x1 m c) ∧ W17 m ρ c (Proc.devRef .tc main_v32) = val_main_v38 (F := Ideal) (x1 m c))) : (W18 m ρ c (Proc.devRef .tc main_v2) = val_main_v8 (F := Ideal) (x0 m c) (x2 m c) (x3 m c) (x4 m c) (x5 m c) ∧ W18 m ρ c (Proc.devRef .tc main_v6) = val_main_v12 (F := Ideal) (x1 m c) ∧ W18 m ρ c (Proc.devRef .tc main_v9) = val_main_v15 (F := Ideal) (x1 m c) ∧ W18 m ρ c (Proc.devRef .tc main_v32) = val_main_v38 (F := Ideal) (x1 m c)) :=
  ⟨((W18_arr m ρ c 1).trans (((dat7 (V17 m ρ) c).arrAt_in 1 rfl _).trans (A_eq7 (V17 m ρ) c 1))).trans hi.1,
   (W18_of_ne m ρ c main_v6 (by decide)).trans hi.2.1,
   (W18_of_ne m ρ c main_v9 (by decide)).trans hi.2.2.1,
   (W18_of_ne m ρ c main_v32 (by decide)).trans hi.2.2.2⟩

/-- The host operations before region 8 gather the round-7 value along `src`, weight it and scatter-add it along `dst`:
    the reference's next aggregate. -/
theorem W19_agg (hi : (W18 m ρ c (Proc.devRef .tc main_v2) = val_main_v8 (F := Ideal) (x0 m c) (x2 m c) (x3 m c) (x4 m c) (x5 m c) ∧ W18 m ρ c (Proc.devRef .tc main_v6) = val_main_v12 (F := Ideal) (x1 m c) ∧ W18 m ρ c (Proc.devRef .tc main_v9) = val_main_v15 (F := Ideal) (x1 m c) ∧ W18 m ρ c (Proc.devRef .tc main_v32) = val_main_v38 (F := Ideal) (x1 m c))) (ho : W18 m ρ c (Proc.devRef .tc main_v130) = val_main_v158 (F := Ideal) (x0 m c) (x1 m c) (x2 m c) (x3 m c) (x4 m c) (x5 m c)) :
    W19 m ρ c (Proc.devRef .tc main_v143) = val_main_v170 (F := Ideal) (x0 m c) (x1 m c) (x2 m c) (x3 m c) (x4 m c) (x5 m c) := by
  show StableHlo.after hostOps8 (W18 m ρ c) (Proc.devRef .tc main_v143) = _
  dsimp only [hostOps8]; after_results_simp
  rw [ho, hi.2.1, hi.2.2.1, hi.2.2.2]
  simp only [val_main_v170, val_main_v168, val_main_cst_43, val_main_v169, val_main_v167, val_main_v166, val_main_v39, val_main_v165, val_main_v164, val_main_v163, val_main_v160, val_main_v159, val_main_c_41, val_main_v162, val_main_v161, val_main_c_42]
  try rfl

theorem inv19 (hi : (W18 m ρ c (Proc.devRef .tc main_v2) = val_main_v8 (F := Ideal) (x0 m c) (x2 m c) (x3 m c) (x4 m c) (x5 m c) ∧ W18 m ρ c (Proc.devRef .tc main_v6) = val_main_v12 (F := Ideal) (x1 m c) ∧ W18 m ρ c (Proc.devRef .tc main_v9) = val_main_v15 (F := Ideal) (x1 m c) ∧ W18 m ρ c (Proc.devRef .tc main_v32) = val_main_v38 (F := Ideal) (x1 m c))) : (W19 m ρ c (Proc.devRef .tc main_v2) = val_main_v8 (F := Ideal) (x0 m c) (x2 m c) (x3 m c) (x4 m c) (x5 m c) ∧ W19 m ρ c (Proc.devRef .tc main_v6) = val_main_v12 (F := Ideal) (x1 m c) ∧ W19 m ρ c (Proc.devRef .tc main_v9) = val_main_v15 (F := Ideal) (x1 m c) ∧ W19 m ρ c (Proc.devRef .tc main_v32) = val_main_v38 (F := Ideal) (x1 m c)) := by
  refine ⟨?_, ?_, ?_, ?_⟩
  · show StableHlo.after hostOps8 (W18 m ρ c) (Proc.devRef .tc main_v2) = _
    dsimp only [hostOps8]; after_results_simp; exact hi.1
  · show StableHlo.after hostOps8 (W18 m ρ c) (Proc.devRef .tc main_v6) = _
    dsimp only [hostOps8]; after_results_simp; exact hi.2.1
  · show StableHlo.after hostOps8 (W18 m ρ c) (Proc.devRef .tc main_v9) = _
    dsimp only [hostOps8]; after_results_simp; exact hi.2.2.1
  · show StableHlo.after hostOps8 (W18 m ρ c) (Proc.devRef .tc main_v32) = _
    dsimp only [hostOps8]; after_results_simp; exact hi.2.2.2

/-! ## Round 8 -/

/-- The reference's round-8 value is the teleport combination of its aggregate and `h₀`. -/
theorem ref_round8 : val_main_v175 (F := Ideal) (x0 m c) (x1 m c) (x2 m c) (x3 m c) (x4 m c) (x5 m c) = Cert.Gnn.teleport (s := S100000x64) (val_main_v170 (F := Ideal) (x0 m c) (x1 m c) (x2 m c) (x3 m c) (x4 m c) (x5 m c)) (val_main_v8 (F := Ideal) (x0 m c) (x2 m c) (x3 m c) (x4 m c) (x5 m c)) := by
  simp only [val_main_v175, val_main_v172, val_main_v171, val_main_cst_44, val_main_v174, val_main_v173, val_main_cst_45]
  funext i; rfl

/-- Region 8 leaves the round's value in its output array … -/
theorem W20_out (hi : (W19 m ρ c (Proc.devRef .tc main_v2) = val_main_v8 (F := Ideal) (x0 m c) (x2 m c) (x3 m c) (x4 m c) (x5 m c) ∧ W19 m ρ c (Proc.devRef .tc main_v6) = val_main_v12 (F := Ideal) (x1 m c) ∧ W19 m ρ c (Proc.devRef .tc main_v9) = val_main_v15 (F := Ideal) (x1 m c) ∧ W19 m ρ c (Proc.devRef .tc main_v32) = val_main_v38 (F := Ideal) (x1 m c))) (ha : W19 m ρ c (Proc.devRef .tc main_v143) = val_main_v170 (F := Ideal) (x0 m c) (x1 m c) (x2 m c) (x3 m c) (x4 m c) (x5 m c)) :
    W20 m ρ c (Proc.devRef .tc main_v144) = val_main_v175 (F := Ideal) (x0 m c) (x1 m c) (x2 m c) (x3 m c) (x4 m c) (x5 m c) := by
  refine (W20_arr m ρ c 2).trans ((Cert.Gnn.R8.array_eq (V19 m ρ) c).trans ?_)
  show Cert.Gnn.teleport (s := S100000x64) (W19 m ρ c (Proc.devRef .tc main_v143)) (W19 m ρ c (Proc.devRef .tc main_v2)) = _
  rw [ha, hi.1]
  exact (ref_round8 m c).symm

/-- … and keeps the four carried buffers. -/
theorem inv20 (hi : (W19 m ρ c (Proc.devRef .tc main_v2) = val_main_v8 (F := Ideal) (x0 m c) (x2 m c) (x3 m c) (x4 m c) (x5 m c) ∧ W19 m ρ c (Proc.devRef .tc main_v6) = val_main_v12 (F := Ideal) (x1 m c) ∧ W19 m ρ c (Proc.devRef .tc main_v9) = val_main_v15 (F := Ideal) (x1 m c) ∧ W19 m ρ c (Proc.devRef .tc main_v32) = val_main_v38 (F := Ideal) (x1 m c))) : (W20 m ρ c (Proc.devRef .tc main_v2) = val_main_v8 (F := Ideal) (x0 m c) (x2 m c) (x3 m c) (x4 m c) (x5 m c) ∧ W20 m ρ c (Proc.devRef .tc main_v6) = val_main_v12 (F := Ideal) (x1 m c) ∧ W20 m ρ c (Proc.devRef .tc main_v9) = val_main_v15 (F := Ideal) (x1 m c) ∧ W20 m ρ c (Proc.devRef .tc main_v32) = val_main_v38 (F := Ideal) (x1 m c)) :=
  ⟨((W20_arr m ρ c 1).trans (((dat8 (V19 m ρ) c).arrAt_in 1 rfl _).trans (A_eq8 (V19 m ρ) c 1))).trans hi.1,
   (W20_of_ne m ρ c main_v6 (by decide)).trans hi.2.1,
   (W20_of_ne m ρ c main_v9 (by decide)).trans hi.2.2.1,
   (W20_of_ne m ρ c main_v32 (by decide)).trans hi.2.2.2⟩

/-- The host operations before region 9 gather the round-8 value along `src`, weight it and scatter-add it along `dst`:
    the reference's next aggregate. -/
theorem W21_agg (hi : (W20 m ρ c (Proc.devRef .tc main_v2) = val_main_v8 (F := Ideal) (x0 m c) (x2 m c) (x3 m c) (x4 m c) (x5 m c) ∧ W20 m ρ c (Proc.devRef .tc main_v6) = val_main_v12 (F := Ideal) (x1 m c) ∧ W20 m ρ c (Proc.devRef .tc main_v9) = val_main_v15 (F := Ideal) (x1 m c) ∧ W20 m ρ c (Proc.devRef .tc main_v32) = val_main_v38 (F := Ideal) (x1 m c))) (ho : W20 m ρ c (Proc.devRef .tc main_v144) = val_main_v175 (F := Ideal) (x0 m c) (x1 m c) (x2 m c) (x3 m c) (x4 m c) (x5 m c)) :
    W21 m ρ c (Proc.devRef .tc main_v157) = val_main_v187 (F := Ideal) (x0 m c) (x1 m c) (x2 m c) (x3 m c) (x4 m c) (x5 m c) := by
  show StableHlo.after hostOps9 (W20 m ρ c) (Proc.devRef .tc main_v157) = _
  dsimp only [hostOps9]; after_results_simp
  rw [ho, hi.2.1, hi.2.2.1, hi.2.2.2]
  simp only [val_main_v187, val_main_v185, val_main_cst_48, val_main_v186, val_main_v184, val_main_v183, val_main_v39, val_main_v182, val_main_v181, val_main_v180, val_main_v177, val_main_v176, val_main_c_46, val_main_v179, val_main_v178, val_main_c_47]
  try rfl

theorem inv21 (hi : (W20 m ρ c (Proc.devRef .tc main_v2) = val_main_v8 (F := Ideal) (x0 m c) (x2 m c) (x3 m c) (x4 m c) (x5 m c) ∧ W20 m ρ c (Proc.devRef .tc main_v6) = val_main_v12 (F := Ideal) (x1 m c) ∧ W20 m ρ c (Proc.devRef .tc main_v9) = val_main_v15 (F := Ideal) (x1 m c) ∧ W20 m ρ c (Proc.devRef .tc main_v32) = val_main_v38 (F := Ideal) (x1 m c))) : (W21 m ρ c (Proc.devRef .tc main_v2) = val_main_v8 (F := Ideal) (x0 m c) (x2 m c) (x3 m c) (x4 m c) (x5 m c) ∧ W21 m ρ c (Proc.devRef .tc main_v6) = val_main_v12 (F := Ideal) (x1 m c) ∧ W21 m ρ c (Proc.devRef .tc main_v9) = val_main_v15 (F := Ideal) (x1 m c) ∧ W21 m ρ c (Proc.devRef .tc main_v32) = val_main_v38 (F := Ideal) (x1 m c)) := by
  refine ⟨?_, ?_, ?_, ?_⟩
  · show StableHlo.after hostOps9 (W20 m ρ c) (Proc.devRef .tc main_v2) = _
    dsimp only [hostOps9]; after_results_simp; exact hi.1
  · show StableHlo.after hostOps9 (W20 m ρ c) (Proc.devRef .tc main_v6) = _
    dsimp only [hostOps9]; after_results_simp; exact hi.2.1
  · show StableHlo.after hostOps9 (W20 m ρ c) (Proc.devRef .tc main_v9) = _
    dsimp only [hostOps9]; after_results_simp; exact hi.2.2.1
  · show StableHlo.after hostOps9 (W20 m ρ c) (Proc.devRef .tc main_v32) = _
    dsimp only [hostOps9]; after_results_simp; exact hi.2.2.2

/-! ## Round 9 -/

/-- The reference's round-9 value is the teleport combination of its aggregate and `h₀`. -/
theorem ref_round9 : val_main_v192 (F := Ideal) (x0 m c) (x1 m c) (x2 m c) (x3 m c) (x4 m c) (x5 m c) = Cert.Gnn.teleport (s := S100000x64) (val_main_v187 (F := Ideal) (x0 m c) (x1 m c) (x2 m c) (x3 m c) (x4 m c) (x5 m c)) (val_main_v8 (F := Ideal) (x0 m c) (x2 m c) (x3 m c) (x4 m c) (x5 m c)) := by
  simp only [val_main_v192, val_main_v189, val_main_v188, val_main_cst_49, val_main_v191, val_main_v190, val_main_cst_50]
  funext i; rfl

/-- Region 9 leaves the round's value in its output array … -/
theorem W22_out (hi : (W21 m ρ c (Proc.devRef .tc main_v2) = val_main_v8 (F := Ideal) (x0 m c) (x2 m c) (x3 m c) (x4 m c) (x5 m c) ∧ W21 m ρ c (Proc.devRef .tc main_v6) = val_main_v12 (F := Ideal) (x1 m c) ∧ W21 m ρ c (Proc.devRef .tc main_v9) = val_main_v15 (F := Ideal) (x1 m c) ∧ W21 m ρ c (Proc.devRef .tc main_v32) = val_main_v38 (F := Ideal) (x1 m c))) (ha : W21 m ρ c (Proc.devRef .tc main_v157) = val_main_v187 (F := Ideal) (x0 m c) (x1 m c) (x2 m c) (x3 m c) (x4 m c) (x5 m c)) :
    W22 m ρ c (Proc.devRef .tc main_v158) = val_main_v192 (F := Ideal) (x0 m c) (x1 m c) (x2 m c) (x3 m c) (x4 m c) (x5 m c) := by
  refine (W22_arr m ρ c 2).trans ((Cert.Gnn.R9.array_eq (V21 m ρ) c).trans ?_)
  show Cert.Gnn.teleport (s := S100000x64) (W21 m ρ c (Proc.devRef .tc main_v157)) (W21 m ρ c (Proc.devRef .tc main_v2)) = _
  rw [ha, hi.1]
  exact (ref_round9 m c).symm

/-- … and keeps the four carried buffers. -/
theorem inv22 (hi : (W21 m ρ c (Proc.devRef .tc main_v2) = val_main_v8 (F := Ideal) (x0 m c) (x2 m c) (x3 m c) (x4 m c) (x5 m c) ∧ W21 m ρ c (Proc.devRef .tc main_v6) = val_main_v12 (F := Ideal) (x1 m c) ∧ W21 m ρ c (Proc.devRef .tc main_v9) = val_main_v15 (F := Ideal) (x1 m c) ∧ W21 m ρ c (Proc.devRef .tc main_v32) = val_main_v38 (F := Ideal) (x1 m c))) : (W22 m ρ c (Proc.devRef .tc main_v2) = val_main_v8 (F := Ideal) (x0 m c) (x2 m c) (x3 m c) (x4 m c) (x5 m c) ∧ W22 m ρ c (Proc.devRef .tc main_v6) = val_main_v12 (F := Ideal) (x1 m c) ∧ W22 m ρ c (Proc.devRef .tc main_v9) = val_main_v15 (F := Ideal) (x1 m c) ∧ W22 m ρ c (Proc.devRef .tc main_v32) = val_main_v38 (F := Ideal) (x1 m c)) :=
  ⟨((W22_arr m ρ c 1).trans (((dat9 (V21 m ρ) c).arrAt_in 1 rfl _).trans (A_eq9 (V21 m ρ) c 1))).trans hi.1,
   (W22_of_ne m ρ c main_v6 (by decide)).trans hi.2.1,
   (W22_of_ne m ρ c main_v9 (by decide)).trans hi.2.2.1,
   (W22_of_ne m ρ c main_v32 (by decide)).trans hi.2.2.2⟩

/-- The host operations before region 10 gather the round-9 value along `src`, weight it and scatter-add it along `dst`:
    the reference's next aggregate. -/
theorem W23_agg (hi : (W22 m ρ c (Proc.devRef .tc main_v2) = val_main_v8 (F := Ideal) (x0 m c) (x2 m c) (x3 m c) (x4 m c) (x5 m c) ∧ W22 m ρ c (Proc.devRef .tc main_v6) = val_main_v12 (F := Ideal) (x1 m c) ∧ W22 m ρ c (Proc.devRef .tc main_v9) = val_main_v15 (F := Ideal) (x1 m c) ∧ W22 m ρ c (Proc.devRef .tc main_v32) = val_main_v38 (F := Ideal) (x1 m c))) (ho : W22 m ρ c (Proc.devRef .tc main_v158) = val_main_v192 (F := Ideal) (x0 m c) (x1 m c) (x2 m c) (x3 m c) (x4 m c) (x5 m c)) :
    W23 m ρ c (Proc.devRef .tc main_v171) = val_main_v204 (F := Ideal) (x0 m c) (x1 m c) (x2 m c) (x3 m c) (x4 m c) (x5 m c) := by
  show StableHlo.after hostOps10 (W22 m ρ c) (Proc.devRef .tc main_v171) = _
  dsimp only [hostOps10]; after_results_simp
  rw [ho, hi.2.1, hi.2.2.1, hi.2.2.2]
  simp only [val_main_v204, val_main_v202, val_main_cst_53, val_main_v203, val_main_v201, val_main_v200, val_main_v39, val_main_v199, val_main_v198, val_main_v197, val_main_v194, val_main_v193, val_main_c_51, val_main_v196, val_main_v195, val_main_c_52]
  try rfl

theorem inv23 (hi : (W22 m ρ c (Proc.devRef .tc main_v2) = val_main_v8 (F := Ideal) (x0 m c) (x2 m c) (x3 m c) (x4 m c) (x5 m c) ∧ W22 m ρ c (Proc.devRef .tc main_v6) = val_main_v12 (F := Ideal) (x1 m c) ∧ W22 m ρ c (Proc.devRef .tc main_v9) = val_main_v15 (F := Ideal) (x1 m c) ∧ W22 m ρ c (Proc.devRef .tc main_v32) = val_main_v38 (F := Ideal) (x1 m c))) : (W23 m ρ c (Proc.devRef .tc main_v2) = val_main_v8 (F := Ideal) (x0 m c) (x2 m c) (x3 m c) (x4 m c) (x5 m c) ∧ W23 m ρ c (Proc.devRef .tc main_v6) = val_main_v12 (F := Ideal) (x1 m c) ∧ W23 m ρ c (Proc.devRef .tc main_v9) = val_main_v15 (F := Ideal) (x1 m c) ∧ W23 m ρ c (Proc.devRef .tc main_v32) = val_main_v38 (F := Ideal) (x1 m c)) := by
  refine ⟨?_, ?_, ?_, ?_⟩
  · show StableHlo.after hostOps10 (W22 m ρ c) (Proc.devRef .tc main_v2) = _
    dsimp only [hostOps10]; after_results_simp; exact hi.1
  · show StableHlo.after hostOps10 (W22 m ρ c) (Proc.devRef .tc main_v6) = _
    dsimp only [hostOps10]; after_results_simp; exact hi.2.1
  · show StableHlo.after hostOps10 (W22 m ρ c) (Proc.devRef .tc main_v9) = _
    dsimp only [hostOps10]; after_results_simp; exact hi.2.2.1
  · show StableHlo.after hostOps10 (W22 m ρ c) (Proc.devRef .tc main_v32) = _
    dsimp only [hostOps10]; after_results_simp; exact hi.2.2.2

/-! ## Round 10 -/

/-- The reference's round-10 value is the teleport combination of its aggregate and `h₀`. -/
theorem ref_round10 : val_main_v209 (F := Ideal) (x0 m c) (x1 m c) (x2 m c) (x3 m c) (x4 m c) (x5 m c) = Cert.Gnn.teleport (s := S100000x64) (val_main_v204 (F := Ideal) (x0 m c) (x1 m c) (x2 m c) (x3 m c) (x4 m c) (x5 m c)) (val_main_v8 (F := Ideal) (x0 m c) (x2 m c) (x3 m c) (x4 m c) (x5 m c)) := by
  simp only [val_main_v209, val_main_v206, val_main_v205, val_main_cst_54, val_main_v208, val_main_v207, val_main_cst_55]
  funext i; rfl

/-- Region 10 leaves the round's value in its output array … -/
theorem W24_out (hi : (W23 m ρ c (Proc.devRef .tc main_v2) = val_main_v8 (F := Ideal) (x0 m c) (x2 m c) (x3 m c) (x4 m c) (x5 m c) ∧ W23 m ρ c (Proc.devRef .tc main_v6) = val_main_v12 (F := Ideal) (x1 m c) ∧ W23 m ρ c (Proc.devRef .tc main_v9) = val_main_v15 (F := Ideal) (x1 m c) ∧ W23 m ρ c (Proc.devRef .tc main_v32) = val_main_v38 (F := Ideal) (x1 m c))) (ha : W23 m ρ c (Proc.devRef .tc main_v171) = val_main_v204 (F := Ideal) (x0 m c) (x1 m c) (x2 m c) (x3 m c) (x4 m c) (x5 m c)) :
    W24 m ρ c (Proc.devRef .tc main_v172) = val_main_v209 (F := Ideal) (x0 m c) (x1 m c) (x2 m c) (x3 m c) (x4 m c) (x5 m c) := by
  refine (W24_arr m ρ c 2).trans ((Cert.Gnn.R10.array_eq (V23 m ρ) c).trans ?_)
  show Cert.Gnn.teleport (s := S100000x64) (W23 m ρ c (Proc.devRef .tc main_v171)) (W23 m ρ c (Proc.devRef .tc main_v2)) = _
  rw [ha, hi.1]
  exact (ref_round10 m c).symm

/-- … and keeps the four carried buffers. -/
theorem inv24 (hi : (W23 m ρ c (Proc.devRef .tc main_v2) = val_main_v8 (F := Ideal) (x0 m c) (x2 m c) (x3 m c) (x4 m c) (x5 m c) ∧ W23 m ρ c (Proc.devRef .tc main_v6) = val_main_v12 (F := Ideal) (x1 m c) ∧ W23 m ρ c (Proc.devRef .tc main_v9) = val_main_v15 (F := Ideal) (x1 m c) ∧ W23 m ρ c (Proc.devRef .tc main_v32) = val_main_v38 (F := Ideal) (x1 m c))) : (W24 m ρ c (Proc.devRef .tc main_v2) = val_main_v8 (F := Ideal) (x0 m c) (x2 m c) (x3 m c) (x4 m c) (x5 m c) ∧ W24 m ρ c (Proc.devRef .tc main_v6) = val_main_v12 (F := Ideal) (x1 m c) ∧ W24 m ρ c (Proc.devRef .tc main_v9) = val_main_v15 (F := Ideal) (x1 m c) ∧ W24 m ρ c (Proc.devRef .tc main_v32) = val_main_v38 (F := Ideal) (x1 m c)) :=
  ⟨((W24_arr m ρ c 1).trans (((dat10 (V23 m ρ) c).arrAt_in 1 rfl _).trans (A_eq10 (V23 m ρ) c 1))).trans hi.1,
   (W24_of_ne m ρ c main_v6 (by decide)).trans hi.2.1,
   (W24_of_ne m ρ c main_v9 (by decide)).trans hi.2.2.1,
   (W24_of_ne m ρ c main_v32 (by decide)).trans hi.2.2.2⟩

/-! ## The ten rounds chained, and the log-softmax -/

theorem W24_v172 : W24 m ρ c (Proc.devRef .tc main_v172) = val_main_v209 (F := Ideal) (x0 m c) (x1 m c) (x2 m c) (x3 m c) (x4 m c) (x5 m c) := by
  have i5 := inv5 m ρ c
  have o6 := W6_out m ρ c i5 (W5_v45 m ρ c)
  have i6 := inv6 m ρ c i5
  have a7 := W7_agg m ρ c i6 o6
  have i7 := inv7 m ρ c i6
  have o8 := W8_out m ρ c i7 a7
  have i8 := inv8 m ρ c i7
  have a9 := W9_agg m ρ c i8 o8
  have i9 := inv9 m ρ c i8
  have o10 := W10_out m ρ c i9 a9
  have i10 := inv10 m ρ c i9
  have a11 := W11_agg m ρ c i10 o10
  have i11 := inv11 m ρ c i10
  have o12 := W12_out m ρ c i11 a11
  have i12 := inv12 m ρ c i11
  have a13 := W13_agg m ρ c i12 o12
  have i13 := inv13 m ρ c i12
  have o14 := W14_out m ρ c i13 a13
  have i14 := inv14 m ρ c i13
  have a15 := W15_agg m ρ c i14 o14
  have i15 := inv15 m ρ c i14
  have o16 := W16_out m ρ c i15 a15
  have i16 := inv16 m ρ c i15
  have a17 := W17_agg m ρ c i16 o16
  have i17 := inv17 m ρ c i16
  have o18 := W18_out m ρ c i17 a17
  have i18 := inv18 m ρ c i17
  have a19 := W19_agg m ρ c i18 o18
  have i19 := inv19 m ρ c i18
  have o20 := W20_out m ρ c i19 a19
  have i20 := inv20 m ρ c i19
  have a21 := W21_agg m ρ c i20 o20
  have i21 := inv21 m ρ c i20
  have o22 := W22_out m ρ c i21 a21
  have i22 := inv22 m ρ c i21
  have a23 := W23_agg m ρ c i22 o22
  have i23 := inv23 m ρ c i22
  have o24 := W24_out m ρ c i23 a23
  have i24 := inv24 m ρ c i23
  exact o24

/-- THE KERNEL PROGRAM'S RESULT: the last boundary's contents at the result's reference is the reference's result, as a
    function of the six argument arrays. -/
theorem result_eq : W25 m ρ c (Proc.devRef .tc main_v173) = val_main_v210 (F := Ideal) (x0 m c) (x1 m c) (x2 m c) (x3 m c) (x4 m c) (x5 m c) := by
  refine (W25_arr m ρ c 1).trans ((Cert.Gnn.LogSoftmaxRegion.array_eq (V24 m ρ) c).trans ?_)
  show Cert.Gnn.logSoftmax (n := 100000) (W24 m ρ c (Proc.devRef .tc main_v172)) = _
  rw [W24_v172]
  exact Cert.Gnn.LogSoftmaxRegion.reference_eq (x0 m c) (x1 m c) (x2 m c) (x3 m c) (x4 m c) (x5 m c)

end Cert.Gnn.Chain

end
-- ==== Proof.lean ====
/-
  Equivalence, over the extended reals, of a graph-propagation network written with pallas regions and of its plain
  reference.

  Both programs compute, from node features x, an edge list, and the parameters of a two-layer perceptron:
      h₀ = relu (x · W₁ + b₁) · W₂ + b₂,
      h  ← 0.9 · Â h + 0.1 · h₀        ten times, from h = h₀   (Â the symmetric-normalised adjacency with self loops),
      the row-wise log-softmax of h.
  The kernel program runs the perceptron, each of the ten combinations and the log-softmax as pallas regions over row
  blocks and everything else — the degree count, its inverse square root, the gathers and scatter-adds — as the very host
  operations the reference runs.  At the ideal values a narrowing to bf16 is the identity, a product into a zero
  accumulator is a plain sum and the order of a sum or of a maximum is immaterial, so each region's output array is the
  reference's corresponding value (modules Mlp, Teleport, LogSoftmax and their reference-side companions), the kernel
  program's segments compose to the reference's last named value (module Chain), and so does the reference's own line of
  operations (module RefChain).  No law that fails at the infinities is used: the proof never opens the precondition.

  The two kernel programs' frame claims are the generated frames; the reference's is its run with the argument buffers read
  back (no operation writes one: module RefArgs); the kernel's idealisation rewrote nothing, so `preserves` is trivial.
-/
import proofs.«180246_j3951369912443_1_alg».proof.Defs
import proofs.«180246_j3951369912443_1_alg».proof.Proof.Gen.Kernel
import proofs.«180246_j3951369912443_1_alg».proof.Proof.Gen.Kernel.Skeleton
import proofs.«180246_j3951369912443_1_alg».proof.Proof.Gen.Kernel.Launch
import proofs.«180246_j3951369912443_1_alg».proof.Proof.Gen.Kernel.Points
import proofs.«180246_j3951369912443_1_alg».proof.Proof.Gen.Kernel.Frame
import proofs.«180246_j3951369912443_1_alg».proof.Proof.Gen.KernelIdeal
import proofs.«180246_j3951369912443_1_alg».proof.Proof.Gen.KernelIdeal.Skeleton
import proofs.«180246_j3951369912443_1_alg».proof.Proof.Gen.KernelIdeal.Launch
import proofs.«180246_j3951369912443_1_alg».proof.Proof.Gen.KernelIdeal.Points
import proofs.«180246_j3951369912443_1_alg».proof.Proof.Gen.KernelIdeal.Frame
import proofs.«180246_j3951369912443_1_alg».proof.Proof.Gen.ReferenceIdeal
import proofs.«180246_j3951369912443_1_alg».proof.Proof.Gen.Pre_finite_inputs
import proofs.«180246_j3951369912443_1_alg».proof.Proof.RefRun
import proofs.«180246_j3951369912443_1_alg».proof.Proof.RefRead
import proofs.«180246_j3951369912443_1_alg».proof.Proof.RefChain
import proofs.«180246_j3951369912443_1_alg».proof.Proof.RefArgs
import proofs.«180246_j3951369912443_1_alg».proof.Proof.KernelRun
import proofs.«180246_j3951369912443_1_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono
    (fun _ h c => ⟨(h c Cert.ReferenceIdeal.main_arg0).trans (Cert.Gnn.RefChain.arg0_kept m c),
      (h c Cert.ReferenceIdeal.main_arg1).trans (Cert.Gnn.RefChain.arg1_kept m c),
      (h c Cert.ReferenceIdeal.main_arg2).trans (Cert.Gnn.RefChain.arg2_kept m c),
      (h c Cert.ReferenceIdeal.main_arg3).trans (Cert.Gnn.RefChain.arg3_kept m c),
      (h c Cert.ReferenceIdeal.main_arg4).trans (Cert.Gnn.RefChain.arg4_kept m c),
      (h c Cert.ReferenceIdeal.main_arg5).trans (Cert.Gnn.RefChain.arg5_kept m c)⟩)
    (Cert.ReferenceIdeal.ValueP.run (F := Ideal) m ρ)

theorem preserves : Cert.preserves_Kernel_KernelIdeal := trivial

/-- Both idealized programs end, from memories that agree on the arguments, with the reference's last named value of
    the arguments in their result buffers. -/
theorem algebraic : Cert.algebraic_KernelIdeal_ReferenceIdeal := by
  intro m ρ m' ρ' _ hagree
  refine ⟨fun c => Cert.ReferenceIdeal.ReadP.val_main_v210 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Gnn.Chain.result_eq m ρ c), (h c).2⟩)
      (Cert.Gnn.KernelRun.run_value (F := Ideal) m ρ)
  · refine (θ_run Cert.ReferenceIdeal.defs _ _).mono
      (fun _ h c => ⟨(h c Cert.ReferenceIdeal.main_v210).trans ((Cert.Gnn.RefChain.result_eq m' c).trans ?_),
        (h c Cert.ReferenceIdeal.main_arg0).trans (Cert.Gnn.RefChain.arg0_kept m' c),
        (h c Cert.ReferenceIdeal.main_arg1).trans (Cert.Gnn.RefChain.arg1_kept m' c),
        (h c Cert.ReferenceIdeal.main_arg2).trans (Cert.Gnn.RefChain.arg2_kept m' c),
        (h c Cert.ReferenceIdeal.main_arg3).trans (Cert.Gnn.RefChain.arg3_kept m' c),
        (h c Cert.ReferenceIdeal.main_arg4).trans (Cert.Gnn.RefChain.arg4_kept m' c),
        (h c Cert.ReferenceIdeal.main_arg5).trans (Cert.Gnn.RefChain.arg5_kept m' c)⟩)
      (Cert.ReferenceIdeal.ValueP.run (F := Ideal) m' ρ')
    obtain ⟨a0, a1, a2, a3, a4, a5⟩ := hagree c
    show Cert.ReferenceIdeal.ReadP.val_main_v210 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
    rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
